-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S1600000 : Shape := ⟨1, ![1600000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x47 : S_.BroadcastsInDim S64x47 (![] : Fin 0 → Fin S64x47.rank)
  reducesTo_S64x47_S_d0_1 : S64x47.ReducesTo [0, 1] S_
  bcast_S_S47 : S_.BroadcastsInDim S47 (![] : Fin 0 → Fin S47.rank)
  reducesTo_S47_S_d0 : S47.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64x47 .f32) (main_arg14 : FVec F S64x47 .f32) (main_arg15 : FVec F S47 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x47 .f32 := Host.absf main_arg13
  let main_cst_20 : FVec F S_ .f32 := constant S_ .f32 0x7F800000#32
  let main_v55 : FVec F S64x47 .f32 := broadcastInDim S64x47 ![] bcast_S_S64x47 main_cst_20
  let main_v56 : IVec S64x47 1 := cmpf .olt main_v54 main_v55
  let main_c_21 : IVec S_ 1 := constantI S_ 1 1#1
  let main_v57 : IVec S_ 1 := (fun x v => Host.reduce IntOp.andi x v reducesTo_S64x47_S_d0_1 h_S_) main_v56 main_c_21
  let main_v58 : IVec S_ 1 := andi main_v53 main_v57
  let main_v59 : FVec F S64x47 .f32 := Host.absf main_arg14
  let main_cst_22 : FVec F S_ .f32 := constant S_ .f32 0x7F800000#32
  let main_v60 : FVec F S64x47 .f32 := broadcastInDim S64x47 ![] bcast_S_S64x47 main_cst_22
  let main_v61 : IVec S64x47 1 := cmpf .olt main_v59 main_v60
  let main_c_23 : IVec S_ 1 := constantI S_ 1 1#1
  let main_v62 : IVec S_ 1 := (fun x v => Host.reduce IntOp.andi x v reducesTo_S64x47_S_d0_1 h_S_) main_v61 main_c_23
  let main_v63 : IVec S_ 1 := andi main_v58 main_v62
  let main_v64 : FVec F S47 .f32 := Host.absf main_arg15
  let main_cst_24 : FVec F S_ .f32 := constant S_ .f32 0x7F800000#32
  let main_v65 : FVec F S47 .f32 := broadcastInDim S47 ![] bcast_S_S47 main_cst_24
  let main_v66 : IVec S47 1 := cmpf .olt main_v64 main_v65
  let main_c_25 : IVec S_ 1 := constantI S_ 1 1#1
  let main_v67 : IVec S_ 1 := (fun x v => Host.reduce IntOp.andi x v reducesTo_S47_S_d0 h_S_) main_v66 main_c_25
  fn_part4 (F := F) main_v63 main_v67

def fn_part2 {F : FTy → Type} [FloatOps F] (main_arg9 : FVec F S64x64 .f32) (main_arg10 : FVec F S64 .f32) (main_arg11 : FVec F S64 .f32) (main_arg12 : FVec F S64 .f32) (main_arg13 : FVec F S64x47 .f32) (main_arg14 : FVec F S64x47 .f32) (main_arg15 : FVec F S47 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x47 .f32) (main_arg14 : FVec F S64x47 .f32) (main_arg15 : FVec F S47 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x100 .f32) (main_arg1 : IVec S1600000 32) (main_arg2 : IVec S1600000 32) (main_arg3 : FVec F S100x64 .f32) (main_arg4 : FVec F S100x64 .f32) (main_arg5 : FVec F S64 .f32) (main_arg6 : FVec F S64 .f32) (main_arg7 : FVec F S64 .f32) (main_arg8 : FVec F S64x64 .f32) (main_arg9 : FVec F S64x64 .f32) (main_arg10 : FVec F S64 .f32) (main_arg11 : FVec F S64 .f32) (main_arg12 : FVec F S64 .f32) (main_arg13 : FVec F S64x47 .f32) (main_arg14 : FVec F S64x47 .f32) (main_arg15 : FVec F S47 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x64 .f32 := Host.absf main_arg3
  let main_cst_0 : FVec F S_ .f32 := constant S_ .f32 0x7F800000#32
  let main_v5 : FVec F S100x64 .f32 := broadcastInDim S100x64 ![] bcast_S_S100x64 main_cst_0
  let main_v6 : IVec S100x64 1 := cmpf .olt main_v4 main_v5
  let main_c_1 : IVec S_ 1 := constantI S_ 1 1#1
  let main_v7 : IVec S_ 1 := (fun x v => Host.reduce IntOp.andi x v reducesTo_S100x64_S_d0_1 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x100 : Shape := ⟨2, ![100000, 100]⟩
abbrev S1600000 : Shape := ⟨1, ![1600000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S10000x100 : Shape := ⟨2, ![10000, 100]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S100000x47 : Shape := ⟨2, ![100000, 47]⟩
abbrev S10000x47 : Shape := ⟨2, ![10000, 47]⟩
abbrev S1600000x47 : Shape := ⟨2, ![1600000, 47]⟩
abbrev S1x47 : Shape := ⟨2, ![1, 47]⟩
abbrev S10000 : Shape := ⟨1, ![10000]⟩

abbrev nBuf : Space → Nat
  | .hbm => 123
  | .vmem => 57
  | .smem => 0
  | _ => 0

abbrev bufTy : (tb : Table) → Fin (tcTables nBuf tb) → BufTy
  | .hbm, ⟨0, _⟩ => ⟨S100000x100, .f32⟩
  | .hbm, ⟨1, _⟩ => ⟨S1600000, .i32⟩
  | .hbm, ⟨2, _⟩ => ⟨S1600000, .i32⟩
  | .hbm, ⟨3, _⟩ => ⟨S100x64, .f32⟩
  | .hbm, ⟨4, _⟩ => ⟨S100x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x47, .f32⟩
  | .hbm, ⟨14, _⟩ => ⟨S64x47, .f32⟩
  | .hbm, ⟨15, _⟩ => ⟨S47, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S_, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S_, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S_, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S_, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S100000x64, .f32⟩
  | .hbm, ⟨107, _⟩ => ⟨S100000x47, .f32⟩
  | .hbm, ⟨108, _⟩ => ⟨S_, .i32⟩
  | .hbm, ⟨109, _⟩ => ⟨S1600000, .i32⟩
  | .hbm, ⟨110, _⟩ => ⟨S1600000, .i1⟩
  | .hbm, ⟨111, _⟩ => ⟨S_, .i32⟩
  | .hbm, ⟨112, _⟩ => ⟨S1600000, .i32⟩
  | .hbm, ⟨113, _⟩ => ⟨S1600000, .i32⟩
  | .hbm, ⟨114, _⟩ => ⟨S1600000, .i32⟩
  | .hbm, ⟨115, _⟩ => ⟨S1600000x1, .i32⟩
  | .hbm, ⟨116, _⟩ => ⟨S1600000x47, .f32⟩
  | .hbm, ⟨117, _⟩ => ⟨S_, .f32⟩
  | .hbm, ⟨118, _⟩ => ⟨S100000x47, .f32⟩
  | .hbm, ⟨119, _⟩ => ⟨S1600000x1, .i32⟩
  | .hbm, ⟨120, _⟩ => ⟨S100000x47, .f32⟩
  | .hbm, ⟨121, _⟩ => ⟨S1x47, .f32⟩
  | .hbm, ⟨122, _⟩ => ⟨S100000x47, .f32⟩
  | .local _ .vmem, ⟨0, _⟩ => ⟨S10000x100, .f32⟩
  | .local _ .vmem, ⟨1, _⟩ => ⟨S10000x100, .f32⟩
  | .local _ .vmem, ⟨2, _⟩ => ⟨S100x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x100, .f32⟩
  | .local _ .vmem, ⟨8, _⟩ => ⟨S10000x100, .f32⟩
  | .local _ .vmem, ⟨9, _⟩ => ⟨S100x64, .f32⟩
  | .local _ .vmem, ⟨10, _⟩ => ⟨S1x64, .f32⟩
  | .local _ .vmem, ⟨11, _⟩ => ⟨S10000x1, .f32⟩
  | .local _ .vmem, ⟨12, _⟩ => ⟨S10000x1, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S1x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S1x64, .f32⟩
  | .local _ .vmem, ⟨32, _⟩ => ⟨S10000x1, .f32⟩
  | .local _ .vmem, ⟨33, _⟩ => ⟨S10000x1, .f32⟩
  | .local _ .vmem, ⟨34, _⟩ => ⟨S10000x64, .f32⟩
  | .local _ .vmem, ⟨35, _⟩ => ⟨S10000x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S1x64, .f32⟩
  | .local _ .vmem, ⟨41, _⟩ => ⟨S1x64, .f32⟩
  | .local _ .vmem, ⟨42, _⟩ => ⟨S64x47, .f32⟩
  | .local _ .vmem, ⟨43, _⟩ => ⟨S10000x64, .f32⟩
  | .local _ .vmem, ⟨44, _⟩ => ⟨S10000x64, .f32⟩
  | .local _ .vmem, ⟨45, _⟩ => ⟨S10000x47, .f32⟩
  | .local _ .vmem, ⟨46, _⟩ => ⟨S10000x47, .f32⟩
  | .local _ .vmem, ⟨47, _⟩ => ⟨S10000x47, .f32⟩
  | .local _ .vmem, ⟨48, _⟩ => ⟨S10000x47, .f32⟩
  | .local _ .vmem, ⟨49, _⟩ => ⟨S10000x64, .f32⟩
  | .local _ .vmem, ⟨50, _⟩ => ⟨S10000x64, .f32⟩
  | .local _ .vmem, ⟨51, _⟩ => ⟨S64x47, .f32⟩
  | .local _ .vmem, ⟨52, _⟩ => ⟨S1x47, .f32⟩
  | .local _ .vmem, ⟨53, _⟩ => ⟨S10000x1, .f32⟩
  | .local _ .vmem, ⟨54, _⟩ => ⟨S10000x1, .f32⟩
  | .local _ .vmem, ⟨55, _⟩ => ⟨S10000x47, .f32⟩
  | .local _ .vmem, ⟨56, _⟩ => ⟨S10000x47, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c : Ref sig .tc := ⟨.hbm, 30, rfl⟩
abbrev main_v10 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev main_cst_5 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38_0 : Ref sig .tc := ⟨.hbm, 67, rfl⟩
abbrev main_v38_1 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_c_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50_0 : Ref sig .tc := ⟨.hbm, 83, rfl⟩
abbrev main_v50_1 : Ref sig .tc := ⟨.hbm, 84, rfl⟩
abbrev main_v50_2 : Ref sig .tc := ⟨.hbm, 85, rfl⟩
abbrev main_cst_12 : Ref sig .tc := ⟨.hbm, 86, rfl⟩
abbrev main_v51 : Ref sig .tc := ⟨.hbm, 87, rfl⟩
abbrev main_v52 : Ref sig .tc := ⟨.hbm, 88, rfl⟩
abbrev main_cst_13 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_14 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_15 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67_0 : Ref sig .tc := ⟨.hbm, 106, rfl⟩
abbrev main_v67_1 : Ref sig .tc := ⟨.hbm, 107, rfl⟩
abbrev main_c_16 : Ref sig .tc := ⟨.hbm, 108, rfl⟩
abbrev main_v68 : Ref sig .tc := ⟨.hbm, 109, rfl⟩
abbrev main_v69 : Ref sig .tc := ⟨.hbm, 110, rfl⟩
abbrev main_c_17 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_18 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg7_0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem4_1 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem4_1 : DmaSem sig := 54
abbrev cc5_sem5_0 : DmaSem sig := 55
abbrev cc5_sem5_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S100x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x47 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x47 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x47 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x47 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x47 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S10000x47 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x100_S10000x100_0_0 : ∀ a, (![0, 0] : Fin 2 → Nat) a + S10000x100.size a ≤ S10000x100.size a
  h_S10000x100 : 0 < S10000x100.numel
  inb_S100x64_S100x64_0_0 : ∀ a, (![0, 0] : Fin 2 → Nat) a + S100x64.size a ≤ S100x64.size a
  h_S100x64 : 0 < S100x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  inb_S64x47_S64x47_0_0 : ∀ a, (![0, 0] : Fin 2 → Nat) a + S64x47.size a ≤ S64x47.size a
  h_S64x47 : 0 < S64x47.numel
  inb_S10000x47_S10000x47_0_0 : ∀ a, (![0, 0] : Fin 2 → Nat) a + S10000x47.size a ≤ S10000x47.size a
  h_S10000x47 : 0 < S10000x47.numel
  bcast_S_S100000x47 : S_.BroadcastsInDim S100000x47 (![] : Fin 0 → Fin S100000x47.rank)
  shapeCasts_S47_S1x47 : S47.ShapeCasts S1x47
  shapeCasts_S10000x47_S10000x47 : S10000x47.ShapeCasts S10000x47
  broadcasts_S10000x1_S10000x47 : S10000x1.Broadcasts S10000x47
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S10000x47 : S1x47.Broadcasts S10000x47
  reduces_S10000x47_S10000 : S10000x47.Reduces [1] S10000
  shapeCasts_S10000_S10000x1 : S10000.ShapeCasts S10000x1
  scatter_S100000_S1600000x1_S1600000_n_0_0_1_wf : ScatterDims.WF S100000 S1600000x1 S1600000 [] [0] [0] 1
  dot_S10000x100_S100x64_S10000x64_1_0_0_1_n_n_wf : DotDims.WF S10000x100 S100x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x47_S10000x47_1_0_0_1_n_n_wf : DotDims.WF S10000x64 S64x47 S10000x47 [1] [0] [0] [1] [] []
  gather_S100000x47_S1600000x1_S1600000x47_1_0_n_n_0_1_147_wf : GatherDims.WF S100000x47 S1600000x1 S1600000x47 [1] [0] [] [0] [] 1 ![1, 47]
  scatter_S100000x47_S1600000x1_S1600000x47_1_0_0_1_wf : ScatterDims.WF S100000x47 S1600000x1 S1600000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x100.size a ≤ S100000x100.size a
  hwx1_1 : ∀ i : grid1.Coords, EltTy.bits .f32 = 32 ∨ (Rect.block (s := S100000x100) S10000x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x64.size a ≤ S100x64.size a
  hwx1_2 : ∀ i : grid1.Coords, EltTy.bits .f32 = 32 ∨ (Rect.block (s := S100x64) S100x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S100000x1.size a
  hwx1_4 : ∀ i : grid1.Coords, EltTy.bits .f32 = 32 ∨ (Rect.block (s := S100000x1) S10000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x1.size a ≤ S100000x1.size a
  hwx3_4 : ∀ i : grid3.Coords, EltTy.bits .f32 = 32 ∨ (Rect.block (s := S100000x1) S10000x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x47.size a ≤ S64x47.size a
  hwx4_3 : ∀ i : grid4.Coords, EltTy.bits .f32 = 32 ∨ (Rect.block (s := S64x47) S64x47.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x47.size a ≤ S100000x47.size a
  hwx4_5 : ∀ i : grid4.Coords, EltTy.bits .f32 = 32 ∨ (Rect.block (s := S100000x47) S10000x47.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x47.size a ≤ S100000x47.size a
  hwx5_0 : ∀ i : grid5.Coords, EltTy.bits .f32 = 32 ∨ (Rect.block (s := S100000x47) S10000x47.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x47.size a ≤ S64x47.size a
  hwx5_2 : ∀ i : grid5.Coords, EltTy.bits .f32 = 32 ∨ (Rect.block (s := S64x47) S64x47.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x47.size a ≤ S1x47.size a
  hwx5_3 : ∀ i : grid5.Coords, EltTy.bits .f32 = 32 ∨ (Rect.block (s := S1x47) S1x47.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x1.size a ≤ S100000x1.size a
  hwx5_4 : ∀ i : grid5.Coords, EltTy.bits .f32 = 32 ∨ (Rect.block (s := S100000x1) S10000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x47.size a ≤ S100000x47.size a
  hwx5_5 : ∀ i : grid5.Coords, EltTy.bits .f32 = 32 ∨ (Rect.block (s := S100000x47) S10000x47.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x100_S100x64_S10000x64_1_0_0_1_n_n : DotDims S10000x100 S100x64 S10000x64 where
  lhsContracting := [1]
  rhsContracting := [0]
  lhsNonContracting := [0]
  rhsNonContracting := [1]
  lhsBatch := []
  rhsBatch := []
  wf := dot_S10000x100_S100x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x47_S10000x47_1_0_0_1_n_n : DotDims S10000x64 S64x47 S10000x47 where
  lhsContracting := [1]
  rhsContracting := [0]
  lhsNonContracting := [0]
  rhsNonContracting := [1]
  lhsBatch := []
  rhsBatch := []
  wf := dot_S10000x64_S64x47_S10000x47_1_0_0_1_n_n_wf
def gather_S100000x47_S1600000x1_S1600000x47_1_0_n_n_0_1_147 : GatherDims S100000x47 S1600000x1 S1600000x47 where
  offsetDims := [1]
  collapsedSliceDims := [0]
  operandBatchingDims := []
  startIndicesBatchingDims := []
  startIndexMap := [0]
  indexVectorDim := 1
  sliceSizes := ![1, 47]
  wf := gather_S100000x47_S1600000x1_S1600000x47_1_0_n_n_0_1_147_wf
def scatter_S100000x47_S1600000x1_S1600000x47_1_0_0_1 : ScatterDims S100000x47 S1600000x1 S1600000x47 where
  updateWindowDims := [1]
  insertedWindowDims := [0]
  scatterDimsToOperandDims := [0]
  indexVectorDim := 1
  wf := scatter_S100000x47_S1600000x1_S1600000x47_1_0_0_1_wf

abbrev win0_0 : Pipeline.Window sig grid0 :=
  Pipeline.Window.ofSpec (Memref.whole main_arg0) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S100x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S10000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_0) S10000x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v21_1) S1x64.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21_2) S1x64.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38_1) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38_0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v8) S10000x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v50_0) S10000x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v50_1) S1x64.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v50_2) S1x64.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v50_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S64x47.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v67_0) S10000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v67_1) S10000x47.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v77) S10000x47.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67_0) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S64x47.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v78) S1x47.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v8) S10000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v79) S10000x47.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x100 : Shape := ⟨2, ![100000, 100]⟩
abbrev S1600000 : Shape := ⟨1, ![1600000]⟩
abbrev S100x64 : Shape := ⟨2, ![100, 64]⟩
abbrev S64 : Shape := ⟨1, ![64]⟩
abbrev S64x64 : Shape := ⟨2, ![64, 64]⟩
abbrev S64x47 : Shape := ⟨2, ![64, 47]⟩
abbrev S47 : Shape := ⟨1, ![47]⟩
abbrev S_ : Shape := ⟨0, ![]⟩
abbrev S100000 : Shape := ⟨1, ![100000]⟩
abbrev S1600000x1 : Shape := ⟨2, ![1600000, 1]⟩
abbrev S1600000x100 : Shape := ⟨2, ![1600000, 100]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x47 : Shape := ⟨2, ![100000, 47]⟩
abbrev S1x47 : Shape := ⟨2, ![1, 47]⟩

abbrev nBuf : Space → Nat
  | .hbm => 175
  | .vmem => 0
  | .smem => 0
  | _ => 0

abbrev hbmTy0_0 (i : Nat) : BufTy := match i % 128 with
  | 0 => ⟨S100000x100, .f32⟩
  | 1 => ⟨S1600000, .i32⟩
  | 2 => ⟨S1600000, .i32⟩
  | 3 => ⟨S100x64, .f32⟩
  | 4 => ⟨S100x64, .f32⟩
  | 5 => ⟨S64, .f32⟩
  | 6 => ⟨S64, .f32⟩
  | 7 => ⟨S64, .f32⟩
  | 8 => ⟨S64x64, .f32⟩
  | 9 => ⟨S64x64, .f32⟩
  | 10 => ⟨S64, .f32⟩
  | 11 => ⟨S64, .f32⟩
  | 12 => ⟨S64, .f32⟩
  | 13 => ⟨S64x47, .f32⟩
  | 14 => ⟨S64x47, .f32⟩
  | 15 => ⟨S47, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x100, .f32⟩
  | 37 => ⟨S_, .f32⟩
  | 38 => ⟨S100000x100, .f32⟩
  | 39 => ⟨S1600000x1, .i32⟩
  | 40 => ⟨S100000x100, .f32⟩
  | 41 => ⟨S100000x1, .f32⟩
  | 42 => ⟨S100000x100, .f32⟩
  | 43 => ⟨S100000x100, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S64, .f32⟩
  | 72 => ⟨S64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x64, .f32⟩
  | 92 => ⟨S_, .f32⟩
  | 93 => ⟨S100000x64, .f32⟩
  | 94 => ⟨S1600000x1, .i32⟩
  | 95 => ⟨S100000x64, .f32⟩
  | 96 => ⟨S100000x1, .f32⟩
  | 97 => ⟨S100000x64, .f32⟩
  | 98 => ⟨S100000x64, .f32⟩
  | 99 => ⟨S100000x64, .f32⟩
  | 100 => ⟨S100000x64, .f32⟩
  | 101 => ⟨S100000x64, .f32⟩
  | 102 => ⟨S1x64, .f32⟩
  | 103 => ⟨S100000x64, .f32⟩
  | 104 => ⟨S100000x64, .f32⟩
  | 105 => ⟨S_, .f32⟩
  | 106 => ⟨S64, .f32⟩
  | 107 => ⟨S_, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S64, .f32⟩
  | 116 => ⟨S_, .f32⟩
  | 117 => ⟨S64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S64, .f32⟩
  | 127 => ⟨S64, .f32⟩
  | _ => ⟨S100000x100, .f32⟩

abbrev hbmTy0_1 (i : Nat) : BufTy := match i % 128 with
  | 0 => ⟨S64, .f32⟩
  | 1 => ⟨S1x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S_, .f32⟩
  | 20 => ⟨S100000x64, .f32⟩
  | 21 => ⟨S1600000x1, .i32⟩
  | 22 => ⟨S100000x64, .f32⟩
  | 23 => ⟨S100000x1, .f32⟩
  | 24 => ⟨S100000x64, .f32⟩
  | 25 => ⟨S100000x64, .f32⟩
  | 26 => ⟨S100000x47, .f32⟩
  | 27 => ⟨S100000x47, .f32⟩
  | 28 => ⟨S100000x47, .f32⟩
  | 29 => ⟨S1x47, .f32⟩
  | 30 => ⟨S100000x47, .f32⟩
  | 31 => ⟨S100000x47, .f32⟩
  | 32 => ⟨S_, .f32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x47, .f32⟩
  | 39 => ⟨S100000x47, .f32⟩
  | 40 => ⟨S100000x47, .f32⟩
  | 41 => ⟨S_, .f32⟩
  | 42 => ⟨S100000, .f32⟩
  | 43 => ⟨S100000x1, .f32⟩
  | 44 => ⟨S100000x1, .f32⟩
  | 45 => ⟨S100000x47, .f32⟩
  | 46 => ⟨S100000x47, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_cst_2 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call0_cst : Ref sig .tc := ⟨.hbm, 80, rfl⟩
abbrev main_call0_v0 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_13 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_15 : Ref sig .tc := ⟨.hbm, 114, rfl⟩
abbrev main_v79 : Ref sig .tc := ⟨.hbm, 115, rfl⟩
abbrev main_cst_16 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_17 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call1_cst : Ref sig .tc := ⟨.hbm, 135, rfl⟩
abbrev main_call1_v0 : Ref sig .tc := ⟨.hbm, 136, rfl⟩
abbrev main_v97 : Ref sig .tc := ⟨.hbm, 137, rfl⟩
abbrev main_c_18 : Ref sig .tc := ⟨.hbm, 138, rfl⟩
abbrev main_v98 : Ref sig .tc := ⟨.hbm, 139, rfl⟩
abbrev main_v99 : Ref sig .tc := ⟨.hbm, 140, rfl⟩
abbrev main_c_19 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_20 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_call2_cst : Ref sig .tc := ⟨.hbm, 160, rfl⟩
abbrev main_call2_v0 : Ref sig .tc := ⟨.hbm, 161, rfl⟩
abbrev main_call2_cst_0 : Ref sig .tc := ⟨.hbm, 162, rfl⟩
abbrev main_call2_v1 : Ref sig .tc := ⟨.hbm, 163, rfl⟩
abbrev main_call2_v2 : Ref sig .tc := ⟨.hbm, 164, rfl⟩
abbrev main_call2_v3 : Ref sig .tc := ⟨.hbm, 165, rfl⟩
abbrev main_call2_v4 : Ref sig .tc := ⟨.hbm, 166, rfl⟩
abbrev main_call2_v5 : Ref sig .tc := ⟨.hbm, 167, rfl⟩
abbrev main_call2_v6 : Ref sig .tc := ⟨.hbm, 168, rfl⟩
abbrev main_call2_cst_1 : Ref sig .tc := ⟨.hbm, 169, rfl⟩
abbrev main_call2_v7 : Ref sig .tc := ⟨.hbm, 170, rfl⟩
abbrev main_call2_v8 : Ref sig .tc := ⟨.hbm, 171, rfl⟩
abbrev main_call2_v9 : Ref sig .tc := ⟨.hbm, 172, rfl⟩
abbrev main_call2_v10 : Ref sig .tc := ⟨.hbm, 173, rfl⟩
abbrev main_v117 : Ref sig .tc := ⟨.hbm, 174, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x64_S100000x64_1_0_0_1_n_n_wf : DotDims.WF S100000x100 S100x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x47_S100000x47_1_0_0_1_n_n_wf : DotDims.WF S100000x64 S64x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x47_S100000x47_1_0_0_1_n_n : DotDims S100000x64 S64x47 S100000x47 where
  lhsContracting := [1]
  rhsContracting := [0]
  lhsNonContracting := [0]
  rhsNonContracting := [1]
  lhsBatch := []
  rhsBatch := []
  wf := dot_S100000x64_S64x47_S100000x47_1_0_0_1_n_n_wf

class Facts : Prop extends Facts₀ where

variable [Facts]
-- ==== Proof.KRun.lean ====
/-
  The idealized kernel's run with its result named.

  Every weakly fair execution of the program ends, without a fault, with the argument arrays as they were launched
  and with the result array holding what the last boundary of the run holds for it: the contents of the unscoped
  buffers after the twelfth segment (six stretches of host operations alternating with six kernel regions), each
  boundary's contents being the previous one's with a stretch's operations applied, or with a region's output arrays
  replaced by what its grid points wrote back.
-/
import proofs.«159197_j5257039970572_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents for it, the arguments as launched. -/
theorem run_result : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Run

end
-- ==== Proof.Carry.lean ====
/-
  Buffers that a segment of the run neither computes nor writes keep their contents across it: a stretch of host
  operations changes only the buffers its operations write, and a kernel region changes only its output arrays (an
  input array ends as it was found). Each statement below walks one buffer back from the boundary where it is read to
  the boundary where it was made (or to the launch, for an argument).
-/
import proofs.«159197_j5257039970572_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem W1_main_arg0_eq_W0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg3_eq_W0 (c : Dev nD) : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg1_eq_W0 (c : Dev nD) : W2 m ρ c (Proc.devRef .tc main_arg1) = W0 m ρ c (Proc.devRef .tc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg2_eq_W0 (c : Dev nD) : W2 m ρ c (Proc.devRef .tc main_arg2) = W0 m ρ c (Proc.devRef .tc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W2_main_arg5_eq_W0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_main_arg0_eq_W0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_main_arg4_eq_W0 (c : Dev nD) : W3 m ρ c (Proc.devRef .tc main_arg4) = W0 m ρ c (Proc.devRef .tc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W3_main_v8_eq_W1 (c : Dev nD) : W3 m ρ c (Proc.devRef .tc main_v8) = W1 m ρ c (Proc.devRef .tc main_v8) :=
  calc W3 m ρ c (Proc.devRef .tc main_v8)
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

theorem W4_main_arg6_eq_W0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_main_arg7_eq_W0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_v21_0_eq_W4 (c : Dev nD) : W5 m ρ c (Proc.devRef .tc main_v21_0) = W4 m ρ c (Proc.devRef .tc main_v21_0) :=
  calc W5 m ρ c (Proc.devRef .tc main_v21_0)
    _ = W4 m ρ c (Proc.devRef .tc main_v21_0) := StableHlo.after_of_forall_not_mem (b := Proc.devRef .tc main_v21_0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W5_main_arg8_eq_W0 (c : Dev nD) : W5 m ρ c (Proc.devRef .tc main_arg8) = W0 m ρ c (Proc.devRef .tc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_arg1_eq_W0 (c : Dev nD) : W6 m ρ c (Proc.devRef .tc main_arg1) = W0 m ρ c (Proc.devRef .tc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_arg2_eq_W0 (c : Dev nD) : W6 m ρ c (Proc.devRef .tc main_arg2) = W0 m ρ c (Proc.devRef .tc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W6_main_arg10_eq_W0 (c : Dev nD) : W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_main_v38_0_eq_W6 (c : Dev nD) : W7 m ρ c (Proc.devRef .tc main_v38_0) = W6 m ρ c (Proc.devRef .tc main_v38_0) :=
  calc W7 m ρ c (Proc.devRef .tc main_v38_0)
    _ = W6 m ρ c (Proc.devRef .tc main_v38_0) := StableHlo.after_of_forall_not_mem (b := Proc.devRef .tc main_v38_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_main_arg9_eq_W0 (c : Dev nD) : W7 m ρ c (Proc.devRef .tc main_arg9) = W0 m ρ c (Proc.devRef .tc main_arg9) :=
  calc W7 m ρ c (Proc.devRef .tc main_arg9)
    _ = W6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W7_main_v8_eq_W1 (c : Dev nD) : W7 m ρ c (Proc.devRef .tc main_v8) = W1 m ρ c (Proc.devRef .tc main_v8) :=
  calc W7 m ρ c (Proc.devRef .tc main_v8)
    _ = W6 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := (W4_arr m ρ c 4).trans (((dat1 (V3 m ρ) c).arrAt_in 4 rfl _).trans (A_eq1 (V3 m ρ) c 4))
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

theorem W8_main_arg11_eq_W0 (c : Dev nD) : W8 m ρ c (Proc.devRef .tc main_arg11) = W0 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W8_main_arg12_eq_W0 (c : Dev nD) : W8 m ρ c (Proc.devRef .tc main_arg12) = W0 m ρ c (Proc.devRef .tc main_arg12) :=
  calc W8 m ρ c (Proc.devRef .tc main_arg12)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_main_v50_0_eq_W8 (c : Dev nD) : W9 m ρ c (Proc.devRef .tc main_v50_0) = W8 m ρ c (Proc.devRef .tc main_v50_0) :=
  calc W9 m ρ c (Proc.devRef .tc main_v50_0)
    _ = W8 m ρ c (Proc.devRef .tc main_v50_0) := StableHlo.after_of_forall_not_mem (b := Proc.devRef .tc main_v50_0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W9_main_arg13_eq_W0 (c : Dev nD) : W9 m ρ c (Proc.devRef .tc main_arg13) = W0 m ρ c (Proc.devRef .tc main_arg13) :=
  calc W9 m ρ c (Proc.devRef .tc main_arg13)
    _ = W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_main_arg1_eq_W0 (c : Dev nD) : W10 m ρ c (Proc.devRef .tc main_arg1) = W0 m ρ c (Proc.devRef .tc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_main_arg2_eq_W0 (c : Dev nD) : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W10_main_arg15_eq_W0 (c : Dev nD) : W10 m ρ c (Proc.devRef .tc main_arg15) = W0 m ρ c (Proc.devRef .tc main_arg15) :=
  calc W10 m ρ c (Proc.devRef .tc main_arg15)
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_main_v67_0_eq_W10 (c : Dev nD) : W11 m ρ c (Proc.devRef .tc main_v67_0) = W10 m ρ c (Proc.devRef .tc main_v67_0) :=
  calc W11 m ρ c (Proc.devRef .tc main_v67_0)
    _ = W10 m ρ c (Proc.devRef .tc main_v67_0) := StableHlo.after_of_forall_not_mem (b := Proc.devRef .tc main_v67_0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_main_arg14_eq_W0 (c : Dev nD) : W11 m ρ c (Proc.devRef .tc main_arg14) = W0 m ρ c (Proc.devRef .tc main_arg14) :=
  calc W11 m ρ c (Proc.devRef .tc main_arg14)
    _ = W10 m ρ c (Proc.devRef .tc main_arg14) := StableHlo.after_of_forall_not_mem (b := Proc.devRef .tc main_arg14) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W11_main_v8_eq_W1 (c : Dev nD) : W11 m ρ c (Proc.devRef .tc main_v8) = W1 m ρ c (Proc.devRef .tc main_v8) :=
  calc W11 m ρ c (Proc.devRef .tc main_v8)
    _ = W10 m ρ c (Proc.devRef .tc main_v8) := StableHlo.after_of_forall_not_mem (b := Proc.devRef .tc main_v8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v8) := W10_of_ne m ρ c main_v8 (by decide)
    _ = W8 m ρ c (Proc.devRef .tc main_v8) := StableHlo.after_of_forall_not_mem (b := Proc.devRef .tc main_v8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v8) := (W8_arr m ρ c 4).trans (((dat3 (V7 m ρ) c).arrAt_in 4 rfl _).trans (A_eq3 (V7 m ρ) c 4))
    _ = W6 m ρ c (Proc.devRef .tc main_v8) := StableHlo.after_of_forall_not_mem (b := Proc.devRef .tc main_v8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v8) := W6_of_ne m ρ c main_v8 (by decide)
    _ = W4 m ρ c (Proc.devRef .tc main_v8) := StableHlo.after_of_forall_not_mem (b := Proc.devRef .tc main_v8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v8) := (W4_arr m ρ c 4).trans (((dat1 (V3 m ρ) c).arrAt_in 4 rfl _).trans (A_eq1 (V3 m ρ) c 4))
    _ = W2 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v8) := W2_of_ne m ρ c main_v8 (by decide)

end Cert.KernelIdeal.Fold

end
-- ==== Proof.Spec.lean ====
/-
  The two arrangements of one graph network, as functions on matrices of extended reals.

  A node's neighbour sum adds the rows `tk j` of a feature matrix over the edges `j` arriving at the node, and is
  scaled by the reciprocal of the node's in-degree (at least one). A layer's pre-activation is the scaled neighbour
  sum times one weight matrix, plus the node's own features times another, plus a bias. Since the neighbour sum and
  the row scale are linear and act on rows, they commute with multiplying by a fixed matrix on the right: one
  arrangement multiplies first and sums the narrower rows (`preK`), the other sums first (`preR`).

  Batch normalisation over the nodes is written once through the column mean and the mean of squared deviations
  (`bnR`), and once through the column sums of the entries and of their squares, the variance as the mean square less
  the squared mean cut off at zero, folded into one scale and one shift per column (`bnK`). Over the reals the two
  variances agree and the second is never negative, so the cut does nothing.

  The last layer's pre-activation goes through the row-wise logarithm of the soft-max (`lsm`), the same in both.
-/
import Idealize.ShloMosaic.PureOps.Ideal
import Mathlib.Algebra.BigOperators.Fin
import Mathlib.Data.Finset.Fold

noncomputable section

namespace Cert.Sage

open Idealize.ShloMosaic

/-- A matrix of extended reals, by row and column. -/
abbrev Mat (n k : Nat) := Fin n → Fin k → EReal

variable {n e k c : Nat}

/-- The words of the program's constants, read as extended reals: 0, 1, the number of nodes, the small shift
    under the square root, and minus infinity. -/
abbrev zero : EReal := Ideal.ofBits .f32 0x00000000#32
abbrev one : EReal := Ideal.ofBits .f32 0x3F800000#32
abbrev nodes : EReal := Ideal.ofBits .f32 0x47C35000#32
abbrev eps : EReal := Ideal.ofBits .f32 0x3727C5AC#32
abbrev negInf : EReal := Ideal.ofBits .f32 0xFF800000#32

/-- The matrix product. -/
def mm (x : Mat n k) (w : Mat k c) : Mat n c := fun r q => ∑ t : Fin k, x r t * w t q

/-- The neighbour sum: rows `tk j` of `y` added over the edges `j` arriving at node `r`. -/
def agg (seg : Fin n → Finset (Fin e)) (tk : Fin e → Fin n) (y : Mat n c) : Mat n c :=
  fun r q => ∑ j ∈ seg r, y (tk j) q

/-- The reciprocal of a node's in-degree, the degree counted as a sum of ones from zero and taken at least one. -/
def degInv (seg : Fin n → Finset (Fin e)) : Fin n → EReal :=
  fun r => Ideal.div one (max (zero + ∑ _j ∈ seg r, one) one)

/-- A layer's pre-activation, multiplying by `wl` BEFORE the neighbour sum. -/
def preK (seg : Fin n → Finset (Fin e)) (tk : Fin e → Fin n) (d : Fin n → EReal)
    (x : Mat n k) (wl wr : Mat k c) (b : Fin c → EReal) : Mat n c :=
  fun r q => agg seg tk (mm x wl) r q * d r + mm x wr r q + b q

/-- A layer's pre-activation, taking the scaled neighbour sum BEFORE multiplying by `wl`. -/
def preR (seg : Fin n → Finset (Fin e)) (tk : Fin e → Fin n) (d : Fin n → EReal)
    (x : Mat n k) (wl wr : Mat k c) (b : Fin c → EReal) : Mat n c :=
  fun r q => mm (fun r' t => agg seg tk x r' t * d r') wl r q + mm x wr r q + b q

/-- Column mean. -/
def mean (h : Mat n c) : Fin c → EReal := fun q => Ideal.div (∑ r : Fin n, h r q) nodes

/-- The variance as the mean square less the squared mean, cut off at zero. -/
def varK (h : Mat n c) : Fin c → EReal :=
  fun q => max (Ideal.div (∑ r : Fin n, h r q * h r q) nodes - mean h q * mean h q) zero

/-- The variance as the mean of the squared deviations from the mean. -/
def varR (h : Mat n c) : Fin c → EReal :=
  fun q => Ideal.div (∑ r : Fin n, (h r q - mean h q) * (h r q - mean h q)) nodes

/-- The per-column scale of the folded normalisation. -/
def scaleK (g : Fin c → EReal) (h : Mat n c) : Fin c → EReal := fun q => g q * Ideal.rsqrt (varK h q + eps)

/-- The per-column shift of the folded normalisation. -/
def shiftK (g be : Fin c → EReal) (h : Mat n c) : Fin c → EReal := fun q => be q - mean h q * scaleK g h q

/-- Normalise and rectify, folded into one scale and one shift per column. -/
def bnK (g be : Fin c → EReal) (h : Mat n c) : Mat n c :=
  fun r q => max (h r q * scaleK g h q + shiftK g be h q) zero

/-- Normalise and rectify, through the deviation from the mean. -/
def bnR (g be : Fin c → EReal) (h : Mat n c) : Mat n c :=
  fun r q => max (g q * (h r q - mean h q) * Ideal.rsqrt (varR h q + eps) + be q) zero

/-- The largest entry of a row, folded from minus infinity. -/
def rowMax (z : Fin c → EReal) : EReal := (Finset.univ : Finset (Fin c)).fold max negInf z

/-- The row-wise logarithm of the soft-max: each entry less the row's maximum, less the logarithm of the sum of the
    exponentials of those differences. -/
def lsm (z : Mat n c) : Mat n c :=
  fun r q => (z r q - rowMax (z r)) - Ideal.log (∑ p : Fin c, Ideal.exp (z r p - rowMax (z r)))

/-- The network, multiplying before each neighbour sum and normalising by scale and shift. -/
def netK {f1 f2 f3 : Nat} (seg : Fin n → Finset (Fin e)) (tk : Fin e → Fin n) (x : Mat n k)
    (w1l w1r : Mat k f1) (b1 g1 be1 : Fin f1 → EReal)
    (w2l w2r : Mat f1 f2) (b2 g2 be2 : Fin f2 → EReal)
    (wol wor : Mat f2 f3) (bo : Fin f3 → EReal) : Mat n f3 :=
  lsm (preK seg tk (degInv seg)
    (bnK g2 be2 (preK seg tk (degInv seg) (bnK g1 be1 (preK seg tk (degInv seg) x w1l w1r b1)) w2l w2r b2))
    wol wor bo)

/-- The network, summing neighbours before each product and normalising through the deviation from the mean. -/
def netR {f1 f2 f3 : Nat} (seg : Fin n → Finset (Fin e)) (tk : Fin e → Fin n) (x : Mat n k)
    (w1l w1r : Mat k f1) (b1 g1 be1 : Fin f1 → EReal)
    (w2l w2r : Mat f1 f2) (b2 g2 be2 : Fin f2 → EReal)
    (wol wor : Mat f2 f3) (bo : Fin f3 → EReal) : Mat n f3 :=
  lsm (preR seg tk (degInv seg)
    (bnR g2 be2 (preR seg tk (degInv seg) (bnR g1 be1 (preR seg tk (degInv seg) x w1l w1r b1)) w2l w2r b2))
    wol wor bo)

end Cert.Sage

end
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«159197_j5257039970572_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«159197_j5257039970572_2_alg».proof.Proof.LibSegmentRows
import proofs.«159197_j5257039970572_2_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.Graph.lean ====
/-
  The graph both programs read: for each node the set of edges arriving at it, and for each edge the row of the
  feature matrix it carries.

  An edge's target is its entry of the target index vector read as a signed number; an edge arrives at node `r` when
  that number is `r`. An edge's source is its entry of the source index vector read as a signed number, a negative
  value counted from the end (`i + N`), then clamped into `[0, N - 1]`. Both programs hand these vectors to the same
  row gather and the same accumulating row scatter as an [E, 1] column; a column that reads as the vector gives the
  same edge set and the same source row.
-/
import proofs.«159197_j5257039970572_2_alg».proof.Proof.Spec
import proofs.«159197_j5257039970572_2_alg».proof.Proof.LibHostReads

noncomputable section

open Idealize.ShloMosaic Idealize.ShloMosaic.ValueIdx

namespace Cert.Sage

/-- A matrix held as an array over two coordinates, read by row and column. -/
def cur {a b : Nat} (v : (⟨2, ![a, b]⟩ : Shape).Idx → EReal) : Mat a b := fun r t => v (ix2 r t)

/-- A vector held as an array over one coordinate, read by position. -/
def vec {a : Nat} (v : (⟨1, ![a]⟩ : Shape).Idx → EReal) : Fin a → EReal := fun q => v (ix1 q)

variable {N E : Nat}

/-- The edges whose target index, read signed, is node `r`. -/
def segOf (dst : IVec ⟨1, ![E]⟩ 32) (r : Fin N) : Finset (Fin E) :=
  Finset.univ.filter fun j => (dst (ix1 j)).toInt = (r.val : Int)

/-- An edge's source index, a negative value counted from the end of the `nw` rows. -/
def wrapAt (nw : BitVec 32) (src : IVec ⟨1, ![E]⟩ 32) (j : Fin E) : BitVec 32 :=
  Scalar.select (IntOp.cmpi .slt (src (ix1 j)) 0#32) (IntOp.addi (src (ix1 j)) nw) (src (ix1 j))

/-- The row edge `j` carries: its wrapped source index read signed and clamped into `[0, N - 1]`. -/
def tkOf (hN : 0 < N) (nw : BitVec 32) (src : IVec ⟨1, ![E]⟩ 32) (j : Fin E) : Fin N :=
  ⟨min (wrapAt nw src j).toInt.toNat (N - 1), by omega⟩

/-- A column that reads as the target vector gives the same edge sets. -/
theorem segment_of_col (col : IVec ⟨2, ![E, 1]⟩ 32) (dst : IVec ⟨1, ![E]⟩ 32)
    (h : ∀ j : Fin E, col (ix2 j 0) = dst (ix1 j)) (r : Fin N) :
    Cert.SegmentRows.segment col r = segOf dst r := by
  unfold Cert.SegmentRows.segment segOf
  simp only [h]

/-- A column that reads as the wrapped source vector gives the same source rows. -/
theorem takeRow_of_col (hN : 0 < N) (nw : BitVec 32) (col : IVec ⟨2, ![E, 1]⟩ 32) (src : IVec ⟨1, ![E]⟩ 32)
    (h : ∀ j : Fin E, col (ix2 j 0) = wrapAt nw src j) (j : Fin E) :
    Cert.SegmentRows.takeRow hN col j = tkOf hN nw src j := by
  unfold Cert.SegmentRows.takeRow tkOf
  simp only [h]

end Cert.Sage

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.HostReadsA.lean ====
/-
  The three neighbour sums the host computes between the regions, read at an entry.

  Each stretch wraps the source indices (a negative index counted from the end), lays them out as a column, gathers
  the rows of a feature matrix along them, lays the target indices out as a column, and scatters the gathered rows
  onto the targets, accumulating from a matrix of zeros. Read at node r and column q this is zero plus the sum, over
  the edges arriving at r, of the feature matrix at the edge's source row and column q.

  The facts are first proved for arbitrary extents and arbitrary arrays (so that nothing of the size of the edge list
  is ever computed), then applied once to each stretch's term.
-/
import proofs.«159197_j5257039970572_2_alg».proof.Proof.Gen.KernelIdeal.Frame
import proofs.«159197_j5257039970572_2_alg».proof.Proof.Graph
import proofs.«159197_j5257039970572_2_alg».proof.Proof.LibRowBroadcast

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

set_option maxHeartbeats 1000000

/-! ### Reading the neighbour sum, for any extents and any arrays -/

section Generic

variable {N E C : Nat}

/-- The neighbour sum of a matrix held as an array is the sum, over the edges arriving at the node, of the array's
    entries at the edges' source rows. -/
theorem agg_cur (seg : Fin N → Finset (Fin E)) (tk : Fin E → Fin N) (x : (⟨2, ![N, C]⟩ : Shape).Idx → EReal)
    (r : Fin N) (q : Fin C) :
    Cert.Sage.agg seg tk (Cert.Sage.cur x) r q = ∑ j ∈ seg r, x (ix2 (tk j) q) := rfl

/-- The accumulating row scatter along the target vector laid out as a column, read at an entry. -/
theorem scatter_rows_read (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1)
    (hd : d = Cert.SegmentRows.rowScatterDims N E C wf)
    (hb : (⟨1, ![E]⟩ : Shape).BroadcastsInDim ⟨2, ![E, 1]⟩ ![0])
    (x0 : (⟨2, ![N, C]⟩ : Shape).Idx → EReal) (dst : IVec ⟨1, ![E]⟩ 32) (upd : (⟨2, ![E, C]⟩ : Shape).Idx → EReal)
    (r : Fin N) (q : Fin C) :
    Host.scatterAdd (F := Ideal) (φ := .f32) d x0 (broadcastInDim ⟨2, ![E, 1]⟩ ![0] hb dst) upd (ix2 r q)
      = x0 (ix2 r q) + ∑ e ∈ Cert.Sage.segOf dst r, upd (ix2 e q) := by
  rw [Cert.LibHostReads.hostScatter_rows_apply d wf hd,
    Cert.Sage.segment_of_col _ dst (fun j => Cert.LibHostReads.colInner_apply dst hb j)]

/-- The row gather along a vector of wrapped source indices laid out as a column, read at an entry. -/
theorem gather_rows_read (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C])
    (hd : d = Cert.SegmentRows.rowGatherDims N E C wf)
    (hb : (⟨1, ![E]⟩ : Shape).BroadcastsInDim ⟨2, ![E, 1]⟩ ![0])
    (x : (⟨2, ![N, C]⟩ : Shape).Idx → EReal) (nw : BitVec 32) (src col : IVec ⟨1, ![E]⟩ 32)
    (hcol : ∀ j : Fin E, col (ix1 j) = Cert.Sage.wrapAt nw src j) (e : Fin E) (c : Fin C) :
    Host.gather d x (broadcastInDim ⟨2, ![E, 1]⟩ ![0] hb col) (ix2 e c) = x (ix2 (Cert.Sage.tkOf hN nw src e) c) := by
  rw [Cert.LibHostReads.hostGather_rows_apply hN d wf hd,
    Cert.Sage.takeRow_of_col hN nw _ src (fun j => (Cert.LibHostReads.colInner_apply col hb j).trans (hcol j))]

/-- Gather the source rows, scatter them onto the targets from a constant array: the constant plus the neighbour sum. -/
theorem gather_scatter_read (hN : 0 < N)
    (sd : ScatterDims ⟨2, ![N, C]⟩ ⟨2, ![E, 1]⟩ ⟨2, ![E, C]⟩)
    (swf : ScatterDims.WF ⟨2, ![N, C]⟩ ⟨2, ![E, 1]⟩ ⟨2, ![E, C]⟩ [1] [0] [0] 1)
    (hsd : sd = Cert.SegmentRows.rowScatterDims N E C swf)
    (gd : GatherDims ⟨2, ![N, C]⟩ ⟨2, ![E, 1]⟩ ⟨2, ![E, C]⟩)
    (gwf : GatherDims.WF ⟨2, ![N, C]⟩ ⟨2, ![E, 1]⟩ ⟨2, ![E, C]⟩ [1] [0] [] [0] [] 1 ![1, C])
    (hgd : gd = Cert.SegmentRows.rowGatherDims N E C gwf)
    (hb : (⟨1, ![E]⟩ : Shape).BroadcastsInDim ⟨2, ![E, 1]⟩ ![0])
    (x0 : (⟨2, ![N, C]⟩ : Shape).Idx → EReal) (z : EReal) (hx0 : ∀ r q, x0 (ix2 r q) = z)
    (x : (⟨2, ![N, C]⟩ : Shape).Idx → EReal) (nw : BitVec 32) (dst src col : IVec ⟨1, ![E]⟩ 32)
    (hcol : ∀ j : Fin E, col (ix1 j) = Cert.Sage.wrapAt nw src j) (r : Fin N) (q : Fin C) :
    Host.scatterAdd (F := Ideal) (φ := .f32) sd x0 (broadcastInDim ⟨2, ![E, 1]⟩ ![0] hb dst)
        (Host.gather gd x (broadcastInDim ⟨2, ![E, 1]⟩ ![0] hb col)) (ix2 r q)
      = z + Cert.Sage.agg (Cert.Sage.segOf dst) (Cert.Sage.tkOf hN nw src) (Cert.Sage.cur x) r q := by
  rw [scatter_rows_read sd swf hsd hb x0 dst _ r q, hx0 r q, agg_cur]
  exact congrArg (z + ·) (Finset.sum_congr rfl fun e _ => gather_rows_read hN gd gwf hgd hb x nw src col hcol e q)

end Generic

theorem agg1_term (U : Valuation τ sig (Elt Ideal)) :
    (StableHlo.after (hostOps1 (F := Ideal)) U (Proc.devRef .tc main_v19) : S100000x64.Idx → EReal)
      = Host.scatterAdd (F := Ideal) (φ := .f32) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (U (Proc.devRef .tc main_arg2)))
          (Host.gather gather_S100000x64_S1600000x1_S1600000x64_1_0_n_n_0_1_164 (U (Proc.devRef .tc main_v9))
            (broadcastInDim S1600000x1 ![0] bcast_S1600000_S1600000x1_0
              (select (cmpi .slt (U (Proc.devRef .tc main_arg1)) (broadcastInDim S1600000 ![] bcast_S_S1600000 (constantI S_ 32 0#32)))
                (addi (U (Proc.devRef .tc main_arg1)) (broadcastInDim S1600000 ![] bcast_S_S1600000 (constantI S_ 32 100000#32)))
                (U (Proc.devRef .tc main_arg1))))) := by
  after_results_simp

/-- The neighbour sum of the first layer, at a node and a column. -/
theorem agg1_read (U : Valuation τ sig (Elt Ideal)) (r : Fin 100000) (q : Fin 64) :
    (StableHlo.after (hostOps1 (F := Ideal)) U (Proc.devRef .tc main_v19) : S100000x64.Idx → EReal) (ix2 r q)
      = Cert.Sage.zero + Cert.Sage.agg (Cert.Sage.segOf (N := 100000) (U (Proc.devRef .tc main_arg2) : IVec S1600000 32))
          (Cert.Sage.tkOf (N := 100000) (by decide) 100000#32 (U (Proc.devRef .tc main_arg1) : IVec S1600000 32))
          (Cert.Sage.cur (U (Proc.devRef .tc main_v9) : S100000x64.Idx → EReal)) r q :=
  (congrFun (agg1_term U) (ix2 r q)).trans
    (gather_scatter_read (N := 100000) (E := 1600000) (C := 64) (by decide)
      scatter_S100000x64_S1600000x1_S1600000x64_1_0_0_1 scatter_S100000x64_S1600000x1_S1600000x64_1_0_0_1_wf rfl
      gather_S100000x64_S1600000x1_S1600000x64_1_0_n_n_0_1_164 gather_S100000x64_S1600000x1_S1600000x64_1_0_n_n_0_1_164_wf rfl
      bcast_S1600000_S1600000x1_0
      (broadcastInDim S100000x64 ![] bcast_S_S100000x64 (constant (F := Ideal) S_ .f32 0x00000000#32))
      Cert.Sage.zero (fun _ _ => rfl)
      (U (Proc.devRef .tc main_v9)) 100000#32 (U (Proc.devRef .tc main_arg2)) (U (Proc.devRef .tc main_arg1))
      (select (cmpi .slt (U (Proc.devRef .tc main_arg1)) (broadcastInDim S1600000 ![] bcast_S_S1600000 (constantI S_ 32 0#32)))
        (addi (U (Proc.devRef .tc main_arg1)) (broadcastInDim S1600000 ![] bcast_S_S1600000 (constantI S_ 32 100000#32)))
        (U (Proc.devRef .tc main_arg1)))
      (fun _ => rfl) r q)

theorem agg2_term (U : Valuation τ sig (Elt Ideal)) :
    (StableHlo.after (hostOps3 (F := Ideal)) U (Proc.devRef .tc main_v48) : S100000x64.Idx → EReal)
      = Host.scatterAdd (F := Ideal) (φ := .f32) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (U (Proc.devRef .tc main_arg2)))
          (Host.gather gather_S100000x64_S1600000x1_S1600000x64_1_0_n_n_0_1_164 (U (Proc.devRef .tc main_v38_1))
            (broadcastInDim S1600000x1 ![0] bcast_S1600000_S1600000x1_0
              (select (cmpi .slt (U (Proc.devRef .tc main_arg1)) (broadcastInDim S1600000 ![] bcast_S_S1600000 (constantI S_ 32 0#32)))
                (addi (U (Proc.devRef .tc main_arg1)) (broadcastInDim S1600000 ![] bcast_S_S1600000 (constantI S_ 32 100000#32)))
                (U (Proc.devRef .tc main_arg1))))) := by
  after_results_simp

/-- The neighbour sum of the second layer, at a node and a column. -/
theorem agg2_read (U : Valuation τ sig (Elt Ideal)) (r : Fin 100000) (q : Fin 64) :
    (StableHlo.after (hostOps3 (F := Ideal)) U (Proc.devRef .tc main_v48) : S100000x64.Idx → EReal) (ix2 r q)
      = Cert.Sage.zero + Cert.Sage.agg (Cert.Sage.segOf (N := 100000) (U (Proc.devRef .tc main_arg2) : IVec S1600000 32))
          (Cert.Sage.tkOf (N := 100000) (by decide) 100000#32 (U (Proc.devRef .tc main_arg1) : IVec S1600000 32))
          (Cert.Sage.cur (U (Proc.devRef .tc main_v38_1) : S100000x64.Idx → EReal)) r q :=
  (congrFun (agg2_term U) (ix2 r q)).trans
    (gather_scatter_read (N := 100000) (E := 1600000) (C := 64) (by decide)
      scatter_S100000x64_S1600000x1_S1600000x64_1_0_0_1 scatter_S100000x64_S1600000x1_S1600000x64_1_0_0_1_wf rfl
      gather_S100000x64_S1600000x1_S1600000x64_1_0_n_n_0_1_164 gather_S100000x64_S1600000x1_S1600000x64_1_0_n_n_0_1_164_wf rfl
      bcast_S1600000_S1600000x1_0
      (broadcastInDim S100000x64 ![] bcast_S_S100000x64 (constant (F := Ideal) S_ .f32 0x00000000#32))
      Cert.Sage.zero (fun _ _ => rfl)
      (U (Proc.devRef .tc main_v38_1)) 100000#32 (U (Proc.devRef .tc main_arg2)) (U (Proc.devRef .tc main_arg1))
      (select (cmpi .slt (U (Proc.devRef .tc main_arg1)) (broadcastInDim S1600000 ![] bcast_S_S1600000 (constantI S_ 32 0#32)))
        (addi (U (Proc.devRef .tc main_arg1)) (broadcastInDim S1600000 ![] bcast_S_S1600000 (constantI S_ 32 100000#32)))
        (U (Proc.devRef .tc main_arg1)))
      (fun _ => rfl) r q)

theorem agg3_term (U : Valuation τ sig (Elt Ideal)) :
    (StableHlo.after (hostOps5 (F := Ideal)) U (Proc.devRef .tc main_v77) : S100000x47.Idx → EReal)
      = Host.scatterAdd (F := Ideal) (φ := .f32) scatter_S100000x47_S1600000x1_S1600000x47_1_0_0_1
          (broadcastInDim S100000x47 ![] bcast_S_S100000x47 (constant (F := Ideal) S_ .f32 0x00000000#32))
          (broadcastInDim S1600000x1 ![0] bcast_S1600000_S1600000x1_0 (U (Proc.devRef .tc main_arg2)))
          (Host.gather gather_S100000x47_S1600000x1_S1600000x47_1_0_n_n_0_1_147 (U (Proc.devRef .tc main_v67_1))
            (broadcastInDim S1600000x1 ![0] bcast_S1600000_S1600000x1_0
              (select (cmpi .slt (U (Proc.devRef .tc main_arg1)) (broadcastInDim S1600000 ![] bcast_S_S1600000 (constantI S_ 32 0#32)))
                (addi (U (Proc.devRef .tc main_arg1)) (broadcastInDim S1600000 ![] bcast_S_S1600000 (constantI S_ 32 100000#32)))
                (U (Proc.devRef .tc main_arg1))))) := by
  after_results_simp

/-- The neighbour sum of the output layer, at a node and a column. -/
theorem agg3_read (U : Valuation τ sig (Elt Ideal)) (r : Fin 100000) (q : Fin 47) :
    (StableHlo.after (hostOps5 (F := Ideal)) U (Proc.devRef .tc main_v77) : S100000x47.Idx → EReal) (ix2 r q)
      = Cert.Sage.zero + Cert.Sage.agg (Cert.Sage.segOf (N := 100000) (U (Proc.devRef .tc main_arg2) : IVec S1600000 32))
          (Cert.Sage.tkOf (N := 100000) (by decide) 100000#32 (U (Proc.devRef .tc main_arg1) : IVec S1600000 32))
          (Cert.Sage.cur (U (Proc.devRef .tc main_v67_1) : S100000x47.Idx → EReal)) r q :=
  (congrFun (agg3_term U) (ix2 r q)).trans
    (gather_scatter_read (N := 100000) (E := 1600000) (C := 47) (by decide)
      scatter_S100000x47_S1600000x1_S1600000x47_1_0_0_1 scatter_S100000x47_S1600000x1_S1600000x47_1_0_0_1_wf rfl
      gather_S100000x47_S1600000x1_S1600000x47_1_0_n_n_0_1_147 gather_S100000x47_S1600000x1_S1600000x47_1_0_n_n_0_1_147_wf rfl
      bcast_S1600000_S1600000x1_0
      (broadcastInDim S100000x47 ![] bcast_S_S100000x47 (constant (F := Ideal) S_ .f32 0x00000000#32))
      Cert.Sage.zero (fun _ _ => rfl)
      (U (Proc.devRef .tc main_v67_1)) 100000#32 (U (Proc.devRef .tc main_arg2)) (U (Proc.devRef .tc main_arg1))
      (select (cmpi .slt (U (Proc.devRef .tc main_arg1)) (broadcastInDim S1600000 ![] bcast_S_S1600000 (constantI S_ 32 0#32)))
        (addi (U (Proc.devRef .tc main_arg1)) (broadcastInDim S1600000 ![] bcast_S_S1600000 (constantI S_ 32 100000#32)))
        (U (Proc.devRef .tc main_arg1)))
      (fun _ => rfl) r q)

end Cert.KernelIdeal.HostReads

end
-- ==== Proof.HostReadsB.lean ====
/-
  The scale and shift rows of the first folded normalisation, read at a column.

  From the column sums s of the entries and sq of their squares over the N nodes: the mean s / N, the variance
  sq / N − (s / N)², cut off at zero; the scale is the weight times the reciprocal square root of the variance plus the
  small shift, and the shift row is the offset less the mean times the scale. The stretches are entrywise, but for the
  weight and the offset, which are vectors laid out as rows.
-/
import proofs.«159197_j5257039970572_2_alg».proof.Proof.Gen.KernelIdeal.Frame
import proofs.«159197_j5257039970572_2_alg».proof.Proof.Graph
import proofs.«159197_j5257039970572_2_alg».proof.Proof.LibRowBroadcast

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

set_option maxHeartbeats 1000000

/-! ### The folded normalisation's scale and shift, for any arrays -/

section Norm

variable {n : Nat}

/-- The scale row at a column: the weight times the reciprocal square root of the variance, cut off at zero, plus
    the small shift; the variance from the column sums of the entries and of their squares. -/
private theorem scale_point (hc : (⟨1, ![n]⟩ : Shape).ShapeCasts ⟨2, ![1, n]⟩)
    (hb : S_.BroadcastsInDim (⟨2, ![1, n]⟩ : Shape) (![] : Fin 0 → Fin (⟨2, ![1, n]⟩ : Shape).rank))
    (g : (⟨1, ![n]⟩ : Shape).Idx → EReal) (s sq : (⟨2, ![1, n]⟩ : Shape).Idx → EReal) (q : Fin n) :
    mulf (F := Ideal) (φ := .f32) (shapeCast ⟨2, ![1, n]⟩ g hc)
        (Host.rsqrt (addf (maximumf
          (subf (Host.divf sq (broadcastInDim ⟨2, ![1, n]⟩ ![] hb (constant (F := Ideal) S_ .f32 0x47C35000#32)))
            (mulf (Host.divf s (broadcastInDim ⟨2, ![1, n]⟩ ![] hb (constant (F := Ideal) S_ .f32 0x47C35000#32)))
              (Host.divf s (broadcastInDim ⟨2, ![1, n]⟩ ![] hb (constant (F := Ideal) S_ .f32 0x47C35000#32)))))
          (broadcastInDim ⟨2, ![1, n]⟩ ![] hb (constant (F := Ideal) S_ .f32 0x00000000#32)))
          (broadcastInDim ⟨2, ![1, n]⟩ ![] hb (constant (F := Ideal) S_ .f32 0x3727C5AC#32)))) (ix2 0 q)
      = g (ix1 q) * Ideal.rsqrt (max (Ideal.div (sq (ix2 0 q)) Cert.Sage.nodes
            - Ideal.div (s (ix2 0 q)) Cert.Sage.nodes * Ideal.div (s (ix2 0 q)) Cert.Sage.nodes) Cert.Sage.zero
          + Cert.Sage.eps) := by
  show shapeCast ⟨2, ![1, n]⟩ g hc (ix2 0 q) * _ = _
  rw [Cert.LibRowBroadcast.row_cast]
  rfl

/-- The shift row at a column: the offset less the mean times the scale. -/
private theorem shift_point (hc : (⟨1, ![n]⟩ : Shape).ShapeCasts ⟨2, ![1, n]⟩)
    (hb : S_.BroadcastsInDim (⟨2, ![1, n]⟩ : Shape) (![] : Fin 0 → Fin (⟨2, ![1, n]⟩ : Shape).rank))
    (g be : (⟨1, ![n]⟩ : Shape).Idx → EReal) (s sq : (⟨2, ![1, n]⟩ : Shape).Idx → EReal) (q : Fin n) :
    subf (F := Ideal) (φ := .f32) (shapeCast ⟨2, ![1, n]⟩ be hc)
        (mulf (Host.divf s (broadcastInDim ⟨2, ![1, n]⟩ ![] hb (constant (F := Ideal) S_ .f32 0x47C35000#32)))
          (mulf (shapeCast ⟨2, ![1, n]⟩ g hc)
            (Host.rsqrt (addf (maximumf
              (subf (Host.divf sq (broadcastInDim ⟨2, ![1, n]⟩ ![] hb (constant (F := Ideal) S_ .f32 0x47C35000#32)))
                (mulf (Host.divf s (broadcastInDim ⟨2, ![1, n]⟩ ![] hb (constant (F := Ideal) S_ .f32 0x47C35000#32)))
                  (Host.divf s (broadcastInDim ⟨2, ![1, n]⟩ ![] hb (constant (F := Ideal) S_ .f32 0x47C35000#32)))))
              (broadcastInDim ⟨2, ![1, n]⟩ ![] hb (constant (F := Ideal) S_ .f32 0x00000000#32)))
              (broadcastInDim ⟨2, ![1, n]⟩ ![] hb (constant (F := Ideal) S_ .f32 0x3727C5AC#32))))))
        (ix2 0 q)
      = be (ix1 q) - Ideal.div (s (ix2 0 q)) Cert.Sage.nodes
          * (g (ix1 q) * Ideal.rsqrt (max (Ideal.div (sq (ix2 0 q)) Cert.Sage.nodes
              - Ideal.div (s (ix2 0 q)) Cert.Sage.nodes * Ideal.div (s (ix2 0 q)) Cert.Sage.nodes) Cert.Sage.zero
            + Cert.Sage.eps)) := by
  show shapeCast ⟨2, ![1, n]⟩ be hc (ix2 0 q) - _ * (shapeCast ⟨2, ![1, n]⟩ g hc (ix2 0 q) * _) = _
  rw [Cert.LibRowBroadcast.row_cast, Cert.LibRowBroadcast.row_cast]
  rfl

end Norm

theorem scale1_term (U : Valuation τ sig (Elt Ideal)) :
    (StableHlo.after (hostOps2 (F := Ideal)) U (Proc.devRef .tc main_v34) : S1x64.Idx → EReal)
      = mulf (F := Ideal) (φ := .f32) (shapeCast S1x64 (U (Proc.devRef .tc main_arg6)) shapeCasts_S64_S1x64)
        (Host.rsqrt (addf (maximumf
          (subf (Host.divf (U (Proc.devRef .tc main_v21_2)) (broadcastInDim S1x64 ![] bcast_S_S1x64 (constant (F := Ideal) S_ .f32 0x47C35000#32)))
            (mulf (Host.divf (U (Proc.devRef .tc main_v21_1)) (broadcastInDim S1x64 ![] bcast_S_S1x64 (constant (F := Ideal) S_ .f32 0x47C35000#32)))
              (Host.divf (U (Proc.devRef .tc main_v21_1)) (broadcastInDim S1x64 ![] bcast_S_S1x64 (constant (F := Ideal) S_ .f32 0x47C35000#32)))))
          (broadcastInDim S1x64 ![] bcast_S_S1x64 (constant (F := Ideal) S_ .f32 0x00000000#32)))
          (broadcastInDim S1x64 ![] bcast_S_S1x64 (constant (F := Ideal) S_ .f32 0x3727C5AC#32)))) := by
  after_results_simp <;> rfl

theorem shift1_term (U : Valuation τ sig (Elt Ideal)) :
    (StableHlo.after (hostOps2 (F := Ideal)) U (Proc.devRef .tc main_v37) : S1x64.Idx → EReal)
      = subf (F := Ideal) (φ := .f32) (shapeCast S1x64 (U (Proc.devRef .tc main_arg7)) shapeCasts_S64_S1x64)
        (mulf (Host.divf (U (Proc.devRef .tc main_v21_1)) (broadcastInDim S1x64 ![] bcast_S_S1x64 (constant (F := Ideal) S_ .f32 0x47C35000#32)))
          (mulf (shapeCast S1x64 (U (Proc.devRef .tc main_arg6)) shapeCasts_S64_S1x64)
            (Host.rsqrt (addf (maximumf
              (subf (Host.divf (U (Proc.devRef .tc main_v21_2)) (broadcastInDim S1x64 ![] bcast_S_S1x64 (constant (F := Ideal) S_ .f32 0x47C35000#32)))
                (mulf (Host.divf (U (Proc.devRef .tc main_v21_1)) (broadcastInDim S1x64 ![] bcast_S_S1x64 (constant (F := Ideal) S_ .f32 0x47C35000#32)))
                  (Host.divf (U (Proc.devRef .tc main_v21_1)) (broadcastInDim S1x64 ![] bcast_S_S1x64 (constant (F := Ideal) S_ .f32 0x47C35000#32)))))
              (broadcastInDim S1x64 ![] bcast_S_S1x64 (constant (F := Ideal) S_ .f32 0x00000000#32)))
              (broadcastInDim S1x64 ![] bcast_S_S1x64 (constant (F := Ideal) S_ .f32 0x3727C5AC#32)))))) := by
  after_results_simp <;> rfl

/-- The scale row of normalisation 1 at a column. -/
theorem scale1_read (U : Valuation τ sig (Elt Ideal)) (q : Fin 64) :
    (StableHlo.after (hostOps2 (F := Ideal)) U (Proc.devRef .tc main_v34) : S1x64.Idx → EReal) (ix2 0 q)
      = (HMul.hMul (α := EReal) (β := EReal) (γ := EReal) ((U (Proc.devRef .tc main_arg6) : S64.Idx → EReal) (ix1 q)) (Ideal.rsqrt (max (Ideal.div ((U (Proc.devRef .tc main_v21_2) : S1x64.Idx → EReal) (ix2 0 q)) Cert.Sage.nodes
            - Ideal.div ((U (Proc.devRef .tc main_v21_1) : S1x64.Idx → EReal) (ix2 0 q)) Cert.Sage.nodes * Ideal.div ((U (Proc.devRef .tc main_v21_1) : S1x64.Idx → EReal) (ix2 0 q)) Cert.Sage.nodes) Cert.Sage.zero
          + Cert.Sage.eps))) :=
  (congrFun (scale1_term U) (ix2 0 q)).trans
    (scale_point (n := 64) shapeCasts_S64_S1x64 bcast_S_S1x64 (U (Proc.devRef .tc main_arg6))
      (U (Proc.devRef .tc main_v21_1)) (U (Proc.devRef .tc main_v21_2)) q)

/-- The shift row of normalisation 1 at a column. -/
theorem shift1_read (U : Valuation τ sig (Elt Ideal)) (q : Fin 64) :
    (StableHlo.after (hostOps2 (F := Ideal)) U (Proc.devRef .tc main_v37) : S1x64.Idx → EReal) (ix2 0 q)
      = HSub.hSub (α := EReal) (β := EReal) (γ := EReal) ((U (Proc.devRef .tc main_arg7) : S64.Idx → EReal) (ix1 q))
          (Ideal.div ((U (Proc.devRef .tc main_v21_1) : S1x64.Idx → EReal) (ix2 0 q)) Cert.Sage.nodes * (HMul.hMul (α := EReal) (β := EReal) (γ := EReal) ((U (Proc.devRef .tc main_arg6) : S64.Idx → EReal) (ix1 q)) (Ideal.rsqrt (max (Ideal.div ((U (Proc.devRef .tc main_v21_2) : S1x64.Idx → EReal) (ix2 0 q)) Cert.Sage.nodes
            - Ideal.div ((U (Proc.devRef .tc main_v21_1) : S1x64.Idx → EReal) (ix2 0 q)) Cert.Sage.nodes * Ideal.div ((U (Proc.devRef .tc main_v21_1) : S1x64.Idx → EReal) (ix2 0 q)) Cert.Sage.nodes) Cert.Sage.zero
          + Cert.Sage.eps)))) :=
  (congrFun (shift1_term U) (ix2 0 q)).trans
    (shift_point (n := 64) shapeCasts_S64_S1x64 bcast_S_S1x64 (U (Proc.devRef .tc main_arg6)) (U (Proc.devRef .tc main_arg7))
      (U (Proc.devRef .tc main_v21_1)) (U (Proc.devRef .tc main_v21_2)) q)

end Cert.KernelIdeal.HostReads

end
-- ==== Proof.HostReadsC.lean ====
/-
  The reciprocal in-degree column and the three bias rows, read at an entry.

  The in-degree of a node is counted by scattering ones along the target indices from zero; the larger of the count
  and one divides one; the vector is laid out as a column. A bias is a vector laid out as a row.
-/
import proofs.«159197_j5257039970572_2_alg».proof.Proof.Gen.KernelIdeal.Frame
import proofs.«159197_j5257039970572_2_alg».proof.Proof.Graph
import proofs.«159197_j5257039970572_2_alg».proof.Proof.LibRowBroadcast

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

set_option maxHeartbeats 1000000

/-- The accumulating vector scatter along the target vector laid out as a column, read at an entry. -/
theorem scatter_vec_read {N E : Nat} (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = Cert.SegmentRows.vecScatterDims N E wf)
    (hb : (⟨1, ![E]⟩ : Shape).BroadcastsInDim ⟨2, ![E, 1]⟩ ![0])
    (x0 : (⟨1, ![N]⟩ : Shape).Idx → EReal) (dst : IVec ⟨1, ![E]⟩ 32) (upd : (⟨1, ![E]⟩ : Shape).Idx → EReal)
    (r : Fin N) :
    Host.scatterAdd (F := Ideal) (φ := .f32) d x0 (broadcastInDim ⟨2, ![E, 1]⟩ ![0] hb dst) upd (ix1 r)
      = x0 (ix1 r) + ∑ e ∈ Cert.Sage.segOf dst r, upd (ix1 e) := by
  rw [Cert.LibHostReads.hostScatter_vec_apply d wf hd,
    Cert.Sage.segment_of_col _ dst (fun j => Cert.LibHostReads.colInner_apply dst hb j)]

/-! ### The reciprocal in-degree and the bias rows -/

/-- Count the edges arriving at each node by scattering ones from zero, take the larger of the count and one, divide
    one by it, and lay the result out as a column: the reciprocal in-degree. -/
theorem degInv_point {N E : Nat} (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = Cert.SegmentRows.vecScatterDims N E wf)
    (hb : (⟨1, ![E]⟩ : Shape).BroadcastsInDim ⟨2, ![E, 1]⟩ ![0])
    (hc : (⟨1, ![N]⟩ : Shape).ShapeCasts ⟨2, ![N, 1]⟩)
    (x0 one1 : (⟨1, ![N]⟩ : Shape).Idx → EReal) (upd : (⟨1, ![E]⟩ : Shape).Idx → EReal)
    (hx0 : ∀ r, x0 (ix1 r) = Cert.Sage.zero) (hone : ∀ r, one1 (ix1 r) = Cert.Sage.one)
    (hupd : ∀ e, upd (ix1 e) = Cert.Sage.one) (dst : IVec ⟨1, ![E]⟩ 32) (r : Fin N) :
    shapeCast ⟨2, ![N, 1]⟩ (Host.divf (F := Ideal) (φ := .f32) one1
        (maximumf (Host.scatterAdd (F := Ideal) d x0 (broadcastInDim ⟨2, ![E, 1]⟩ ![0] hb dst) upd) one1)) hc (ix2 r 0)
      = Cert.Sage.degInv (Cert.Sage.segOf dst) r := by
  rw [Cert.Rows.cast_col]
  show Ideal.div (one1 (ix1 r)) (max (Host.scatterAdd (F := Ideal) (φ := .f32) d x0 (broadcastInDim ⟨2, ![E, 1]⟩ ![0] hb dst) upd (ix1 r)) (one1 (ix1 r))) = _
  rw [scatter_vec_read d wf hd hb, hone, hx0, Finset.sum_congr rfl fun e _ => hupd e]
  rfl

theorem degInv_term (U : Valuation τ sig (Elt Ideal)) :
    (StableHlo.after (hostOps0 (F := Ideal)) U (Proc.devRef .tc main_v8) : S100000x1.Idx → EReal)
      = shapeCast S100000x1 (Host.divf (F := Ideal) (φ := .f32)
          (broadcastInDim S100000 ![] bcast_S_S100000 (constant (F := Ideal) S_ .f32 0x3F800000#32))
          (maximumf
            (Host.scatterAdd (F := Ideal) scatter_S100000_S1600000x1_S1600000_n_0_0_1
              (broadcastInDim S100000 ![] bcast_S_S100000 (constant (F := Ideal) S_ .f32 0x00000000#32))
              (broadcastInDim S1600000x1 ![0] bcast_S1600000_S1600000x1_0 (U (Proc.devRef .tc main_arg2)))
              (broadcastInDim S1600000 ![] bcast_S_S1600000 (constant (F := Ideal) S_ .f32 0x3F800000#32)))
            (broadcastInDim S100000 ![] bcast_S_S100000 (constant (F := Ideal) S_ .f32 0x3F800000#32))))
          shapeCasts_S100000_S100000x1 := by
  after_results_simp <;> rfl

/-- The reciprocal in-degree column of the first stretch, at a node. -/
theorem degInv_read (U : Valuation τ sig (Elt Ideal)) (r : Fin 100000) :
    (StableHlo.after (hostOps0 (F := Ideal)) U (Proc.devRef .tc main_v8) : S100000x1.Idx → EReal) (ix2 r 0)
      = Cert.Sage.degInv (Cert.Sage.segOf (N := 100000) (U (Proc.devRef .tc main_arg2) : IVec S1600000 32)) r :=
  (congrFun (degInv_term U) (ix2 r 0)).trans
    (degInv_point (N := 100000) (E := 1600000) scatter_S100000_S1600000x1_S1600000_n_0_0_1
      scatter_S100000_S1600000x1_S1600000_n_0_0_1_wf rfl bcast_S1600000_S1600000x1_0 shapeCasts_S100000_S100000x1
      (broadcastInDim S100000 ![] bcast_S_S100000 (constant (F := Ideal) S_ .f32 0x00000000#32))
      (broadcastInDim S100000 ![] bcast_S_S100000 (constant (F := Ideal) S_ .f32 0x3F800000#32))
      (broadcastInDim S1600000 ![] bcast_S_S1600000 (constant (F := Ideal) S_ .f32 0x3F800000#32))
      (fun _ => rfl) (fun _ => rfl) (fun _ => rfl) (U (Proc.devRef .tc main_arg2)) r)

theorem bias1_term (U : Valuation τ sig (Elt Ideal)) :
    (StableHlo.after (hostOps1 (F := Ideal)) U (Proc.devRef .tc main_v20) : S1x64.Idx → EReal)
      = shapeCast S1x64 (U (Proc.devRef .tc main_arg5)) shapeCasts_S64_S1x64 := by
  after_results_simp <;> rfl

/-- The bias of layer 1 laid out as a row, at a column. -/
theorem bias1_read (U : Valuation τ sig (Elt Ideal)) (q : Fin 64) :
    (StableHlo.after (hostOps1 (F := Ideal)) U (Proc.devRef .tc main_v20) : S1x64.Idx → EReal) (ix2 0 q)
      = (U (Proc.devRef .tc main_arg5) : S64.Idx → EReal) (ix1 q) :=
  (congrFun (bias1_term U) (ix2 0 q)).trans
    (Cert.LibRowBroadcast.row_cast (N := 64) (U (Proc.devRef .tc main_arg5)) shapeCasts_S64_S1x64 q)

theorem bias2_term (U : Valuation τ sig (Elt Ideal)) :
    (StableHlo.after (hostOps3 (F := Ideal)) U (Proc.devRef .tc main_v49) : S1x64.Idx → EReal)
      = shapeCast S1x64 (U (Proc.devRef .tc main_arg10)) shapeCasts_S64_S1x64 := by
  after_results_simp <;> rfl

/-- The bias of layer 2 laid out as a row, at a column. -/
theorem bias2_read (U : Valuation τ sig (Elt Ideal)) (q : Fin 64) :
    (StableHlo.after (hostOps3 (F := Ideal)) U (Proc.devRef .tc main_v49) : S1x64.Idx → EReal) (ix2 0 q)
      = (U (Proc.devRef .tc main_arg10) : S64.Idx → EReal) (ix1 q) :=
  (congrFun (bias2_term U) (ix2 0 q)).trans
    (Cert.LibRowBroadcast.row_cast (N := 64) (U (Proc.devRef .tc main_arg10)) shapeCasts_S64_S1x64 q)

theorem bias3_term (U : Valuation τ sig (Elt Ideal)) :
    (StableHlo.after (hostOps5 (F := Ideal)) U (Proc.devRef .tc main_v78) : S1x47.Idx → EReal)
      = shapeCast S1x47 (U (Proc.devRef .tc main_arg15)) shapeCasts_S47_S1x47 := by
  after_results_simp <;> rfl

/-- The bias of layer 3 laid out as a row, at a column. -/
theorem bias3_read (U : Valuation τ sig (Elt Ideal)) (q : Fin 47) :
    (StableHlo.after (hostOps5 (F := Ideal)) U (Proc.devRef .tc main_v78) : S1x47.Idx → EReal) (ix2 0 q)
      = (U (Proc.devRef .tc main_arg15) : S47.Idx → EReal) (ix1 q) :=
  (congrFun (bias3_term U) (ix2 0 q)).trans
    (Cert.LibRowBroadcast.row_cast (N := 47) (U (Proc.devRef .tc main_arg15)) shapeCasts_S47_S1x47 q)

end Cert.KernelIdeal.HostReads

end
-- ==== Proof.HostReadsD.lean ====
/-
  The scale and shift rows of the second folded normalisation, read at a column.

  From the column sums s of the entries and sq of their squares over the N nodes: the mean s / N, the variance
  sq / N − (s / N)², cut off at zero; the scale is the weight times the reciprocal square root of the variance plus the
  small shift, and the shift row is the offset less the mean times the scale. The stretches are entrywise, but for the
  weight and the offset, which are vectors laid out as rows.
-/
import proofs.«159197_j5257039970572_2_alg».proof.Proof.Gen.KernelIdeal.Frame
import proofs.«159197_j5257039970572_2_alg».proof.Proof.Graph
import proofs.«159197_j5257039970572_2_alg».proof.Proof.LibRowBroadcast

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo Idealize.ShloMosaic.ValueIdx

set_option maxHeartbeats 1000000

/-! ### The folded normalisation's scale and shift, for any arrays -/

section Norm

variable {n : Nat}

/-- The scale row at a column: the weight times the reciprocal square root of the variance, cut off at zero, plus
    the small shift; the variance from the column sums of the entries and of their squares. -/
private theorem scale_point (hc : (⟨1, ![n]⟩ : Shape).ShapeCasts ⟨2, ![1, n]⟩)
    (hb : S_.BroadcastsInDim (⟨2, ![1, n]⟩ : Shape) (![] : Fin 0 → Fin (⟨2, ![1, n]⟩ : Shape).rank))
    (g : (⟨1, ![n]⟩ : Shape).Idx → EReal) (s sq : (⟨2, ![1, n]⟩ : Shape).Idx → EReal) (q : Fin n) :
    mulf (F := Ideal) (φ := .f32) (shapeCast ⟨2, ![1, n]⟩ g hc)
        (Host.rsqrt (addf (maximumf
          (subf (Host.divf sq (broadcastInDim ⟨2, ![1, n]⟩ ![] hb (constant (F := Ideal) S_ .f32 0x47C35000#32)))
            (mulf (Host.divf s (broadcastInDim ⟨2, ![1, n]⟩ ![] hb (constant (F := Ideal) S_ .f32 0x47C35000#32)))
              (Host.divf s (broadcastInDim ⟨2, ![1, n]⟩ ![] hb (constant (F := Ideal) S_ .f32 0x47C35000#32)))))
          (broadcastInDim ⟨2, ![1, n]⟩ ![] hb (constant (F := Ideal) S_ .f32 0x00000000#32)))
          (broadcastInDim ⟨2, ![1, n]⟩ ![] hb (constant (F := Ideal) S_ .f32 0x3727C5AC#32)))) (ix2 0 q)
      = g (ix1 q) * Ideal.rsqrt (max (Ideal.div (sq (ix2 0 q)) Cert.Sage.nodes
            - Ideal.div (s (ix2 0 q)) Cert.Sage.nodes * Ideal.div (s (ix2 0 q)) Cert.Sage.nodes) Cert.Sage.zero
          + Cert.Sage.eps) := by
  show shapeCast ⟨2, ![1, n]⟩ g hc (ix2 0 q) * _ = _
  rw [Cert.LibRowBroadcast.row_cast]
  rfl

/-- The shift row at a column: the offset less the mean times the scale. -/
private theorem shift_point (hc : (⟨1, ![n]⟩ : Shape).ShapeCasts ⟨2, ![1, n]⟩)
    (hb : S_.BroadcastsInDim (⟨2, ![1, n]⟩ : Shape) (![] : Fin 0 → Fin (⟨2, ![1, n]⟩ : Shape).rank))
    (g be : (⟨1, ![n]⟩ : Shape).Idx → EReal) (s sq : (⟨2, ![1, n]⟩ : Shape).Idx → EReal) (q : Fin n) :
    subf (F := Ideal) (φ := .f32) (shapeCast ⟨2, ![1, n]⟩ be hc)
        (mulf (Host.divf s (broadcastInDim ⟨2, ![1, n]⟩ ![] hb (constant (F := Ideal) S_ .f32 0x47C35000#32)))
          (mulf (shapeCast ⟨2, ![1, n]⟩ g hc)
            (Host.rsqrt (addf (maximumf
              (subf (Host.divf sq (broadcastInDim ⟨2, ![1, n]⟩ ![] hb (constant (F := Ideal) S_ .f32 0x47C35000#32)))
                (mulf (Host.divf s (broadcastInDim ⟨2, ![1, n]⟩ ![] hb (constant (F := Ideal) S_ .f32 0x47C35000#32)))
                  (Host.divf s (broadcastInDim ⟨2, ![1, n]⟩ ![] hb (constant (F := Ideal) S_ .f32 0x47C35000#32)))))
              (broadcastInDim ⟨2, ![1, n]⟩ ![] hb (constant (F := Ideal) S_ .f32 0x00000000#32)))
              (broadcastInDim ⟨2, ![1, n]⟩ ![] hb (constant (F := Ideal) S_ .f32 0x3727C5AC#32))))))
        (ix2 0 q)
      = be (ix1 q) - Ideal.div (s (ix2 0 q)) Cert.Sage.nodes
          * (g (ix1 q) * Ideal.rsqrt (max (Ideal.div (sq (ix2 0 q)) Cert.Sage.nodes
              - Ideal.div (s (ix2 0 q)) Cert.Sage.nodes * Ideal.div (s (ix2 0 q)) Cert.Sage.nodes) Cert.Sage.zero
            + Cert.Sage.eps)) := by
  show shapeCast ⟨2, ![1, n]⟩ be hc (ix2 0 q) - _ * (shapeCast ⟨2, ![1, n]⟩ g hc (ix2 0 q) * _) = _
  rw [Cert.LibRowBroadcast.row_cast, Cert.LibRowBroadcast.row_cast]
  rfl

end Norm

theorem scale2_term (U : Valuation τ sig (Elt Ideal)) :
    (StableHlo.after (hostOps4 (F := Ideal)) U (Proc.devRef .tc main_v63) : S1x64.Idx → EReal)
      = mulf (F := Ideal) (φ := .f32) (shapeCast S1x64 (U (Proc.devRef .tc main_arg11)) shapeCasts_S64_S1x64)
        (Host.rsqrt (addf (maximumf
          (subf (Host.divf (U (Proc.devRef .tc main_v50_2)) (broadcastInDim S1x64 ![] bcast_S_S1x64 (constant (F := Ideal) S_ .f32 0x47C35000#32)))
            (mulf (Host.divf (U (Proc.devRef .tc main_v50_1)) (broadcastInDim S1x64 ![] bcast_S_S1x64 (constant (F := Ideal) S_ .f32 0x47C35000#32)))
              (Host.divf (U (Proc.devRef .tc main_v50_1)) (broadcastInDim S1x64 ![] bcast_S_S1x64 (constant (F := Ideal) S_ .f32 0x47C35000#32)))))
          (broadcastInDim S1x64 ![] bcast_S_S1x64 (constant (F := Ideal) S_ .f32 0x00000000#32)))
          (broadcastInDim S1x64 ![] bcast_S_S1x64 (constant (F := Ideal) S_ .f32 0x3727C5AC#32)))) := by
  after_results_simp <;> rfl

theorem shift2_term (U : Valuation τ sig (Elt Ideal)) :
    (StableHlo.after (hostOps4 (F := Ideal)) U (Proc.devRef .tc main_v66) : S1x64.Idx → EReal)
      = subf (F := Ideal) (φ := .f32) (shapeCast S1x64 (U (Proc.devRef .tc main_arg12)) shapeCasts_S64_S1x64)
        (mulf (Host.divf (U (Proc.devRef .tc main_v50_1)) (broadcastInDim S1x64 ![] bcast_S_S1x64 (constant (F := Ideal) S_ .f32 0x47C35000#32)))
          (mulf (shapeCast S1x64 (U (Proc.devRef .tc main_arg11)) shapeCasts_S64_S1x64)
            (Host.rsqrt (addf (maximumf
              (subf (Host.divf (U (Proc.devRef .tc main_v50_2)) (broadcastInDim S1x64 ![] bcast_S_S1x64 (constant (F := Ideal) S_ .f32 0x47C35000#32)))
                (mulf (Host.divf (U (Proc.devRef .tc main_v50_1)) (broadcastInDim S1x64 ![] bcast_S_S1x64 (constant (F := Ideal) S_ .f32 0x47C35000#32)))
                  (Host.divf (U (Proc.devRef .tc main_v50_1)) (broadcastInDim S1x64 ![] bcast_S_S1x64 (constant (F := Ideal) S_ .f32 0x47C35000#32)))))
              (broadcastInDim S1x64 ![] bcast_S_S1x64 (constant (F := Ideal) S_ .f32 0x00000000#32)))
              (broadcastInDim S1x64 ![] bcast_S_S1x64 (constant (F := Ideal) S_ .f32 0x3727C5AC#32)))))) := by
  after_results_simp <;> rfl

/-- The scale row of normalisation 2 at a column. -/
theorem scale2_read (U : Valuation τ sig (Elt Ideal)) (q : Fin 64) :
    (StableHlo.after (hostOps4 (F := Ideal)) U (Proc.devRef .tc main_v63) : S1x64.Idx → EReal) (ix2 0 q)
      = (HMul.hMul (α := EReal) (β := EReal) (γ := EReal) ((U (Proc.devRef .tc main_arg11) : S64.Idx → EReal) (ix1 q)) (Ideal.rsqrt (max (Ideal.div ((U (Proc.devRef .tc main_v50_2) : S1x64.Idx → EReal) (ix2 0 q)) Cert.Sage.nodes
            - Ideal.div ((U (Proc.devRef .tc main_v50_1) : S1x64.Idx → EReal) (ix2 0 q)) Cert.Sage.nodes * Ideal.div ((U (Proc.devRef .tc main_v50_1) : S1x64.Idx → EReal) (ix2 0 q)) Cert.Sage.nodes) Cert.Sage.zero
          + Cert.Sage.eps))) :=
  (congrFun (scale2_term U) (ix2 0 q)).trans
    (scale_point (n := 64) shapeCasts_S64_S1x64 bcast_S_S1x64 (U (Proc.devRef .tc main_arg11))
      (U (Proc.devRef .tc main_v50_1)) (U (Proc.devRef .tc main_v50_2)) q)

/-- The shift row of normalisation 2 at a column. -/
theorem shift2_read (U : Valuation τ sig (Elt Ideal)) (q : Fin 64) :
    (StableHlo.after (hostOps4 (F := Ideal)) U (Proc.devRef .tc main_v66) : S1x64.Idx → EReal) (ix2 0 q)
      = HSub.hSub (α := EReal) (β := EReal) (γ := EReal) ((U (Proc.devRef .tc main_arg12) : S64.Idx → EReal) (ix1 q))
          (Ideal.div ((U (Proc.devRef .tc main_v50_1) : S1x64.Idx → EReal) (ix2 0 q)) Cert.Sage.nodes * (HMul.hMul (α := EReal) (β := EReal) (γ := EReal) ((U (Proc.devRef .tc main_arg11) : S64.Idx → EReal) (ix1 q)) (Ideal.rsqrt (max (Ideal.div ((U (Proc.devRef .tc main_v50_2) : S1x64.Idx → EReal) (ix2 0 q)) Cert.Sage.nodes
            - Ideal.div ((U (Proc.devRef .tc main_v50_1) : S1x64.Idx → EReal) (ix2 0 q)) Cert.Sage.nodes * Ideal.div ((U (Proc.devRef .tc main_v50_1) : S1x64.Idx → EReal) (ix2 0 q)) Cert.Sage.nodes) Cert.Sage.zero
          + Cert.Sage.eps)))) :=
  (congrFun (shift2_term U) (ix2 0 q)).trans
    (shift_point (n := 64) shapeCasts_S64_S1x64 bcast_S_S1x64 (U (Proc.devRef .tc main_arg11)) (U (Proc.devRef .tc main_arg12))
      (U (Proc.devRef .tc main_v50_1)) (U (Proc.devRef .tc main_v50_2)) q)

end Cert.KernelIdeal.HostReads

end
-- ==== Proof.HostReads.lean ====
/-
  The kernel's six stretches of host operations read at an entry: the neighbour sums, the scale and shift rows of the
  folded normalisations, the reciprocal in-degree column and the bias rows, gathered from the modules that prove them.
-/
import proofs.«159197_j5257039970572_2_alg».proof.Proof.HostReadsA
import proofs.«159197_j5257039970572_2_alg».proof.Proof.HostReadsB
import proofs.«159197_j5257039970572_2_alg».proof.Proof.HostReadsC
import proofs.«159197_j5257039970572_2_alg».proof.Proof.HostReadsD
-- ==== Proof.Bridge.lean ====
/-
  The two arrangements of the graph network agree on real data.

  Everything here is mathematics on matrices of extended reals whose entries are real numbers; no program appears.

  * The constants: the words read as 0, 1, 100000 and a positive real.
  * A node's reciprocal in-degree is a real number: the degree is a finite sum of ones, the larger of it and one is
    at least one, and the quotient of one by a nonzero real is real.
  * A layer's pre-activation. The scaled neighbour sum is linear in the rows, so it commutes with multiplying by a
    fixed matrix on the right: (∑_{j→r} ∑_t x_{j,t} w_{t,q}) · d_r = ∑_t ((∑_{j→r} x_{j,t}) · d_r) · w_{t,q}. With real
    entries both sides are one real number (exchange the two finite sums and distribute).
  * Batch normalisation over N rows. With μ the column mean, ∑ (h − μ)² / N = ∑ h² / N − μ² over the reals, and the
    left side is a sum of squares over a positive number, so cutting the right side off at zero changes nothing. The
    variance plus the positive shift is positive, so its reciprocal square root is a real number s, and
    h · (g · s) + (β − μ · (g · s)) = g · (h − μ) · s + β.
  * The network: each stage of one arrangement equals the same stage of the other and is real, so the stages chain;
    the last stage feeds the same row-wise function on both sides.
-/
import proofs.«159197_j5257039970572_2_alg».proof.Proof.Spec
import Mathlib.Data.EReal.Operations
import Mathlib.Data.EReal.Inv
import Mathlib.Tactic.Ring
import Mathlib.Tactic.FieldSimp
import Mathlib.Tactic.Linarith

noncomputable section

namespace Cert.Sage

open Idealize.ShloMosaic

open scoped BigOperators

variable {n e k c : Nat}

/-! ### Real-valued matrices and vectors -/

/-- Every entry of the matrix is a real number. -/
def RealMat (x : Mat n k) : Prop := ∀ r t, ∃ y : ℝ, x r t = (y : EReal)

/-- Every entry of the vector is a real number. -/
def RealVec (b : Fin c → EReal) : Prop := ∀ q, ∃ y : ℝ, b q = (y : EReal)

/-! ### The constants -/

theorem zero_eq : zero = 0 := by
  show Ideal.ofBits .f32 0x00000000#32 = 0
  simp [Ideal.ofBits, Ideal.ieee]

theorem one_eq : one = 1 := by
  show Ideal.ofBits .f32 0x3F800000#32 = 1
  simp [Ideal.ofBits, Ideal.ieee, -EReal.coe_mul]; norm_num

theorem nodes_eq : nodes = ((100000 : ℝ) : EReal) := by
  show Ideal.ofBits .f32 0x47C35000#32 = _
  simp [Ideal.ofBits, Ideal.ieee, -EReal.coe_mul]; norm_num

theorem eps_eq : ∃ ε : ℝ, 0 < ε ∧ eps = ((ε : ℝ) : EReal) := by
  refine ⟨10995116 * (2 : ℝ) ^ (-40 : Int), by positivity, ?_⟩
  show Ideal.ofBits .f32 0x3727C5AC#32 = _
  simp [Ideal.ofBits, Ideal.ieee, -EReal.coe_mul]

/-! ### Finite combinations of real numbers stay real -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

theorem real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

theorem real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

theorem real_sum {ι : Type*} (s : Finset ι) (g : ι → EReal) (h : ∀ i ∈ s, ∃ y : ℝ, g i = (y : EReal)) :
    ∃ z : ℝ, ∑ i ∈ s, g i = (z : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

theorem real_max {a b : EReal} (ha : ∃ x : ℝ, a = (x : EReal)) (hb : ∃ y : ℝ, b = (y : EReal)) :
    ∃ z : ℝ, max a b = (z : EReal) := by
  rcases max_choice a b with h | h <;> rw [h] <;> assumption

/-- The extended-real quotient of two reals, the divisor not zero, is the real quotient. -/
theorem div_coe_coe {x y : ℝ} (h : y ≠ 0) : Ideal.div (x : EReal) (y : EReal) = ((x / y : ℝ) : EReal) := by
  rw [Ideal.div_coe h, ← EReal.coe_mul, mul_one_div]

/-- A real-valued matrix is the entrywise coercion of a matrix of reals. -/
theorem RealMat.eq_coe {x : Mat n k} (h : RealMat x) :
    ∃ f : Fin n → Fin k → ℝ, x = fun r t => ((f r t : ℝ) : EReal) := by
  choose f hf using h
  exact ⟨f, funext fun r => funext fun t => hf r t⟩

/-- A real-valued vector is the entrywise coercion of a vector of reals. -/
theorem RealVec.eq_coe {b : Fin c → EReal} (h : RealVec b) :
    ∃ f : Fin c → ℝ, b = fun q => ((f q : ℝ) : EReal) := by
  choose f hf using h
  exact ⟨f, funext fun q => hf q⟩

/-! ### Products and neighbour sums of real matrices -/

theorem mm_coe (f : Fin n → Fin k → ℝ) (g : Fin k → Fin c → ℝ) (r : Fin n) (q : Fin c) :
    mm (fun r t => ((f r t : ℝ) : EReal)) (fun t q => ((g t q : ℝ) : EReal)) r q
      = ((∑ t, f r t * g t q : ℝ) : EReal) := by
  show ∑ t : Fin k, ((f r t : ℝ) : EReal) * ((g t q : ℝ) : EReal) = _
  rw [coe_sum]
  exact Finset.sum_congr rfl fun t _ => (EReal.coe_mul _ _).symm

theorem agg_coe (seg : Fin n → Finset (Fin e)) (tk : Fin e → Fin n) (f : Fin n → Fin c → ℝ) (r : Fin n) (q : Fin c) :
    agg seg tk (fun r q => ((f r q : ℝ) : EReal)) r q = ((∑ j ∈ seg r, f (tk j) q : ℝ) : EReal) := by
  show ∑ j ∈ seg r, ((f (tk j) q : ℝ) : EReal) = _
  rw [coe_sum]

theorem RealMat.mm {x : Mat n k} {w : Mat k c} (hx : RealMat x) (hw : RealMat w) : RealMat (mm x w) :=
  fun r q => real_sum _ _ fun t _ => real_mul (hx r t) (hw t q)

theorem RealMat.agg (seg : Fin n → Finset (Fin e)) (tk : Fin e → Fin n) {y : Mat n c} (hy : RealMat y) :
    RealMat (agg seg tk y) :=
  fun r q => real_sum _ _ fun j _ => hy (tk j) q

/-! ### The reciprocal in-degree is real -/

theorem degInv_real (seg : Fin n → Finset (Fin e)) : RealVec (degInv seg) := by
  intro r
  show ∃ y : ℝ, Ideal.div one (max (zero + ∑ _j ∈ seg r, one) one) = (y : EReal)
  obtain ⟨cnt, hc⟩ : ∃ y : ℝ, ∑ _j ∈ seg r, one = (y : EReal) :=
    real_sum _ _ fun _ _ => ⟨1, by rw [one_eq, EReal.coe_one]⟩
  have hmax : max ((cnt : ℝ) : EReal) one = ((max cnt 1 : ℝ) : EReal) := by
    rw [one_eq, ← EReal.coe_one]
    exact (EReal.coe_strictMono.monotone.map_max).symm
  have hpos : (max cnt 1 : ℝ) ≠ 0 := ne_of_gt (lt_of_lt_of_le one_pos (le_max_right _ _))
  rw [hc, zero_eq, zero_add, hmax, one_eq, ← EReal.coe_one, div_coe_coe hpos]
  exact ⟨_, rfl⟩

/-! ### The two pre-activations agree -/

/-- The scaled neighbour sum commutes with the product by a fixed matrix on the right, when the features, that
    matrix and the scale are real. The other weight matrix and the bias are arbitrary. -/
theorem preK_eq_preR (seg : Fin n → Finset (Fin e)) (tk : Fin e → Fin n) {d : Fin n → EReal}
    {x : Mat n k} {wl : Mat k c} (wr : Mat k c) (b : Fin c → EReal)
    (hx : RealMat x) (hwl : RealMat wl) (hd : ∀ r, ∃ y : ℝ, d r = (y : EReal)) :
    preK seg tk d x wl wr b = preR seg tk d x wl wr b := by
  obtain ⟨xf, rfl⟩ := hx.eq_coe
  obtain ⟨wf, rfl⟩ := hwl.eq_coe
  obtain ⟨df, rfl⟩ := RealVec.eq_coe hd
  funext r q
  have hL : agg seg tk (mm (fun r t => ((xf r t : ℝ) : EReal)) (fun t q => ((wf t q : ℝ) : EReal))) r q
        * ((df r : ℝ) : EReal)
      = (((∑ j ∈ seg r, ∑ t, xf (tk j) t * wf t q) * df r : ℝ) : EReal) := by
    have hm : mm (fun r t => ((xf r t : ℝ) : EReal)) (fun t q => ((wf t q : ℝ) : EReal))
        = fun r q => ((∑ t, xf r t * wf t q : ℝ) : EReal) := funext fun r => funext fun q => mm_coe xf wf r q
    rw [hm, agg_coe, EReal.coe_mul]
  have hR : mm (fun r' t => agg seg tk (fun r t => ((xf r t : ℝ) : EReal)) r' t * ((df r' : ℝ) : EReal))
        (fun t q => ((wf t q : ℝ) : EReal)) r q
      = ((∑ t, ((∑ j ∈ seg r, xf (tk j) t) * df r) * wf t q : ℝ) : EReal) := by
    have ha : (fun r' t => agg seg tk (fun r t => ((xf r t : ℝ) : EReal)) r' t * ((df r' : ℝ) : EReal))
        = fun r' t => (((∑ j ∈ seg r', xf (tk j) t) * df r' : ℝ) : EReal) :=
      funext fun r' => funext fun t => by rw [agg_coe, EReal.coe_mul]
    rw [ha, mm_coe]
  show agg seg tk (mm _ _) r q * _ + mm _ wr r q + b q
      = mm (fun r' t => agg seg tk _ r' t * _) _ r q + mm _ wr r q + b q
  rw [hL, hR]
  congr 3
  rw [Finset.sum_comm, Finset.sum_mul]
  refine Finset.sum_congr rfl fun t _ => ?_
  rw [← Finset.sum_mul]
  ring

theorem RealMat.preK (seg : Fin n → Finset (Fin e)) (tk : Fin e → Fin n) {d : Fin n → EReal}
    {x : Mat n k} {wl wr : Mat k c} {b : Fin c → EReal}
    (hd : RealVec d) (hx : RealMat x) (hwl : RealMat wl) (hwr : RealMat wr) (hb : RealVec b) :
    RealMat (preK seg tk d x wl wr b) :=
  fun r q => real_add (real_add (real_mul (RealMat.agg seg tk (hx.mm hwl) r q) (hd r)) (hx.mm hwr r q)) (hb q)

theorem RealMat.preR (seg : Fin n → Finset (Fin e)) (tk : Fin e → Fin n) {d : Fin n → EReal}
    {x : Mat n k} {wl wr : Mat k c} {b : Fin c → EReal}
    (hd : RealVec d) (hx : RealMat x) (hwl : RealMat wl) (hwr : RealMat wr) (hb : RealVec b) :
    RealMat (preR seg tk d x wl wr b) := by
  rw [← preK_eq_preR seg tk wr b hx hwl hd]
  exact RealMat.preK seg tk hd hx hwl hwr hb

/-! ### Batch normalisation -/

theorem real_sub {a b : EReal} (ha : ∃ x : ℝ, a = (x : EReal)) (hb : ∃ y : ℝ, b = (y : EReal)) :
    ∃ z : ℝ, a - b = (z : EReal) := by
  obtain ⟨x, rfl⟩ := ha
  obtain ⟨y, rfl⟩ := hb
  exact ⟨x - y, (EReal.coe_sub x y).symm⟩

/-- Over the reals, the mean of the squared deviations from the mean is the mean square less the squared mean. -/
theorem var_identity {ι : Type*} [Fintype ι] (f : ι → ℝ) (N S : ℝ) (hS : ∑ i, f i = S)
    (hN : (Fintype.card ι : ℝ) = N) (hN0 : N ≠ 0) :
    (∑ i, (f i - S / N) * (f i - S / N)) / N = (∑ i, f i * f i) / N - (S / N) * (S / N) := by
  have h1 : ∑ i, (f i - S / N) * (f i - S / N)
      = (∑ i, f i * f i) - 2 * (S / N) * S + N * ((S / N) * (S / N)) := by
    have h2 : ∀ i, (f i - S / N) * (f i - S / N) = f i * f i - 2 * (S / N) * f i + (S / N) * (S / N) :=
      fun i => by ring
    rw [Finset.sum_congr rfl fun i _ => h2 i, Finset.sum_add_distrib, Finset.sum_sub_distrib, ← Finset.mul_sum, hS,
      Finset.sum_const, Finset.card_univ, nsmul_eq_mul, hN]
  rw [h1]
  field_simp
  ring

/-- The reciprocal square root of a positive real is the real reciprocal of its square root. -/
theorem rsqrt_coe_pos {v : ℝ} (hv : 0 < v) : Ideal.rsqrt ((v : ℝ) : EReal) = (((Real.sqrt v)⁻¹ : ℝ) : EReal) := by
  rw [Ideal.rsqrt_coe, if_neg (not_lt.mpr hv.le), if_neg (ne_of_gt hv)]

theorem mean_coe (hf : Fin 100000 → Fin c → ℝ) (q : Fin c) :
    mean (fun r q => ((hf r q : ℝ) : EReal)) q = (((∑ r, hf r q) / 100000 : ℝ) : EReal) := by
  show Ideal.div (∑ r : Fin 100000, ((hf r q : ℝ) : EReal)) nodes = _
  rw [nodes_eq, ← coe_sum, div_coe_coe (by norm_num)]

theorem varR_coe (hf : Fin 100000 → Fin c → ℝ) (q : Fin c) :
    varR (fun r q => ((hf r q : ℝ) : EReal)) q
      = (((∑ r, (hf r q - (∑ r, hf r q) / 100000) * (hf r q - (∑ r, hf r q) / 100000)) / 100000 : ℝ) : EReal) := by
  simp only [varR, mean_coe, nodes_eq, ← EReal.coe_sub, ← EReal.coe_mul, ← coe_sum]
  rw [div_coe_coe (by norm_num)]

theorem card_nodes : (Fintype.card (Fin 100000) : ℝ) = 100000 := by
  rw [Fintype.card_fin]; norm_num

/-- On real data the variance cut off at zero is the mean of the squared deviations: the two agree over the reals,
    and the second is a sum of squares over a positive number, so the cut does nothing. -/
theorem varK_eq_varR (hf : Fin 100000 → Fin c → ℝ) (q : Fin c) :
    varK (fun r q => ((hf r q : ℝ) : EReal)) q = varR (fun r q => ((hf r q : ℝ) : EReal)) q := by
  rw [varR_coe, var_identity (fun r => hf r q) 100000 (∑ r, hf r q) rfl card_nodes (by norm_num)]
  simp only [varK, mean_coe, nodes_eq, zero_eq, ← EReal.coe_mul, ← coe_sum]
  rw [div_coe_coe (by norm_num), ← EReal.coe_sub]
  refine max_eq_left ?_
  rw [← EReal.coe_zero, EReal.coe_le_coe_iff,
    ← var_identity (fun r => hf r q) 100000 (∑ r, hf r q) rfl card_nodes (by norm_num)]
  exact div_nonneg (Finset.sum_nonneg fun r _ => mul_self_nonneg _) (by norm_num)

/-- The reciprocal square root of the variance plus the small shift is a real number. -/
theorem rsqrt_var_coe (hf : Fin 100000 → Fin c → ℝ) (q : Fin c) :
    ∃ s : ℝ, Ideal.rsqrt (varR (fun r q => ((hf r q : ℝ) : EReal)) q + eps) = (s : EReal) := by
  obtain ⟨ε, hε, he⟩ := eps_eq
  have hnn : 0 ≤ (∑ r, (hf r q - (∑ r, hf r q) / 100000) * (hf r q - (∑ r, hf r q) / 100000)) / 100000 :=
    div_nonneg (Finset.sum_nonneg fun r _ => mul_self_nonneg _) (by norm_num)
  rw [varR_coe, he, ← EReal.coe_add, rsqrt_coe_pos (by linarith)]
  exact ⟨_, rfl⟩

/-- The two normalisations agree on real data. -/
theorem bnK_eq_bnR {g be : Fin c → EReal} {h : Mat 100000 c} (hh : RealMat h) (hg : RealVec g) (hbe : RealVec be) :
    bnK g be h = bnR g be h := by
  obtain ⟨hf, rfl⟩ := hh.eq_coe
  obtain ⟨gf, rfl⟩ := hg.eq_coe
  obtain ⟨bf, rfl⟩ := hbe.eq_coe
  funext r q
  obtain ⟨s, hs⟩ := rsqrt_var_coe hf q
  simp only [bnK, bnR, scaleK, shiftK, varK_eq_varR, hs, mean_coe, ← EReal.coe_sub, ← EReal.coe_mul, ← EReal.coe_add]
  congr 2
  ring

theorem mean_real {h : Mat 100000 c} (hh : RealMat h) : RealVec (mean h) := by
  obtain ⟨hf, rfl⟩ := hh.eq_coe
  exact fun q => ⟨_, mean_coe hf q⟩

theorem rsqrt_var_real {h : Mat 100000 c} (hh : RealMat h) (q : Fin c) :
    ∃ s : ℝ, Ideal.rsqrt (varR h q + eps) = (s : EReal) := by
  obtain ⟨hf, rfl⟩ := hh.eq_coe
  exact rsqrt_var_coe hf q

theorem RealMat.bnR {g be : Fin c → EReal} {h : Mat 100000 c} (hh : RealMat h) (hg : RealVec g) (hbe : RealVec be) :
    RealMat (bnR g be h) :=
  fun r q => real_max
    (real_add (real_mul (real_mul (hg q) (real_sub (hh r q) (mean_real hh q))) (rsqrt_var_real hh q)) (hbe q))
    ⟨0, zero_eq.trans EReal.coe_zero.symm⟩

theorem RealMat.bnK {g be : Fin c → EReal} {h : Mat 100000 c} (hh : RealMat h) (hg : RealVec g) (hbe : RealVec be) :
    RealMat (bnK g be h) := by
  rw [bnK_eq_bnR hh hg hbe]
  exact RealMat.bnR hh hg hbe

/-! ### The two networks agree -/

theorem netK_eq_netR {f1 f2 f3 : Nat} (seg : Fin 100000 → Finset (Fin e)) (tk : Fin e → Fin 100000)
    {x : Mat 100000 k} {w1l w1r : Mat k f1} {b1 g1 be1 : Fin f1 → EReal}
    {w2l w2r : Mat f1 f2} {b2 g2 be2 : Fin f2 → EReal} {wol wor : Mat f2 f3} {bo : Fin f3 → EReal}
    (hx : RealMat x) (hw1l : RealMat w1l) (hw1r : RealMat w1r) (hb1 : RealVec b1) (hg1 : RealVec g1)
    (hbe1 : RealVec be1) (hw2l : RealMat w2l) (hw2r : RealMat w2r) (hb2 : RealVec b2) (hg2 : RealVec g2)
    (hbe2 : RealVec be2) (hwol : RealMat wol) (_hwor : RealMat wor) (_hbo : RealVec bo) :
    netK seg tk x w1l w1r b1 g1 be1 w2l w2r b2 g2 be2 wol wor bo
      = netR seg tk x w1l w1r b1 g1 be1 w2l w2r b2 g2 be2 wol wor bo := by
  have hd : RealVec (degInv seg) := degInv_real seg
  have e1 : preK seg tk (degInv seg) x w1l w1r b1 = preR seg tk (degInv seg) x w1l w1r b1 :=
    preK_eq_preR seg tk w1r b1 hx hw1l hd
  have r1 : RealMat (preR seg tk (degInv seg) x w1l w1r b1) := RealMat.preR seg tk hd hx hw1l hw1r hb1
  have e2 : bnK g1 be1 (preR seg tk (degInv seg) x w1l w1r b1) = bnR g1 be1 (preR seg tk (degInv seg) x w1l w1r b1) :=
    bnK_eq_bnR r1 hg1 hbe1
  have r2 : RealMat (bnR g1 be1 (preR seg tk (degInv seg) x w1l w1r b1)) := RealMat.bnR r1 hg1 hbe1
  have e3 := preK_eq_preR seg tk w2r b2 r2 hw2l hd
  have r3 := RealMat.preR seg tk hd r2 hw2l hw2r hb2
  have e4 := bnK_eq_bnR r3 hg2 hbe2
  have r4 := RealMat.bnR r3 hg2 hbe2
  have e5 := preK_eq_preR seg tk wor bo r4 hwol hd
  show lsm _ = lsm _
  rw [e1, e2, e3, e4, e5]

end Cert.Sage

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.ProjRegion0.lean ====
/-
  The first projection: what the row-blocked matrix product leaves in its output array.

  The features `x` (100000 × 100) are cut into ten blocks of 10000 rows; the weight `w` (100 × 64) is held whole
  at every point. At point `t` the body multiplies block `t` of `x` by `w` into a zero accumulator, and the product
  is written back as block `t` of the output (100000 × 64). Row `r` of the output lies in block `r / 10000`, at row
  `r % 10000` of it, and the product there reads row `r` of `x`: the output is the matrix product of `x` and `w`,
  entry by entry, `∑ t, x (r, t) · w (t, q)`.
-/
import proofs.«159197_j5257039970572_2_alg».proof.Proof.Gen.KernelIdeal.Frame
import proofs.«159197_j5257039970572_2_alg».proof.Proof.LibPlainMatmul
import Idealize.ShloMosaic.Lib.Pipeline.Value
import Idealize.ShloMosaic.Lib.ValueIdx

set_option maxRecDepth 16384

noncomputable section

namespace Cert.KernelIdeal.ProjRegion0

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offsets of a whole-buffer access are zero on both axes. -/
theorem zero_offsets : (![0, 0] : Fin 2 → Nat) = fun _ => 0 := funext fun a => by fin_cases a <;> rfl

/-- The block indices at point `t`: the features and the output move down one block of rows per point; the weight
    stays at block (0, 0), at each of the ten points. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry of the block: the sum over the 100 contracted columns. -/
theorem pay_apply (x0 : FVec Ideal S10000x100 .f32) (x1 : FVec Ideal S100x64 .f32) (p : Fin 10000) (q : Fin 64) :
    k0_pay1 x0 x1 (ix2 p q) = ∑ k : Fin 100, x0 (ix2 p k) * x1 (ix2 k q) := by
  unfold k0_pay1
  exact Cert.LibPlainMatmul.matmul_zero_apply dot_S10000x100_S100x64_S10000x64_1_0_0_1_n_n rfl rfl rfl rfl rfl rfl
    none x0 x1 p q

/-- Row `p` of block `t` of the features is row `10000 t + p` of the array. -/
theorem x_block (c : Dev nD) (t : Fin cfg0.N) (p : Fin 10000) (k : Fin 100) (r : Fin 100000)
    (hr : r.val = t.val * 10000 + p.val) :
    (iblk0 V c 0 t : Vec Ideal S10000x100 .f32) (ix2 p k)
      = (V c (Pipeline.arrRef spec0 0) : S100000x100.Idx → EReal) (ix2 r k) := by
  obtain ⟨e0, e1, -⟩ := index_facts t
  unfold iblk0
  rw [View.read_apply]
  refine congrArg (V c (Pipeline.arrRef spec0 0) : S100000x100.Idx → EReal) (funext fun a => Fin.ext ?_)
  match a with
  | ⟨0, _⟩ => show win0_0.index t (0 : Fin 2) * 10000 + 1 * p.val = r.val; omega
  | ⟨1, _⟩ => show win0_0.index t (1 : Fin 2) * 100 + 1 * k.val = k.val; omega

/-- The weight's block at every point is the weight. -/
theorem w_block (c : Dev nD) (t : Fin cfg0.N) (k : Fin 100) (q : Fin 64) :
    (iblk0 V c 1 t : Vec Ideal S100x64 .f32) (ix2 k q)
      = (V c (Pipeline.arrRef spec0 1) : S100x64.Idx → EReal) (ix2 k q) := by
  obtain ⟨-, -, e2, e3, -⟩ := index_facts t
  unfold iblk0
  rw [View.read_apply]
  refine congrArg (V c (Pipeline.arrRef spec0 1) : S100x64.Idx → EReal) (funext fun a => Fin.ext ?_)
  match a with
  | ⟨0, _⟩ => show win0_1.index t (0 : Fin 2) * 100 + 1 * k.val = k.val; omega
  | ⟨1, _⟩ => show win0_1.index t (1 : Fin 2) * 64 + 1 * q.val = q.val; omega

/-- The matrix product of a 100000 × 100 and a 100 × 64 array, at an entry. -/
def prod (x : S100000x100.Idx → EReal) (w : S100x64.Idx → EReal) (r : Fin 100000) (q : Fin 64) : EReal :=
  ∑ t : Fin 100, x (ix2 r t) * w (ix2 t q)

/-- The same as one array over the output's indices. -/
abbrev prodArr (x : S100000x100.Idx → EReal) (w : S100x64.Idx → EReal) : S100000x64.Idx → EReal :=
  fun i => prod x w ⟨(i 0).val, idx2_lt0 i⟩ ⟨(i 1).val, idx2_lt1 i⟩

/-- Entry `(p, q)` of the output's block `t` is entry `(10000 t + p, q)` of the array. -/
theorem out_emb (t : Fin cfg0.N) (p : Fin 10000) (q : Fin 64) (r : Fin 100000) (hr : r.val = t.val * 10000 + p.val) :
    ((cfg0.win 2).blk t).view.emb (ix2 p q) = (ix2 r q : S100000x64.Idx) := by
  obtain ⟨-, -, -, -, e4, e5⟩ := index_facts t
  funext a; apply Fin.ext
  match a with
  | ⟨0, _⟩ => show win0_2.index t (0 : Fin 2) * 10000 + 1 * p.val = r.val; omega
  | ⟨1, _⟩ => show win0_2.index t (1 : Fin 2) * 64 + 1 * q.val = q.val; omega

/-- What point `t` writes back is block `t` of the product of the two arrays the region finds. -/
theorem flushed_out (c : Dev nD) (t : Fin cfg0.N) :
    (dat0 V c).flushed 2 t = ((cfg0.win 2).blk t).view.read (Elt Ideal)
      (prodArr (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S10000x100) zero_offsets, View.ld_unit_zero (S := S100x64) zero_offsets]
  funext j
  obtain ⟨p, q, rfl⟩ : ∃ (p : Fin 10000) (q : Fin 64), j = ix2 p q := ⟨j 0, j 1, eq_ix2 j⟩
  have hN : cfg0.N = 10 := N_0
  have hr : t.val * 10000 + p.val < 100000 := by have := t.isLt; omega
  show k0_pay1 (iblk0 V c 0 t) (iblk0 V c 1 t) (ix2 p q)
    = prodArr (V c (Pipeline.arrRef spec0 0)) (V c (Pipeline.arrRef spec0 1)) (((cfg0.win 2).blk t).view.emb (ix2 p q))
  refine (pay_apply (iblk0 V c 0 t) (iblk0 V c 1 t) p q).trans ?_
  rw [out_emb t p q ⟨t.val * 10000 + p.val, hr⟩ rfl]
  show _ = prod (V c (Pipeline.arrRef spec0 0)) (V c (Pipeline.arrRef spec0 1)) ⟨t.val * 10000 + p.val, hr⟩ q
  unfold prod
  refine Finset.sum_congr rfl fun k _ => ?_
  rw [x_block V c t p k ⟨t.val * 10000 + p.val, hr⟩ rfl, w_block V c t k q]

/-- An index of the output is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v9).slice (win0_2.rect t)).set ↔ _
  rw [View.set_slice_whole, Rect.mem_set_unit]
  exact Iff.rfl

/-- Every index of the output is in some point's block: row `r` is in block `r / 10000`. -/
theorem covered (i : S100000x64.Idx) :
    ∃ t : Fin cfg0.N, (cfg0.win 2).flush t = true ∧ i ∈ ((cfg0.win 2).blk t).view.set := by
  have hN : cfg0.N = 10 := N_0
  have h0 : (i 0).val < 100000 := idx2_lt0 i
  have h1 : (i 1).val < 64 := idx2_lt1 i
  obtain ⟨t, ht⟩ : ∃ t : Fin cfg0.N, t.val = (i 0).val / 10000 := ⟨⟨(i 0).val / 10000, by omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array after the region: the product of the two arrays the region finds. -/
theorem out_array (c : Dev nD) :
    (dat0 V c).arrAt 2 cfg0.N = prodArr (V c (Pipeline.arrRef spec0 0)) (V c (Pipeline.arrRef spec0 1)) :=
  (dat0 V c).arrAt_eq_of_cover 2 (prodArr (V c (Pipeline.arrRef spec0 0)) (V c (Pipeline.arrRef spec0 1)))
    (fun t _ => flushed_out V c t) covered

/-- The output array at an entry, for any arrays `x`, `w` the two input windows' arrays are known to be. -/
theorem region0_out_of (c : Dev nD) (x : S100000x100.Idx → EReal) (w : S100x64.Idx → EReal)
    (hx : V c (Pipeline.arrRef spec0 0) = x) (hw : V c (Pipeline.arrRef spec0 1) = w) (r : Fin 100000) (q : Fin 64) :
    (Gen.dat0 V c).arrAt 2 cfg0.N (ix2 r q) = ∑ t : Fin 100, x (ix2 r t) * w (ix2 t q) := by
  subst hx hw
  exact congrFun (out_array V c) (ix2 r q)

/-- The output array at an entry: the product of the features' row and the weight's column. -/
theorem region0_out (c : Dev nD) (r : Fin 100000) (q : Fin 64) :
    (Gen.dat0 V c).arrAt 2 cfg0.N (ix2 r q)
      = ∑ t : Fin 100, HMul.hMul (α := EReal) (β := EReal) (γ := EReal)
          (V c (Pipeline.arrRef spec0 0) (ix2 r t)) (V c (Pipeline.arrRef spec0 1) (ix2 t q)) :=
  region0_out_of V c _ _ rfl rfl r q

end Cert.KernelIdeal.ProjRegion0

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.RegionsABlk1.lean ====
/-
  The row blocks a layer's combine-and-statistics step reads, as parts of the arrays it is given.

  The `100000` nodes are worked through in ten blocks of `10000`: row `p` of block `k` is node `10000 · k + p`. The
  neighbour sums, the nodes' own features (width `100`) and the reciprocal degrees are read one row block per point;
  the weight matrix and the bias row are read whole at every point. From them the layer's pre-activation at node
  `r` and column `q` is the neighbour sum scaled by the reciprocal degree, plus the features times the weights, plus
  the bias. A sum over all nodes splits into the ten blocks' sums.
-/
import proofs.«159197_j5257039970572_2_alg».proof.Proof.Gen.KernelIdeal.Frame
import proofs.«159197_j5257039970572_2_alg».proof.Proof.LibERealSums
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.StatsRegion1

open Cert.KernelIdeal Cert.KernelIdeal.Gen

variable (V : (c : Dev nD) → (b : Ref sig .tc) → Buf (Elt Ideal) ((c : Thread nD τ).loc b))

/-! ## Rows of blocks, and the pre-activation -/

/-- The node under row `p` of block `k`. -/
def row (k : ℕ) (p : Fin 10000) : Fin 100000 := ⟨(10000 * k + p.val) % 100000, Nat.mod_lt _ (by decide)⟩

theorem row_val (k : ℕ) (hk : k < 10) (p : Fin 10000) : (row k p).val = 10000 * k + p.val :=
  Nat.mod_eq_of_lt (by have := p.isLt; omega)

/-- A layer's pre-activation at node `r` and column `q`, from the neighbour sums `a`, the reciprocal degrees `d`, the
    nodes' own features `x`, the weights `w` and the bias row `b`. -/
def preOf (a : S100000x64.Idx → EReal) (d : S100000x1.Idx → EReal) (x : S100000x100.Idx → EReal) (w : S100x64.Idx → EReal)
    (b : S1x64.Idx → EReal) (r : Fin 100000) (q : Fin 64) : EReal :=
  a (ix2 r q) * d (ix2 r 0) + (∑ t : Fin 100, x (ix2 r t) * w (ix2 t q)) + b (ix2 0 q)

/-- The layer's pre-activation at node `r` and column `q`, from the arrays the step is given. -/
def pre (c : Dev nD) (r : Fin 100000) (q : Fin 64) : EReal :=
  preOf (V c (Pipeline.arrRef spec1 0)) (V c (Pipeline.arrRef spec1 4)) (V c (Pipeline.arrRef spec1 1)) (V c (Pipeline.arrRef spec1 2)) (V c (Pipeline.arrRef spec1 3)) r q

/-- The ten blocks' column sums add up to the column sum over all nodes. -/
theorem blocks_sum (f : Fin 100000 → EReal) :
    ∑ k ∈ Finset.range (9 + 1), ∑ p : Fin 10000, f (row k p) = ∑ r : Fin 100000, f r := by
  rw [Finset.sum_range (fun k => ∑ p : Fin 10000, f (row k p))]
  exact (Cert.LibERealSums.sum_fin_blocks (m := 10) (n := 10000) (N := 100000) rfl (fun k p => row k.val p)
    (fun k p => row_val k.val k.isLt p) f).symm

/-! ## The blocks a point reads -/

/-- The block index of each window at each point: a row-blocked window is at block `t` of its rows, a window held
    whole at its one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- The neighbour-sum block of point `t` holds the rows `10000 · t + p` of the array. -/
theorem blk0_apply (c : Dev nD) (t : Fin cfg1.N) (p : Fin 10000) (q : Fin 64) :
    (iblk1 V c 0 t : Vec Ideal S10000x64 .f32) (ix2 p q) = (V c (Pipeline.arrRef spec1 0) : S100000x64.Idx → EReal) (ix2 (row t.val p) q) := by
  have hN : t.val < 10 := lt_of_lt_of_eq t.isLt (show cfg1.N = 10 from N_1)
  obtain ⟨e00, e01, e10, e11, e20, e21, e30, e31, e40, e41, e50, e51, e60, e61, e70, e71⟩ := idx_facts t
  show (V c (Pipeline.arrRef spec1 0) : S100000x64.Idx → EReal) (((cfg1.win 0).blk t).view.emb (ix2 p q)) = _
  refine congrArg (V c (Pipeline.arrRef spec1 0) : S100000x64.Idx → EReal) (funext fun a => Fin.ext ?_)
  match a with
  | ⟨0, _⟩ =>
    show win1_0.index t (0 : Fin 2) * 10000 + 1 * p.val = (10000 * t.val + p.val) % 100000
    rw [e00, Nat.mod_eq_of_lt (by have := p.isLt; omega)]; omega
  | ⟨1, _⟩ => show win1_0.index t (1 : Fin 2) * 64 + 1 * q.val = q.val; rw [e01]; omega

/-- The feature block of point `t` holds the rows `10000 · t + p` of the array. -/
theorem blk1_apply (c : Dev nD) (t : Fin cfg1.N) (p : Fin 10000) (s : Fin 100) :
    (iblk1 V c 1 t : Vec Ideal S10000x100 .f32) (ix2 p s) = (V c (Pipeline.arrRef spec1 1) : S100000x100.Idx → EReal) (ix2 (row t.val p) s) := by
  have hN : t.val < 10 := lt_of_lt_of_eq t.isLt (show cfg1.N = 10 from N_1)
  obtain ⟨e00, e01, e10, e11, e20, e21, e30, e31, e40, e41, e50, e51, e60, e61, e70, e71⟩ := idx_facts t
  show (V c (Pipeline.arrRef spec1 1) : S100000x100.Idx → EReal) (((cfg1.win 1).blk t).view.emb (ix2 p s)) = _
  refine congrArg (V c (Pipeline.arrRef spec1 1) : S100000x100.Idx → EReal) (funext fun a => Fin.ext ?_)
  match a with
  | ⟨0, _⟩ =>
    show win1_1.index t (0 : Fin 2) * 10000 + 1 * p.val = (10000 * t.val + p.val) % 100000
    rw [e10, Nat.mod_eq_of_lt (by have := p.isLt; omega)]; omega
  | ⟨1, _⟩ => show win1_1.index t (1 : Fin 2) * 100 + 1 * s.val = s.val; rw [e11]; omega

/-- The weight matrix is read whole at every point. -/
theorem blk2_apply (c : Dev nD) (t : Fin cfg1.N) (s : Fin 100) (q : Fin 64) :
    (iblk1 V c 2 t : Vec Ideal S100x64 .f32) (ix2 s q) = (V c (Pipeline.arrRef spec1 2) : S100x64.Idx → EReal) (ix2 s q) := by
  obtain ⟨e00, e01, e10, e11, e20, e21, e30, e31, e40, e41, e50, e51, e60, e61, e70, e71⟩ := idx_facts t
  show (V c (Pipeline.arrRef spec1 2) : S100x64.Idx → EReal) (((cfg1.win 2).blk t).view.emb (ix2 s q)) = _
  refine congrArg (V c (Pipeline.arrRef spec1 2) : S100x64.Idx → EReal) (funext fun a => Fin.ext ?_)
  match a with
  | ⟨0, _⟩ => show win1_2.index t (0 : Fin 2) * 100 + 1 * s.val = s.val; rw [e20]; omega
  | ⟨1, _⟩ => show win1_2.index t (1 : Fin 2) * 64 + 1 * q.val = q.val; rw [e21]; omega

/-- The bias row is read whole at every point. -/
theorem blk3_apply (c : Dev nD) (t : Fin cfg1.N) (u : Fin 1) (q : Fin 64) :
    (iblk1 V c 3 t : Vec Ideal S1x64 .f32) (ix2 u q) = (V c (Pipeline.arrRef spec1 3) : S1x64.Idx → EReal) (ix2 u q) := by
  obtain ⟨e00, e01, e10, e11, e20, e21, e30, e31, e40, e41, e50, e51, e60, e61, e70, e71⟩ := idx_facts t
  show (V c (Pipeline.arrRef spec1 3) : S1x64.Idx → EReal) (((cfg1.win 3).blk t).view.emb (ix2 u q)) = _
  refine congrArg (V c (Pipeline.arrRef spec1 3) : S1x64.Idx → EReal) (funext fun a => Fin.ext ?_)
  match a with
  | ⟨0, _⟩ => show win1_3.index t (0 : Fin 2) * 1 + 1 * u.val = u.val; rw [e30]; omega
  | ⟨1, _⟩ => show win1_3.index t (1 : Fin 2) * 64 + 1 * q.val = q.val; rw [e31]; omega

/-- The reciprocal-degree block of point `t` holds the rows `10000 · t + p` of the column. -/
theorem blk4_apply (c : Dev nD) (t : Fin cfg1.N) (p : Fin 10000) (u : Fin 1) :
    (iblk1 V c 4 t : Vec Ideal S10000x1 .f32) (ix2 p u) = (V c (Pipeline.arrRef spec1 4) : S100000x1.Idx → EReal) (ix2 (row t.val p) u) := by
  have hN : t.val < 10 := lt_of_lt_of_eq t.isLt (show cfg1.N = 10 from N_1)
  obtain ⟨e00, e01, e10, e11, e20, e21, e30, e31, e40, e41, e50, e51, e60, e61, e70, e71⟩ := idx_facts t
  show (V c (Pipeline.arrRef spec1 4) : S100000x1.Idx → EReal) (((cfg1.win 4).blk t).view.emb (ix2 p u)) = _
  refine congrArg (V c (Pipeline.arrRef spec1 4) : S100000x1.Idx → EReal) (funext fun a => Fin.ext ?_)
  match a with
  | ⟨0, _⟩ =>
    show win1_4.index t (0 : Fin 2) * 10000 + 1 * p.val = (10000 * t.val + p.val) % 100000
    rw [e40, Nat.mod_eq_of_lt (by have := p.isLt; omega)]; omega
  | ⟨1, _⟩ => show win1_4.index t (1 : Fin 2) * 1 + 1 * u.val = u.val; rw [e41]; omega

end Cert.KernelIdeal.StatsRegion1

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«159197_j5257039970572_2_alg».proof.Proof.LibRows
import proofs.«159197_j5257039970572_2_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.RegionsAPay1.lean ====
/-
  The arithmetic of one row block of a layer's combine-and-statistics step, read entry by entry over the
  extended reals.

  For a block of `10000` rows the step forms, at row `p` and column `q`, the pre-activation
  `a (p, q) · d (p, 0) + Σ_t x (p, t) · w (t, q) + b (0, q)`: the block of neighbour sums scaled by the reciprocal
  degree of the row, plus the block of the rows' own features (width `100`) times the weight matrix, plus the bias
  row. The two running accumulators are a row of `64` entries each; the step adds to them, column by column, the
  sum over the block's rows of the pre-activation and of its square. The accumulators start from the zero row.
-/
import proofs.«159197_j5257039970572_2_alg».proof.Proof.Gen.KernelIdeal.Skeleton
import proofs.«159197_j5257039970572_2_alg».proof.Proof.LibRows
import proofs.«159197_j5257039970572_2_alg».proof.Proof.LibMatrixReduce
import proofs.«159197_j5257039970572_2_alg».proof.Proof.LibPlainMatmul
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.StatsRegion1

open Cert.KernelIdeal Cert.KernelIdeal.Gen

/-- The pre-activation of a row block at row `p` and column `q`: scaled neighbour sum, plus the row's own
    features times the weights, plus the bias. -/
theorem pre_apply (a : Vec Ideal S10000x64 .f32) (d : Vec Ideal S10000x1 .f32) (x : Vec Ideal S10000x100 .f32)
    (w : Vec Ideal S100x64 .f32) (b : Vec Ideal S1x64 .f32) (p : Fin 10000) (q : Fin 64) :
    k1_pay1 a d x w b (ix2 p q)
      = a (ix2 p q) * d (ix2 p 0) + (∑ t : Fin 100, x (ix2 p t) * w (ix2 t q)) + b (ix2 0 q) := by
  unfold k1_pay1
  simp only [shapeCast_self]
  rw [addf_apply, addf_apply, mulf_apply]
  refine congrArg₂ (· + ·) (congrArg₂ (· + ·) (congrArg₂ (· * ·) rfl ?_) ?_) ?_
  · exact Cert.Rows.bcast_col (m := 10000) (n := 64) (by decide) d broadcasts_S10000x1_S10000x64 p q
  · exact Cert.LibPlainMatmul.matmul_zero_apply dot_S10000x100_S100x64_S10000x64_1_0_0_1_n_n rfl rfl rfl rfl rfl rfl none x w p q
  · exact Cert.Rows.bcast_row (m := 10000) (n := 64) (by decide) b broadcasts_S1x64_S10000x64 p q

/-- The first accumulator after a block: its entry at column `q` grows by the sum of the block's pre-activations
    in that column. -/
theorem sum_apply (a : Vec Ideal S10000x64 .f32) (d : Vec Ideal S10000x1 .f32) (x : Vec Ideal S10000x100 .f32)
    (w : Vec Ideal S100x64 .f32) (b : Vec Ideal S1x64 .f32) (acc : Vec Ideal S1x64 .f32) (q : Fin 64) :
    k1_pay4 a d x w b acc (ix2 0 q) = acc (ix2 0 q) + ∑ p : Fin 10000, k1_pay1 a d x w b (ix2 p q) := by
  unfold k1_pay4
  rw [addf_apply]
  refine congrArg₂ (· + ·) (congrFun (shapeCast_self acc shapeCasts_S1x64_S1x64) (ix2 0 q)) ?_
  refine (shapeCast_a_1a_apply _ shapeCasts_S64_S1x64 0 q).trans ?_
  exact Cert.LibMatrixReduce.colSum_apply (m := 10000) (n := 64) (k1_pay1 a d x w b) 0x00000000#32 reduces_S10000x64_S64
    (.inl rfl) rfl q

/-- The second accumulator after a block: its entry at column `q` grows by the sum of the squares of the block's
    pre-activations in that column. -/
theorem sumsq_apply (a : Vec Ideal S10000x64 .f32) (d : Vec Ideal S10000x1 .f32) (x : Vec Ideal S10000x100 .f32)
    (w : Vec Ideal S100x64 .f32) (b : Vec Ideal S1x64 .f32) (acc : Vec Ideal S1x64 .f32) (q : Fin 64) :
    k1_pay5 a d x w b acc (ix2 0 q)
      = acc (ix2 0 q) + ∑ p : Fin 10000, k1_pay1 a d x w b (ix2 p q) * k1_pay1 a d x w b (ix2 p q) := by
  unfold k1_pay5
  rw [addf_apply]
  refine congrArg₂ (· + ·) (congrFun (shapeCast_self acc shapeCasts_S1x64_S1x64) (ix2 0 q)) ?_
  refine (shapeCast_a_1a_apply _ shapeCasts_S64_S1x64 0 q).trans ?_
  exact Cert.LibMatrixReduce.colSum_apply (m := 10000) (n := 64)
    (mulf (k1_pay1 a d x w b) (k1_pay1 a d x w b)) 0x00000000#32 reduces_S10000x64_S64 (.inl rfl) rfl q

/-- The row the first accumulator is reset to holds zero everywhere. -/
theorem zero_sum_apply (j : S1x64.Idx) : (k1_pay2 (F := Ideal)) j = 0 := by
  unfold k1_pay2
  exact Ideal.ofBits_zero_f32

/-- The row the second accumulator is reset to holds zero everywhere. -/
theorem zero_sumsq_apply (j : S1x64.Idx) : (k1_pay3 (F := Ideal)) j = 0 := by
  unfold k1_pay3
  exact Ideal.ofBits_zero_f32

end Cert.KernelIdeal.StatsRegion1

end
-- ==== Proof.RegionsAOut1.lean ====
/-
  What one grid point of a layer's combine-and-statistics step leaves in its three output blocks, as the
  step's arithmetic applied to the blocks it read.

  At every point the first output block is the pre-activation of the point's row block. The two accumulator
  rows are reset at the first point and added to at every point: at the first point they are left at the step's
  update of the zero row, at any later point at the step's update of what the point before left.
-/
import proofs.«159197_j5257039970572_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsRegion1

open Cert.KernelIdeal Cert.KernelIdeal.Gen

variable {F : FTy → Type} [FloatOps F]

/-- A block stored or loaded whole starts at the origin. -/
theorem hz : (![0, 0] : Fin 2 → Nat) = fun _ => 0 := funext fun a => by fin_cases a <;> rfl

/-- At a later point the first output block is the pre-activation of the blocks read. -/
theorem later_pre (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond1_0 i)
    (x0 : Vec F S10000x64 .f32) (x1 : Vec F S10000x100 .f32) (x2 : Vec F S100x64 .f32) (x3 : Vec F S1x64 .f32) (x4 : Vec F S10000x1 .f32) (xo6 xo7 : Vec F S1x64 .f32) :
    out1_B_5 c i a1 h1 a2 h2 a3 h3 a4 h4 a5 h5 a6 h6 a7 h7 a8 h8 hc x0 x1 x2 x3 x4 xo6 xo7 = k1_pay1 x0 x4 x1 x2 x3 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, View.ld_unit_zero (S := S10000x64) hz, View.ld_unit_zero (S := S10000x100) hz, View.ld_unit_zero (S := S100x64) hz, View.ld_unit_zero (S := S1x64) hz, View.ld_unit_zero (S := S10000x1) hz]

/-- At a later point the first accumulator is the step's update of what it held. -/
theorem later_sum (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond1_0 i)
    (x0 : Vec F S10000x64 .f32) (x1 : Vec F S10000x100 .f32) (x2 : Vec F S100x64 .f32) (x3 : Vec F S1x64 .f32) (x4 : Vec F S10000x1 .f32) (xo6 xo7 : Vec F S1x64 .f32) :
    out1_B_6 c i a1 h1 a2 h2 a3 h3 a4 h4 a5 h5 a6 h6 a7 h7 a8 h8 hc x0 x1 x2 x3 x4 xo6 xo7 = k1_pay4 x0 x4 x1 x2 x3 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  rw [View.canon_unit_zero hz]
  simp only [View.readAt_eq_ld, h1.read_unread, h2.read_unread, h3.read_unread, h4.read_unread, h5.read_unread, h7.read_unread, View.ld_unit_zero (S := S10000x64) hz, View.ld_unit_zero (S := S10000x100) hz, View.ld_unit_zero (S := S100x64) hz, View.ld_unit_zero (S := S1x64) hz, View.ld_unit_zero (S := S10000x1) hz]

/-- At a later point the second accumulator is the step's update of what it held. -/
theorem later_sumsq (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond1_0 i)
    (x0 : Vec F S10000x64 .f32) (x1 : Vec F S10000x100 .f32) (x2 : Vec F S100x64 .f32) (x3 : Vec F S1x64 .f32) (x4 : Vec F S10000x1 .f32) (xo6 xo7 : Vec F S1x64 .f32) :
    out1_B_7 c i a1 h1 a2 h2 a3 h3 a4 h4 a5 h5 a6 h6 a7 h7 a8 h8 hc x0 x1 x2 x3 x4 xo6 xo7 = k1_pay5 x0 x4 x1 x2 x3 xo7 := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz]
  simp only [View.readAt_eq_ld, h1.read_unread, h2.read_unread, h3.read_unread, h4.read_unread, h5.read_unread, h8.read_unread, View.ld_unit_zero (S := S10000x64) hz, View.ld_unit_zero (S := S10000x100) hz, View.ld_unit_zero (S := S100x64) hz, View.ld_unit_zero (S := S1x64) hz, View.ld_unit_zero (S := S10000x1) hz]

/-- At the first point the first output block is the pre-activation of the blocks read. -/
theorem first_pre (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond1_0 i)
    (x0 : Vec F S10000x64 .f32) (x1 : Vec F S10000x100 .f32) (x2 : Vec F S100x64 .f32) (x3 : Vec F S1x64 .f32) (x4 : Vec F S10000x1 .f32) :
    out1_A_5 c i a1 h1 a2 h2 a3 h3 a4 h4 a5 h5 a6 h6 a7 h7 a8 h8 hc x0 x1 x2 x3 x4 = k1_pay1 x0 x4 x1 x2 x3 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  rw [View.canon_unit_zero hz]
  simp only [View.readAt_eq_ld, h1.read_unread, h2.read_unread, h3.read_unread, h4.read_unread, h5.read_unread, View.ld_unit_zero (S := S10000x64) hz, View.ld_unit_zero (S := S10000x100) hz, View.ld_unit_zero (S := S100x64) hz, View.ld_unit_zero (S := S1x64) hz, View.ld_unit_zero (S := S10000x1) hz]

/-- At the first point the first accumulator is the step's update of the zero row it was just reset to. -/
theorem first_sum (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond1_0 i)
    (x0 : Vec F S10000x64 .f32) (x1 : Vec F S10000x100 .f32) (x2 : Vec F S100x64 .f32) (x3 : Vec F S1x64 .f32) (x4 : Vec F S10000x1 .f32) :
    out1_A_6 c i a1 h1 a2 h2 a3 h3 a4 h4 a5 h5 a6 h6 a7 h7 a8 h8 hc x0 x1 x2 x3 x4 = k1_pay4 x0 x4 x1 x2 x3 k1_pay2 := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S10000x64) hz, View.ld_unit_zero (S := S10000x100) hz, View.ld_unit_zero (S := S100x64) hz, View.ld_unit_zero (S := S1x64) hz, View.ld_unit_zero (S := S10000x1) hz]

/-- At the first point the second accumulator is the step's update of the zero row it was just reset to. -/
theorem first_sumsq (c : Dev nD) (i : grid1.Coords) (a1 : Memref sig .tc .vmem S10000x64 .f32) (h1 : a1.IsWhole) (a2 : Memref sig .tc .vmem S10000x100 .f32) (h2 : a2.IsWhole) (a3 : Memref sig .tc .vmem S100x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond1_0 i)
    (x0 : Vec F S10000x64 .f32) (x1 : Vec F S10000x100 .f32) (x2 : Vec F S100x64 .f32) (x3 : Vec F S1x64 .f32) (x4 : Vec F S10000x1 .f32) :
    out1_A_7 c i a1 h1 a2 h2 a3 h3 a4 h4 a5 h5 a6 h6 a7 h7 a8 h8 hc x0 x1 x2 x3 x4 = k1_pay5 x0 x4 x1 x2 x3 k1_pay3 := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S10000x64) hz, View.ld_unit_zero (S := S10000x100) hz, View.ld_unit_zero (S := S100x64) hz, View.ld_unit_zero (S := S1x64) hz, View.ld_unit_zero (S := S10000x1) hz]

end Cert.KernelIdeal.StatsRegion1

end
-- ==== Proof.StatsRegion1.lean ====
/-
  A layer's combine-and-statistics step over all `100000` nodes: what its three result arrays hold once the
  ten row blocks of `10000` nodes have been worked through in order.

  Write `h (r, q)` for the layer's pre-activation at node `r` and column `q`. Row `p` of block `k` is node
  `10000 · k + p`, so the first result array, written block by block, is `h` itself. The two accumulator rows are zero
  before the first block and grow, block after block, by the block's column sums of `h` and of `h²`; they are written
  out after the last block only. Addition of extended reals is commutative and associative, so the ten partial sums
  add up to the sums over all nodes.
-/
import proofs.«159197_j5257039970572_2_alg».proof.Proof.RegionsABlk1
import proofs.«159197_j5257039970572_2_alg».proof.Proof.RegionsAPay1
import proofs.«159197_j5257039970572_2_alg».proof.Proof.RegionsAOut1
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.StatsRegion1

open Cert.KernelIdeal Cert.KernelIdeal.Gen

variable (V : (c : Dev nD) → (b : Ref sig .tc) → Buf (Elt Ideal) ((c : Thread nD τ).loc b))

/-! ## What the three output blocks hold after each point -/

/-- The pre-activation of the block of point `t`, at row `p`: the layer's pre-activation at node `10000 · t + p`. -/
theorem pre_blk (c : Dev nD) (t : Fin cfg1.N) (p : Fin 10000) (q : Fin 64) :
    k1_pay1 (iblk1 V c 0 t) (iblk1 V c 4 t) (iblk1 V c 1 t) (iblk1 V c 2 t) (iblk1 V c 3 t) (ix2 p q) = pre V c (row t.val p) q :=
  (pre_apply (iblk1 V c 0 t) (iblk1 V c 4 t) (iblk1 V c 1 t) (iblk1 V c 2 t) (iblk1 V c 3 t) p q).trans
    (congrArg₂ (· + ·) (congrArg₂ (· + ·) (congrArg₂ (· * ·) (blk0_apply V c t p q) (blk4_apply V c t p 0))
      (Finset.sum_congr rfl fun s _ => congrArg₂ (· * ·) (blk1_apply V c t p s) (blk2_apply V c t s q)))
      (blk3_apply V c t 0 q))

/-- After the first point: the block's pre-activation, and the accumulators' updates of the zero row. -/
theorem outs_first (c : Dev nD) (t : Fin cfg1.N) (h0 : t.val % 10 = 0) :
    outsAt1 V c t.val t.isLt
      = (k1_pay1 (iblk1 V c 0 t) (iblk1 V c 4 t) (iblk1 V c 1 t) (iblk1 V c 2 t) (iblk1 V c 3 t), k1_pay4 (iblk1 V c 0 t) (iblk1 V c 4 t) (iblk1 V c 1 t) (iblk1 V c 2 t) (iblk1 V c 3 t) (k1_pay2 (F := Ideal)), k1_pay5 (iblk1 V c 0 t) (iblk1 V c 4 t) (iblk1 V c 1 t) (iblk1 V c 2 t) (iblk1 V c 3 t) (k1_pay3 (F := Ideal))) :=
  (outsAt1_A V c t h0).trans
    (congrArg₂ Prod.mk (first_pre c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
      (congrArg₂ Prod.mk (first_sum c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
        (first_sumsq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))))

/-- After a later point: the block's pre-activation, and the accumulators' updates of what the point before left. -/
theorem outs_later (c : Dev nD) (t : Fin cfg1.N) (h0 : ¬t.val % 10 = 0) :
    outsAt1 V c t.val t.isLt
      = (k1_pay1 (iblk1 V c 0 t) (iblk1 V c 4 t) (iblk1 V c 1 t) (iblk1 V c 2 t) (iblk1 V c 3 t), k1_pay4 (iblk1 V c 0 t) (iblk1 V c 4 t) (iblk1 V c 1 t) (iblk1 V c 2 t) (iblk1 V c 3 t) (outsAt1 V c (t.val - 1) (Nat.lt_of_le_of_lt (Nat.sub_le _ _) t.isLt)).2.1, k1_pay5 (iblk1 V c 0 t) (iblk1 V c 4 t) (iblk1 V c 1 t) (iblk1 V c 2 t) (iblk1 V c 3 t) (outsAt1 V c (t.val - 1) (Nat.lt_of_le_of_lt (Nat.sub_le _ _) t.isLt)).2.2) :=
  (outsAt1_B V c t h0).trans
    (congrArg₂ Prod.mk (later_pre c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
      (congrArg₂ Prod.mk (later_sum c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
        (later_sumsq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)))

/-- The first output block after any point is the pre-activation of the point's row block. -/
theorem outs_pre (c : Dev nD) (t : Fin cfg1.N) : (outsAt1 V c t.val t.isLt).1 = k1_pay1 (iblk1 V c 0 t) (iblk1 V c 4 t) (iblk1 V c 1 t) (iblk1 V c 2 t) (iblk1 V c 3 t) := by
  by_cases h0 : t.val % 10 = 0
  · exact congrArg Prod.fst (outs_first V c t h0)
  · exact congrArg Prod.fst (outs_later V c t h0)

/-- The first accumulator after point `n`: the column sums of the pre-activation over blocks `0 … n`. -/
theorem outs_sum (c : Dev nD) (q : Fin 64) : ∀ (n : ℕ) (hn : n < cfg1.N),
    (outsAt1 V c n hn).2.1 (ix2 0 q) = ∑ k ∈ Finset.range (n + 1), ∑ p : Fin 10000, pre V c (row k p) q
  | 0, hn => by
    refine (congrFun (congrArg (fun z => z.2.1) (outs_first V c ⟨0, hn⟩ rfl)) (ix2 0 q)).trans ?_
    refine (sum_apply (iblk1 V c 0 ⟨0, hn⟩) (iblk1 V c 4 ⟨0, hn⟩) (iblk1 V c 1 ⟨0, hn⟩) (iblk1 V c 2 ⟨0, hn⟩) (iblk1 V c 3 ⟨0, hn⟩) (k1_pay2 (F := Ideal)) q).trans ?_
    rw [zero_sum_apply, Finset.sum_range_succ, Finset.range_zero, Finset.sum_empty, zero_add, zero_add]
    exact Finset.sum_congr rfl fun p _ => pre_blk V c ⟨0, hn⟩ p q
  | n + 1, hn => by
    have hN : cfg1.N = 10 := N_1
    have hB : ¬(⟨n + 1, hn⟩ : Fin cfg1.N).val % 10 = 0 := by dsimp only; omega
    refine (congrFun (congrArg (fun z => z.2.1) (outs_later V c ⟨n + 1, hn⟩ hB)) (ix2 0 q)).trans ?_
    refine (sum_apply (iblk1 V c 0 ⟨n + 1, hn⟩) (iblk1 V c 4 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.1 q).trans ?_
    rw [outs_sum c q n (Nat.lt_of_succ_lt hn), Finset.sum_range_succ _ (n + 1)]
    exact congrArg _ (Finset.sum_congr rfl fun p _ => pre_blk V c ⟨n + 1, hn⟩ p q)

/-- The second accumulator after point `n`: the column sums of the squared pre-activation over blocks `0 … n`. -/
theorem outs_sumsq (c : Dev nD) (q : Fin 64) : ∀ (n : ℕ) (hn : n < cfg1.N),
    (outsAt1 V c n hn).2.2 (ix2 0 q)
      = ∑ k ∈ Finset.range (n + 1), ∑ p : Fin 10000, pre V c (row k p) q * pre V c (row k p) q
  | 0, hn => by
    refine (congrFun (congrArg (fun z => z.2.2) (outs_first V c ⟨0, hn⟩ rfl)) (ix2 0 q)).trans ?_
    refine (sumsq_apply (iblk1 V c 0 ⟨0, hn⟩) (iblk1 V c 4 ⟨0, hn⟩) (iblk1 V c 1 ⟨0, hn⟩) (iblk1 V c 2 ⟨0, hn⟩) (iblk1 V c 3 ⟨0, hn⟩) (k1_pay3 (F := Ideal)) q).trans ?_
    rw [zero_sumsq_apply, Finset.sum_range_succ, Finset.range_zero, Finset.sum_empty, zero_add, zero_add]
    exact Finset.sum_congr rfl fun p _ => congrArg₂ (· * ·) (pre_blk V c ⟨0, hn⟩ p q) (pre_blk V c ⟨0, hn⟩ p q)
  | n + 1, hn => by
    have hN : cfg1.N = 10 := N_1
    have hB : ¬(⟨n + 1, hn⟩ : Fin cfg1.N).val % 10 = 0 := by dsimp only; omega
    refine (congrFun (congrArg (fun z => z.2.2) (outs_later V c ⟨n + 1, hn⟩ hB)) (ix2 0 q)).trans ?_
    refine (sumsq_apply (iblk1 V c 0 ⟨n + 1, hn⟩) (iblk1 V c 4 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2 q).trans ?_
    rw [outs_sumsq c q n (Nat.lt_of_succ_lt hn), Finset.sum_range_succ _ (n + 1)]
    exact congrArg _ (Finset.sum_congr rfl fun p _ =>
      congrArg₂ (· * ·) (pre_blk V c ⟨n + 1, hn⟩ p q) (pre_blk V c ⟨n + 1, hn⟩ p q))

/-! ## The pre-activation array -/

/-- The pre-activation as an array over nodes and columns. -/
def preArr (c : Dev nD) : S100000x64.Idx → EReal :=
  fun i => pre V c ⟨(i 0).val, idx2_lt0 (n0 := 100000) (n1 := 64) i⟩ ⟨(i 1).val, idx2_lt1 (n0 := 100000) (n1 := 64) i⟩

/-- Block `t` of the pre-activation array is the pre-activation of the row block of point `t`. -/
theorem pre_blk_arr (c : Dev nD) (t : Fin cfg1.N) (j : S10000x64.Idx) :
    k1_pay1 (iblk1 V c 0 t) (iblk1 V c 4 t) (iblk1 V c 1 t) (iblk1 V c 2 t) (iblk1 V c 3 t) j = preArr V c (((cfg1.win 5).blk t).view.emb j) := by
  have hN : t.val < 10 := lt_of_lt_of_eq t.isLt (show cfg1.N = 10 from N_1)
  obtain ⟨e00, e01, e10, e11, e20, e21, e30, e31, e40, e41, e50, e51, e60, e61, e70, e71⟩ := idx_facts t
  obtain ⟨p, q, rfl⟩ : ∃ (p : Fin 10000) (q : Fin 64), j = ix2 p q := ⟨j 0, j 1, eq_ix2 j⟩
  refine (pre_blk V c t p q).trans ?_
  unfold preArr
  refine congrArg₂ (pre V c) (Fin.ext ?_) (Fin.ext ?_)
  · show (10000 * t.val + p.val) % 100000 = win1_5.index t (0 : Fin 2) * 10000 + 1 * p.val
    rw [e50, Nat.mod_eq_of_lt (by have := p.isLt; omega)]; omega
  · show q.val = win1_5.index t (1 : Fin 2) * 64 + 1 * q.val
    rw [e51]; omega

/-- What point `t` writes back to the first result array is block `t` of the pre-activation array. -/
theorem flushed_pre (c : Dev nD) (t : Fin cfg1.N) :
    (dat1 V c).flushed 5 t = ((cfg1.win 5).blk t).view.read (Elt Ideal) (preArr V c) := by
  show (cfg1.win 5).cut (grid1.coords t) ((dat1 V c).after 5 t) = _
  rw [after1_5, outs_pre V c t]
  exact funext fun j => pre_blk_arr V c t j

/-- A node and column lie in the block of point `t` when the node is among rows `10000 · t … 10000 · t + 9999`. -/
theorem mem_blk_pre (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v21_0).slice (win1_5.rect t)).set ↔ _
  rw [View.set_slice_whole, Rect.mem_set_unit]
  exact Iff.rfl

/-- Node `r` is written by point `r / 10000`. -/
theorem cover_pre (i : S100000x64.Idx) :
    ∃ t : Fin cfg1.N, (cfg1.win 5).flush t = true ∧ i ∈ ((cfg1.win 5).blk t).view.set := by
  have hi0 : (i 0).val < 100000 := idx2_lt0 (n0 := 100000) (n1 := 64) i
  have hi1 : (i 1).val < 64 := idx2_lt1 (n0 := 100000) (n1 := 64) i
  have hN : cfg1.N = 10 := N_1
  obtain ⟨t, ht⟩ : ∃ t : Fin cfg1.N, t.val = (i 0).val / 10000 := ⟨⟨(i 0).val / 10000, by rw [hN]; omega⟩, rfl⟩
  obtain ⟨e00, e01, e10, e11, e20, e21, e30, e31, e40, e41, e50, e51, e60, e61, e70, e71⟩ := idx_facts t
  refine ⟨t, flush1_5 t, ?_⟩
  rw [mem_blk_pre]
  intro a
  match a with
  | ⟨0, _⟩ =>
    show win1_5.index t (0 : Fin 2) * 10000 ≤ (i 0).val ∧ (i 0).val < win1_5.index t (0 : Fin 2) * 10000 + 10000
    rw [e50]; omega
  | ⟨1, _⟩ =>
    show win1_5.index t (1 : Fin 2) * 64 ≤ (i 1).val ∧ (i 1).val < win1_5.index t (1 : Fin 2) * 64 + 64
    rw [e51]; omega

/-- The first result array ends holding the pre-activation array. -/
theorem final_pre (c : Dev nD) : (dat1 V c).arrAt 5 cfg1.N = preArr V c :=
  (dat1 V c).arrAt_eq_of_cover 5 (preArr V c) (fun t _ => flushed_pre V c t) cover_pre

/-! ## The two accumulator rows -/

/-- What the first accumulator holds after the last point. -/
abbrev lastSum (c : Dev nD) : Buf (Elt Ideal) ((c : Thread nD τ).loc main_v21_1) :=
  (outsAt1 V c 9 (by rw [show cfg1.N = 10 from N_1]; decide)).2.1

/-- What the second accumulator holds after the last point. -/
abbrev lastSumsq (c : Dev nD) : Buf (Elt Ideal) ((c : Thread nD τ).loc main_v21_2) :=
  (outsAt1 V c 9 (by rw [show cfg1.N = 10 from N_1]; decide)).2.2

/-- The one write-back of the first accumulator, after the last point, writes the whole row. -/
theorem flushed_sum (c : Dev nD) (t : Fin cfg1.N) (hf : (cfg1.win 6).flush t = true) :
    (dat1 V c).flushed 6 t = ((cfg1.win 6).blk t).view.read (Elt Ideal) (lastSum V c) := by
  have hN : cfg1.N = 10 := N_1
  have h9 : t.val = 9 := by have := (flush1_6 t).mp hf; have := t.isLt; omega
  obtain rfl : t = t1_9 := Fin.ext h9
  show (cfg1.win 6).cut (grid1.coords t1_9) ((dat1 V c).after 6 t1_9) = _
  rw [after1_6]
  have hz' : (fun a => win1_6.index t1_9 a * main_v21_1.ty.shape.size a) = fun _ => 0 :=
    funext fun a => by fin_cases a <;> decide
  exact (Memref.read_access_unit_zero (Elt Ideal) main_v21_1 hz' (fun a => by rw [congrFun hz' a]; simp) (lastSum V c)).symm

/-- The one write-back of the second accumulator, after the last point, writes the whole row. -/
theorem flushed_sumsq (c : Dev nD) (t : Fin cfg1.N) (hf : (cfg1.win 7).flush t = true) :
    (dat1 V c).flushed 7 t = ((cfg1.win 7).blk t).view.read (Elt Ideal) (lastSumsq V c) := by
  have hN : cfg1.N = 10 := N_1
  have h9 : t.val = 9 := by have := (flush1_7 t).mp hf; have := t.isLt; omega
  obtain rfl : t = t1_9 := Fin.ext h9
  show (cfg1.win 7).cut (grid1.coords t1_9) ((dat1 V c).after 7 t1_9) = _
  rw [after1_7]
  have hz' : (fun a => win1_7.index t1_9 a * main_v21_2.ty.shape.size a) = fun _ => 0 :=
    funext fun a => by fin_cases a <;> decide
  exact (Memref.read_access_unit_zero (Elt Ideal) main_v21_2 hz' (fun a => by rw [congrFun hz' a]; simp) (lastSumsq V c)).symm

/-- The first accumulator's array ends holding what the accumulator held after the last point. -/
theorem final_sum (c : Dev nD) : (dat1 V c).arrAt 6 cfg1.N = lastSum V c :=
  (dat1 V c).arrAt_eq_of_cover 6 (lastSum V c) (flushed_sum V c) fun i =>
    ⟨t1_9, (flush1_6 t1_9).mpr rfl, by
      show i ∈ ((View.whole main_v21_1).slice (win1_6.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_6.index t1_9 0 * win1_6.size 0 ≤ (i 0 : Nat)
          ∧ (i 0 : Nat) < win1_6.index t1_9 0 * win1_6.size 0 + win1_6.xsize (grid1.coords t1_9) 0
        rw [show win1_6.index t1_9 0 * win1_6.size 0 = 0 from by decide +kernel,
          show win1_6.xsize (grid1.coords t1_9) 0 = 1 from by decide +kernel]; omega
      | ⟨1, _⟩ =>
        show win1_6.index t1_9 1 * win1_6.size 1 ≤ (i 1 : Nat)
          ∧ (i 1 : Nat) < win1_6.index t1_9 1 * win1_6.size 1 + win1_6.xsize (grid1.coords t1_9) 1
        rw [show win1_6.index t1_9 1 * win1_6.size 1 = 0 from by decide +kernel,
          show win1_6.xsize (grid1.coords t1_9) 1 = 64 from by decide +kernel]; omega⟩

/-- The second accumulator's array ends holding what the accumulator held after the last point. -/
theorem final_sumsq (c : Dev nD) : (dat1 V c).arrAt 7 cfg1.N = lastSumsq V c :=
  (dat1 V c).arrAt_eq_of_cover 7 (lastSumsq V c) (flushed_sumsq V c) fun i =>
    ⟨t1_9, (flush1_7 t1_9).mpr rfl, by
      show i ∈ ((View.whole main_v21_2).slice (win1_7.rect t1_9)).set
      rw [View.set_slice_whole, Rect.mem_set_unit]
      intro a
      have h0 : (i 0 : Nat) < 1 := (i 0).isLt
      have h1 : (i 1 : Nat) < 64 := (i 1).isLt
      match a with
      | ⟨0, _⟩ =>
        show win1_7.index t1_9 0 * win1_7.size 0 ≤ (i 0 : Nat)
          ∧ (i 0 : Nat) < win1_7.index t1_9 0 * win1_7.size 0 + win1_7.xsize (grid1.coords t1_9) 0
        rw [show win1_7.index t1_9 0 * win1_7.size 0 = 0 from by decide +kernel,
          show win1_7.xsize (grid1.coords t1_9) 0 = 1 from by decide +kernel]; omega
      | ⟨1, _⟩ =>
        show win1_7.index t1_9 1 * win1_7.size 1 ≤ (i 1 : Nat)
          ∧ (i 1 : Nat) < win1_7.index t1_9 1 * win1_7.size 1 + win1_7.xsize (grid1.coords t1_9) 1
        rw [show win1_7.index t1_9 1 * win1_7.size 1 = 0 from by decide +kernel,
          show win1_7.xsize (grid1.coords t1_9) 1 = 64 from by decide +kernel]; omega⟩

/-! ## The three result arrays -/

/-- The first result array holds the layer's pre-activation. -/
theorem region1_h (c : Dev nD) (r : Fin 100000) (q : Fin 64) :
    (dat1 V c).arrAt 5 cfg1.N (ix2 r q) = preOf (V c (Pipeline.arrRef spec1 0)) (V c (Pipeline.arrRef spec1 4)) (V c (Pipeline.arrRef spec1 1)) (V c (Pipeline.arrRef spec1 2)) (V c (Pipeline.arrRef spec1 3)) r q :=
  congrFun (final_pre V c) (ix2 r q)

/-- The second result array holds the column sums of the pre-activation over all nodes. -/
theorem region1_sum (c : Dev nD) (q : Fin 64) :
    (dat1 V c).arrAt 6 cfg1.N (ix2 0 q) = ∑ r : Fin 100000, preOf (V c (Pipeline.arrRef spec1 0)) (V c (Pipeline.arrRef spec1 4)) (V c (Pipeline.arrRef spec1 1)) (V c (Pipeline.arrRef spec1 2)) (V c (Pipeline.arrRef spec1 3)) r q := by
  refine (congrFun (final_sum V c) (ix2 0 q)).trans ?_
  refine (outs_sum V c q 9 _).trans ?_
  exact blocks_sum (fun r => pre V c r q)

/-- The third result array holds the column sums of the squared pre-activation over all nodes. -/
theorem region1_sumsq (c : Dev nD) (q : Fin 64) :
    (dat1 V c).arrAt 7 cfg1.N (ix2 0 q)
      = ∑ r : Fin 100000, preOf (V c (Pipeline.arrRef spec1 0)) (V c (Pipeline.arrRef spec1 4)) (V c (Pipeline.arrRef spec1 1)) (V c (Pipeline.arrRef spec1 2)) (V c (Pipeline.arrRef spec1 3)) r q * preOf (V c (Pipeline.arrRef spec1 0)) (V c (Pipeline.arrRef spec1 4)) (V c (Pipeline.arrRef spec1 1)) (V c (Pipeline.arrRef spec1 2)) (V c (Pipeline.arrRef spec1 3)) r q := by
  refine (congrFun (final_sumsq V c) (ix2 0 q)).trans ?_
  refine (outs_sumsq V c q 9 _).trans ?_
  exact blocks_sum (fun r => pre V c r q * pre V c r q)

/-! ## The same, with the given arrays named -/

/-- The first result array, entry by entry, when the five given arrays are the neighbour sums `ag`, the features `x`,
    the weights `wr`, the bias row `bias` and the reciprocal degrees `dv`. -/
theorem region1_h_of (c : Dev nD) (ag : S100000x64.Idx → EReal) (x : S100000x100.Idx → EReal) (wr : S100x64.Idx → EReal)
    (bias : S1x64.Idx → EReal) (dv : S100000x1.Idx → EReal) (h0 : V c (Pipeline.arrRef spec1 0) = ag)
    (h1 : V c (Pipeline.arrRef spec1 1) = x) (h2 : V c (Pipeline.arrRef spec1 2) = wr)
    (h3 : V c (Pipeline.arrRef spec1 3) = bias) (h4 : V c (Pipeline.arrRef spec1 4) = dv) (r : Fin 100000) (q : Fin 64) :
    (dat1 V c).arrAt 5 cfg1.N (ix2 r q)
      = ag (ix2 r q) * dv (ix2 r 0) + (∑ t : Fin 100, x (ix2 r t) * wr (ix2 t q)) + bias (ix2 0 q) := by
  subst h0 h1 h2 h3 h4
  exact region1_h V c r q

/-- The second result array, entry by entry, for the same five given arrays. -/
theorem region1_sum_of (c : Dev nD) (ag : S100000x64.Idx → EReal) (x : S100000x100.Idx → EReal) (wr : S100x64.Idx → EReal)
    (bias : S1x64.Idx → EReal) (dv : S100000x1.Idx → EReal) (h0 : V c (Pipeline.arrRef spec1 0) = ag)
    (h1 : V c (Pipeline.arrRef spec1 1) = x) (h2 : V c (Pipeline.arrRef spec1 2) = wr)
    (h3 : V c (Pipeline.arrRef spec1 3) = bias) (h4 : V c (Pipeline.arrRef spec1 4) = dv) (q : Fin 64) :
    (dat1 V c).arrAt 6 cfg1.N (ix2 0 q)
      = ∑ r : Fin 100000, (ag (ix2 r q) * dv (ix2 r 0) + (∑ t : Fin 100, x (ix2 r t) * wr (ix2 t q)) + bias (ix2 0 q)) := by
  subst h0 h1 h2 h3 h4
  exact region1_sum V c q

/-- The third result array, entry by entry, for the same five given arrays. -/
theorem region1_sumsq_of (c : Dev nD) (ag : S100000x64.Idx → EReal) (x : S100000x100.Idx → EReal) (wr : S100x64.Idx → EReal)
    (bias : S1x64.Idx → EReal) (dv : S100000x1.Idx → EReal) (h0 : V c (Pipeline.arrRef spec1 0) = ag)
    (h1 : V c (Pipeline.arrRef spec1 1) = x) (h2 : V c (Pipeline.arrRef spec1 2) = wr)
    (h3 : V c (Pipeline.arrRef spec1 3) = bias) (h4 : V c (Pipeline.arrRef spec1 4) = dv) (q : Fin 64) :
    (dat1 V c).arrAt 7 cfg1.N (ix2 0 q)
      = ∑ r : Fin 100000, (ag (ix2 r q) * dv (ix2 r 0) + (∑ t : Fin 100, x (ix2 r t) * wr (ix2 t q)) + bias (ix2 0 q)) * (ag (ix2 r q) * dv (ix2 r 0) + (∑ t : Fin 100, x (ix2 r t) * wr (ix2 t q)) + bias (ix2 0 q)) := by
  subst h0 h1 h2 h3 h4
  exact region1_sumsq V c q

end Cert.KernelIdeal.StatsRegion1

end
-- ==== Proof.RegionsABlk3.lean ====
/-
  The row blocks a layer's combine-and-statistics step reads, as parts of the arrays it is given.

  The `100000` nodes are worked through in ten blocks of `10000`: row `p` of block `k` is node `10000 · k + p`. The
  neighbour sums, the nodes' own features (width `64`) and the reciprocal degrees are read one row block per point;
  the weight matrix and the bias row are read whole at every point. From them the layer's pre-activation at node
  `r` and column `q` is the neighbour sum scaled by the reciprocal degree, plus the features times the weights, plus
  the bias. A sum over all nodes splits into the ten blocks' sums.
-/
import proofs.«159197_j5257039970572_2_alg».proof.Proof.Gen.KernelIdeal.Frame
import proofs.«159197_j5257039970572_2_alg».proof.Proof.LibERealSums
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.StatsRegion3

open Cert.KernelIdeal Cert.KernelIdeal.Gen

variable (V : (c : Dev nD) → (b : Ref sig .tc) → Buf (Elt Ideal) ((c : Thread nD τ).loc b))

/-! ## Rows of blocks, and the pre-activation -/

/-- The node under row `p` of block `k`. -/
def row (k : ℕ) (p : Fin 10000) : Fin 100000 := ⟨(10000 * k + p.val) % 100000, Nat.mod_lt _ (by decide)⟩

theorem row_val (k : ℕ) (hk : k < 10) (p : Fin 10000) : (row k p).val = 10000 * k + p.val :=
  Nat.mod_eq_of_lt (by have := p.isLt; omega)

/-- A layer's pre-activation at node `r` and column `q`, from the neighbour sums `a`, the reciprocal degrees `d`, the
    nodes' own features `x`, the weights `w` and the bias row `b`. -/
def preOf (a : S100000x64.Idx → EReal) (d : S100000x1.Idx → EReal) (x : S100000x64.Idx → EReal) (w : S64x64.Idx → EReal)
    (b : S1x64.Idx → EReal) (r : Fin 100000) (q : Fin 64) : EReal :=
  a (ix2 r q) * d (ix2 r 0) + (∑ t : Fin 64, x (ix2 r t) * w (ix2 t q)) + b (ix2 0 q)

/-- The layer's pre-activation at node `r` and column `q`, from the arrays the step is given. -/
def pre (c : Dev nD) (r : Fin 100000) (q : Fin 64) : EReal :=
  preOf (V c (Pipeline.arrRef spec3 0)) (V c (Pipeline.arrRef spec3 4)) (V c (Pipeline.arrRef spec3 1)) (V c (Pipeline.arrRef spec3 2)) (V c (Pipeline.arrRef spec3 3)) r q

/-- The ten blocks' column sums add up to the column sum over all nodes. -/
theorem blocks_sum (f : Fin 100000 → EReal) :
    ∑ k ∈ Finset.range (9 + 1), ∑ p : Fin 10000, f (row k p) = ∑ r : Fin 100000, f r := by
  rw [Finset.sum_range (fun k => ∑ p : Fin 10000, f (row k p))]
  exact (Cert.LibERealSums.sum_fin_blocks (m := 10) (n := 10000) (N := 100000) rfl (fun k p => row k.val p)
    (fun k p => row_val k.val k.isLt p) f).symm

/-! ## The blocks a point reads -/

/-- The block index of each window at each point: a row-blocked window is at block `t` of its rows, a window held
    whole at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- The neighbour-sum block of point `t` holds the rows `10000 · t + p` of the array. -/
theorem blk0_apply (c : Dev nD) (t : Fin cfg3.N) (p : Fin 10000) (q : Fin 64) :
    (iblk3 V c 0 t : Vec Ideal S10000x64 .f32) (ix2 p q) = (V c (Pipeline.arrRef spec3 0) : S100000x64.Idx → EReal) (ix2 (row t.val p) q) := by
  have hN : t.val < 10 := lt_of_lt_of_eq t.isLt (show cfg3.N = 10 from N_3)
  obtain ⟨e00, e01, e10, e11, e20, e21, e30, e31, e40, e41, e50, e51, e60, e61, e70, e71⟩ := idx_facts t
  show (V c (Pipeline.arrRef spec3 0) : S100000x64.Idx → EReal) (((cfg3.win 0).blk t).view.emb (ix2 p q)) = _
  refine congrArg (V c (Pipeline.arrRef spec3 0) : S100000x64.Idx → EReal) (funext fun a => Fin.ext ?_)
  match a with
  | ⟨0, _⟩ =>
    show win3_0.index t (0 : Fin 2) * 10000 + 1 * p.val = (10000 * t.val + p.val) % 100000
    rw [e00, Nat.mod_eq_of_lt (by have := p.isLt; omega)]; omega
  | ⟨1, _⟩ => show win3_0.index t (1 : Fin 2) * 64 + 1 * q.val = q.val; rw [e01]; omega

/-- The feature block of point `t` holds the rows `10000 · t + p` of the array. -/
theorem blk1_apply (c : Dev nD) (t : Fin cfg3.N) (p : Fin 10000) (s : Fin 64) :
    (iblk3 V c 1 t : Vec Ideal S10000x64 .f32) (ix2 p s) = (V c (Pipeline.arrRef spec3 1) : S100000x64.Idx → EReal) (ix2 (row t.val p) s) := by
  have hN : t.val < 10 := lt_of_lt_of_eq t.isLt (show cfg3.N = 10 from N_3)
  obtain ⟨e00, e01, e10, e11, e20, e21, e30, e31, e40, e41, e50, e51, e60, e61, e70, e71⟩ := idx_facts t
  show (V c (Pipeline.arrRef spec3 1) : S100000x64.Idx → EReal) (((cfg3.win 1).blk t).view.emb (ix2 p s)) = _
  refine congrArg (V c (Pipeline.arrRef spec3 1) : S100000x64.Idx → EReal) (funext fun a => Fin.ext ?_)
  match a with
  | ⟨0, _⟩ =>
    show win3_1.index t (0 : Fin 2) * 10000 + 1 * p.val = (10000 * t.val + p.val) % 100000
    rw [e10, Nat.mod_eq_of_lt (by have := p.isLt; omega)]; omega
  | ⟨1, _⟩ => show win3_1.index t (1 : Fin 2) * 64 + 1 * s.val = s.val; rw [e11]; omega

/-- The weight matrix is read whole at every point. -/
theorem blk2_apply (c : Dev nD) (t : Fin cfg3.N) (s : Fin 64) (q : Fin 64) :
    (iblk3 V c 2 t : Vec Ideal S64x64 .f32) (ix2 s q) = (V c (Pipeline.arrRef spec3 2) : S64x64.Idx → EReal) (ix2 s q) := by
  obtain ⟨e00, e01, e10, e11, e20, e21, e30, e31, e40, e41, e50, e51, e60, e61, e70, e71⟩ := idx_facts t
  show (V c (Pipeline.arrRef spec3 2) : S64x64.Idx → EReal) (((cfg3.win 2).blk t).view.emb (ix2 s q)) = _
  refine congrArg (V c (Pipeline.arrRef spec3 2) : S64x64.Idx → EReal) (funext fun a => Fin.ext ?_)
  match a with
  | ⟨0, _⟩ => show win3_2.index t (0 : Fin 2) * 64 + 1 * s.val = s.val; rw [e20]; omega
  | ⟨1, _⟩ => show win3_2.index t (1 : Fin 2) * 64 + 1 * q.val = q.val; rw [e21]; omega

/-- The bias row is read whole at every point. -/
theorem blk3_apply (c : Dev nD) (t : Fin cfg3.N) (u : Fin 1) (q : Fin 64) :
    (iblk3 V c 3 t : Vec Ideal S1x64 .f32) (ix2 u q) = (V c (Pipeline.arrRef spec3 3) : S1x64.Idx → EReal) (ix2 u q) := by
  obtain ⟨e00, e01, e10, e11, e20, e21, e30, e31, e40, e41, e50, e51, e60, e61, e70, e71⟩ := idx_facts t
  show (V c (Pipeline.arrRef spec3 3) : S1x64.Idx → EReal) (((cfg3.win 3).blk t).view.emb (ix2 u q)) = _
  refine congrArg (V c (Pipeline.arrRef spec3 3) : S1x64.Idx → EReal) (funext fun a => Fin.ext ?_)
  match a with
  | ⟨0, _⟩ => show win3_3.index t (0 : Fin 2) * 1 + 1 * u.val = u.val; rw [e30]; omega
  | ⟨1, _⟩ => show win3_3.index t (1 : Fin 2) * 64 + 1 * q.val = q.val; rw [e31]; omega

/-- The reciprocal-degree block of point `t` holds the rows `10000 · t + p` of the column. -/
theorem blk4_apply (c : Dev nD) (t : Fin cfg3.N) (p : Fin 10000) (u : Fin 1) :
    (iblk3 V c 4 t : Vec Ideal S10000x1 .f32) (ix2 p u) = (V c (Pipeline.arrRef spec3 4) : S100000x1.Idx → EReal) (ix2 (row t.val p) u) := by
  have hN : t.val < 10 := lt_of_lt_of_eq t.isLt (show cfg3.N = 10 from N_3)
  obtain ⟨e00, e01, e10, e11, e20, e21, e30, e31, e40, e41, e50, e51, e60, e61, e70, e71⟩ := idx_facts t
  show (V c (Pipeline.arrRef spec3 4) : S100000x1.Idx → EReal) (((cfg3.win 4).blk t).view.emb (ix2 p u)) = _
  refine congrArg (V c (Pipeline.arrRef spec3 4) : S100000x1.Idx → EReal) (funext fun a => Fin.ext ?_)
  match a with
  | ⟨0, _⟩ =>
    show win3_4.index t (0 : Fin 2) * 10000 + 1 * p.val = (10000 * t.val + p.val) % 100000
    rw [e40, Nat.mod_eq_of_lt (by have := p.isLt; omega)]; omega
  | ⟨1, _⟩ => show win3_4.index t (1 : Fin 2) * 1 + 1 * u.val = u.val; rw [e41]; omega

end Cert.KernelIdeal.StatsRegion3

end
-- ==== Proof.RegionsAPay3.lean ====
/-
  The arithmetic of one row block of a layer's combine-and-statistics step, read entry by entry over the
  extended reals.

  For a block of `10000` rows the step forms, at row `p` and column `q`, the pre-activation
  `a (p, q) · d (p, 0) + Σ_t x (p, t) · w (t, q) + b (0, q)`: the block of neighbour sums scaled by the reciprocal
  degree of the row, plus the block of the rows' own features (width `64`) times the weight matrix, plus the bias
  row. The two running accumulators are a row of `64` entries each; the step adds to them, column by column, the
  sum over the block's rows of the pre-activation and of its square. The accumulators start from the zero row.
-/
import proofs.«159197_j5257039970572_2_alg».proof.Proof.Gen.KernelIdeal.Skeleton
import proofs.«159197_j5257039970572_2_alg».proof.Proof.LibRows
import proofs.«159197_j5257039970572_2_alg».proof.Proof.LibMatrixReduce
import proofs.«159197_j5257039970572_2_alg».proof.Proof.LibPlainMatmul
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.StatsRegion3

open Cert.KernelIdeal Cert.KernelIdeal.Gen

/-- The pre-activation of a row block at row `p` and column `q`: scaled neighbour sum, plus the row's own
    features times the weights, plus the bias. -/
theorem pre_apply (a : Vec Ideal S10000x64 .f32) (d : Vec Ideal S10000x1 .f32) (x : Vec Ideal S10000x64 .f32)
    (w : Vec Ideal S64x64 .f32) (b : Vec Ideal S1x64 .f32) (p : Fin 10000) (q : Fin 64) :
    k3_pay1 a d x w b (ix2 p q)
      = a (ix2 p q) * d (ix2 p 0) + (∑ t : Fin 64, x (ix2 p t) * w (ix2 t q)) + b (ix2 0 q) := by
  unfold k3_pay1
  simp only [shapeCast_self]
  rw [addf_apply, addf_apply, mulf_apply]
  refine congrArg₂ (· + ·) (congrArg₂ (· + ·) (congrArg₂ (· * ·) rfl ?_) ?_) ?_
  · exact Cert.Rows.bcast_col (m := 10000) (n := 64) (by decide) d broadcasts_S10000x1_S10000x64 p q
  · exact Cert.LibPlainMatmul.matmul_zero_apply dot_S10000x64_S64x64_S10000x64_1_0_0_1_n_n rfl rfl rfl rfl rfl rfl none x w p q
  · exact Cert.Rows.bcast_row (m := 10000) (n := 64) (by decide) b broadcasts_S1x64_S10000x64 p q

/-- The first accumulator after a block: its entry at column `q` grows by the sum of the block's pre-activations
    in that column. -/
theorem sum_apply (a : Vec Ideal S10000x64 .f32) (d : Vec Ideal S10000x1 .f32) (x : Vec Ideal S10000x64 .f32)
    (w : Vec Ideal S64x64 .f32) (b : Vec Ideal S1x64 .f32) (acc : Vec Ideal S1x64 .f32) (q : Fin 64) :
    k3_pay4 a d x w b acc (ix2 0 q) = acc (ix2 0 q) + ∑ p : Fin 10000, k3_pay1 a d x w b (ix2 p q) := by
  unfold k3_pay4
  rw [addf_apply]
  refine congrArg₂ (· + ·) (congrFun (shapeCast_self acc shapeCasts_S1x64_S1x64) (ix2 0 q)) ?_
  refine (shapeCast_a_1a_apply _ shapeCasts_S64_S1x64 0 q).trans ?_
  exact Cert.LibMatrixReduce.colSum_apply (m := 10000) (n := 64) (k3_pay1 a d x w b) 0x00000000#32 reduces_S10000x64_S64
    (.inl rfl) rfl q

/-- The second accumulator after a block: its entry at column `q` grows by the sum of the squares of the block's
    pre-activations in that column. -/
theorem sumsq_apply (a : Vec Ideal S10000x64 .f32) (d : Vec Ideal S10000x1 .f32) (x : Vec Ideal S10000x64 .f32)
    (w : Vec Ideal S64x64 .f32) (b : Vec Ideal S1x64 .f32) (acc : Vec Ideal S1x64 .f32) (q : Fin 64) :
    k3_pay5 a d x w b acc (ix2 0 q)
      = acc (ix2 0 q) + ∑ p : Fin 10000, k3_pay1 a d x w b (ix2 p q) * k3_pay1 a d x w b (ix2 p q) := by
  unfold k3_pay5
  rw [addf_apply]
  refine congrArg₂ (· + ·) (congrFun (shapeCast_self acc shapeCasts_S1x64_S1x64) (ix2 0 q)) ?_
  refine (shapeCast_a_1a_apply _ shapeCasts_S64_S1x64 0 q).trans ?_
  exact Cert.LibMatrixReduce.colSum_apply (m := 10000) (n := 64)
    (mulf (k3_pay1 a d x w b) (k3_pay1 a d x w b)) 0x00000000#32 reduces_S10000x64_S64 (.inl rfl) rfl q

/-- The row the first accumulator is reset to holds zero everywhere. -/
theorem zero_sum_apply (j : S1x64.Idx) : (k3_pay2 (F := Ideal)) j = 0 := by
  unfold k3_pay2
  exact Ideal.ofBits_zero_f32

/-- The row the second accumulator is reset to holds zero everywhere. -/
theorem zero_sumsq_apply (j : S1x64.Idx) : (k3_pay3 (F := Ideal)) j = 0 := by
  unfold k3_pay3
  exact Ideal.ofBits_zero_f32

end Cert.KernelIdeal.StatsRegion3

end
-- ==== Proof.RegionsAOut3.lean ====
/-
  What one grid point of a layer's combine-and-statistics step leaves in its three output blocks, as the
  step's arithmetic applied to the blocks it read.

  At every point the first output block is the pre-activation of the point's row block. The two accumulator
  rows are reset at the first point and added to at every point: at the first point they are left at the step's
  update of the zero row, at any later point at the step's update of what the point before left.
-/
import proofs.«159197_j5257039970572_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StatsRegion3

open Cert.KernelIdeal Cert.KernelIdeal.Gen

variable {F : FTy → Type} [FloatOps F]

/-- A block stored or loaded whole starts at the origin. -/
theorem hz : (![0, 0] : Fin 2 → Nat) = fun _ => 0 := funext fun a => by fin_cases a <;> rfl

/-- At a later point the first output block is the pre-activation of the blocks read. -/
theorem later_pre (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond3_0 i)
    (x0 : Vec F S10000x64 .f32) (x1 : Vec F S10000x64 .f32) (x2 : Vec F S64x64 .f32) (x3 : Vec F S1x64 .f32) (x4 : Vec F S10000x1 .f32) (xo6 xo7 : Vec F S1x64 .f32) :
    out3_B_5 c i a1 h1 a2 h2 a3 h3 a4 h4 a5 h5 a6 h6 a7 h7 a8 h8 hc x0 x1 x2 x3 x4 xo6 xo7 = k3_pay1 x0 x4 x1 x2 x3 := by
  unfold out3_B_5
  rw [View.read_writes_eq_canon _ _ _ (cover3_B_5 c i a1 h1 a2 h2 a3 h3 a4 h4 a5 h5 a6 h6 a7 h7 a8 h8 hc x0 x1 x2 x3 x4 xo6 xo7)]
  unfold kernelRun3_B
  dsimp only
  rw [View.canon_unit_zero hz]
  simp only [View.readAt_eq_ld, h1.read_unread, h2.read_unread, h3.read_unread, h4.read_unread, h5.read_unread, View.ld_unit_zero (S := S10000x64) hz, View.ld_unit_zero (S := S10000x64) hz, View.ld_unit_zero (S := S64x64) hz, View.ld_unit_zero (S := S1x64) hz, View.ld_unit_zero (S := S10000x1) hz]

/-- At a later point the first accumulator is the step's update of what it held. -/
theorem later_sum (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond3_0 i)
    (x0 : Vec F S10000x64 .f32) (x1 : Vec F S10000x64 .f32) (x2 : Vec F S64x64 .f32) (x3 : Vec F S1x64 .f32) (x4 : Vec F S10000x1 .f32) (xo6 xo7 : Vec F S1x64 .f32) :
    out3_B_6 c i a1 h1 a2 h2 a3 h3 a4 h4 a5 h5 a6 h6 a7 h7 a8 h8 hc x0 x1 x2 x3 x4 xo6 xo7 = k3_pay4 x0 x4 x1 x2 x3 xo6 := by
  unfold out3_B_6
  rw [View.read_writes_eq_canon _ _ _ (cover3_B_6 c i a1 h1 a2 h2 a3 h3 a4 h4 a5 h5 a6 h6 a7 h7 a8 h8 hc x0 x1 x2 x3 x4 xo6 xo7)]
  unfold kernelRun3_B
  dsimp only
  rw [View.canon_unit_zero hz]
  simp only [View.readAt_eq_ld, h1.read_unread, h2.read_unread, h3.read_unread, h4.read_unread, h5.read_unread, h7.read_unread, View.ld_unit_zero (S := S10000x64) hz, View.ld_unit_zero (S := S10000x64) hz, View.ld_unit_zero (S := S64x64) hz, View.ld_unit_zero (S := S1x64) hz, View.ld_unit_zero (S := S10000x1) hz]

/-- At a later point the second accumulator is the step's update of what it held. -/
theorem later_sumsq (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : ¬cond3_0 i)
    (x0 : Vec F S10000x64 .f32) (x1 : Vec F S10000x64 .f32) (x2 : Vec F S64x64 .f32) (x3 : Vec F S1x64 .f32) (x4 : Vec F S10000x1 .f32) (xo6 xo7 : Vec F S1x64 .f32) :
    out3_B_7 c i a1 h1 a2 h2 a3 h3 a4 h4 a5 h5 a6 h6 a7 h7 a8 h8 hc x0 x1 x2 x3 x4 xo6 xo7 = k3_pay5 x0 x4 x1 x2 x3 xo7 := by
  unfold out3_B_7
  rw [View.read_writes_eq_canon _ _ _ (cover3_B_7 c i a1 h1 a2 h2 a3 h3 a4 h4 a5 h5 a6 h6 a7 h7 a8 h8 hc x0 x1 x2 x3 x4 xo6 xo7)]
  unfold kernelRun3_B
  dsimp only
  sl_unfold_words
  rw [View.canon_unit_zero hz]
  simp only [View.readAt_eq_ld, h1.read_unread, h2.read_unread, h3.read_unread, h4.read_unread, h5.read_unread, h8.read_unread, View.ld_unit_zero (S := S10000x64) hz, View.ld_unit_zero (S := S10000x64) hz, View.ld_unit_zero (S := S64x64) hz, View.ld_unit_zero (S := S1x64) hz, View.ld_unit_zero (S := S10000x1) hz]

/-- At the first point the first output block is the pre-activation of the blocks read. -/
theorem first_pre (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond3_0 i)
    (x0 : Vec F S10000x64 .f32) (x1 : Vec F S10000x64 .f32) (x2 : Vec F S64x64 .f32) (x3 : Vec F S1x64 .f32) (x4 : Vec F S10000x1 .f32) :
    out3_A_5 c i a1 h1 a2 h2 a3 h3 a4 h4 a5 h5 a6 h6 a7 h7 a8 h8 hc x0 x1 x2 x3 x4 = k3_pay1 x0 x4 x1 x2 x3 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  rw [View.canon_unit_zero hz]
  simp only [View.readAt_eq_ld, h1.read_unread, h2.read_unread, h3.read_unread, h4.read_unread, h5.read_unread, View.ld_unit_zero (S := S10000x64) hz, View.ld_unit_zero (S := S10000x64) hz, View.ld_unit_zero (S := S64x64) hz, View.ld_unit_zero (S := S1x64) hz, View.ld_unit_zero (S := S10000x1) hz]

/-- At the first point the first accumulator is the step's update of the zero row it was just reset to. -/
theorem first_sum (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond3_0 i)
    (x0 : Vec F S10000x64 .f32) (x1 : Vec F S10000x64 .f32) (x2 : Vec F S64x64 .f32) (x3 : Vec F S1x64 .f32) (x4 : Vec F S10000x1 .f32) :
    out3_A_6 c i a1 h1 a2 h2 a3 h3 a4 h4 a5 h5 a6 h6 a7 h7 a8 h8 hc x0 x1 x2 x3 x4 = k3_pay4 x0 x4 x1 x2 x3 k3_pay2 := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S10000x64) hz, View.ld_unit_zero (S := S10000x64) hz, View.ld_unit_zero (S := S64x64) hz, View.ld_unit_zero (S := S1x64) hz, View.ld_unit_zero (S := S10000x1) hz]

/-- At the first point the second accumulator is the step's update of the zero row it was just reset to. -/
theorem first_sumsq (c : Dev nD) (i : grid3.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x1 .f32) (h5 : a5.IsWhole) (a6 : Memref sig .tc .vmem S10000x64 .f32) (h6 : a6.IsWhole) (a7 : Memref sig .tc .vmem S1x64 .f32) (h7 : a7.IsWhole) (a8 : Memref sig .tc .vmem S1x64 .f32) (h8 : a8.IsWhole) (hc : cond3_0 i)
    (x0 : Vec F S10000x64 .f32) (x1 : Vec F S10000x64 .f32) (x2 : Vec F S64x64 .f32) (x3 : Vec F S1x64 .f32) (x4 : Vec F S10000x1 .f32) :
    out3_A_7 c i a1 h1 a2 h2 a3 h3 a4 h4 a5 h5 a6 h6 a7 h7 a8 h8 hc x0 x1 x2 x3 x4 = k3_pay5 x0 x4 x1 x2 x3 k3_pay3 := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, View.ld_unit_zero (S := S10000x64) hz, View.ld_unit_zero (S := S10000x64) hz, View.ld_unit_zero (S := S64x64) hz, View.ld_unit_zero (S := S1x64) hz, View.ld_unit_zero (S := S10000x1) hz]

end Cert.KernelIdeal.StatsRegion3

end
-- ==== Proof.StatsRegion3.lean ====
/-
  A layer's combine-and-statistics step over all `100000` nodes: what its three result arrays hold once the
  ten row blocks of `10000` nodes have been worked through in order.

  Write `h (r, q)` for the layer's pre-activation at node `r` and column `q`. Row `p` of block `k` is node
  `10000 · k + p`, so the first result array, written block by block, is `h` itself. The two accumulator rows are zero
  before the first block and grow, block after block, by the block's column sums of `h` and of `h²`; they are written
  out after the last block only. Addition of extended reals is commutative and associative, so the ten partial sums
  add up to the sums over all nodes.
-/
import proofs.«159197_j5257039970572_2_alg».proof.Proof.RegionsABlk3
import proofs.«159197_j5257039970572_2_alg».proof.Proof.RegionsAPay3
import proofs.«159197_j5257039970572_2_alg».proof.Proof.RegionsAOut3
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)

namespace Cert.KernelIdeal.StatsRegion3

open Cert.KernelIdeal Cert.KernelIdeal.Gen

variable (V : (c : Dev nD) → (b : Ref sig .tc) → Buf (Elt Ideal) ((c : Thread nD τ).loc b))

/-! ## What the three output blocks hold after each point -/

/-- The pre-activation of the block of point `t`, at row `p`: the layer's pre-activation at node `10000 · t + p`. -/
theorem pre_blk (c : Dev nD) (t : Fin cfg3.N) (p : Fin 10000) (q : Fin 64) :
    k3_pay1 (iblk3 V c 0 t) (iblk3 V c 4 t) (iblk3 V c 1 t) (iblk3 V c 2 t) (iblk3 V c 3 t) (ix2 p q) = pre V c (row t.val p) q :=
  (pre_apply (iblk3 V c 0 t) (iblk3 V c 4 t) (iblk3 V c 1 t) (iblk3 V c 2 t) (iblk3 V c 3 t) p q).trans
    (congrArg₂ (· + ·) (congrArg₂ (· + ·) (congrArg₂ (· * ·) (blk0_apply V c t p q) (blk4_apply V c t p 0))
      (Finset.sum_congr rfl fun s _ => congrArg₂ (· * ·) (blk1_apply V c t p s) (blk2_apply V c t s q)))
      (blk3_apply V c t 0 q))

/-- After the first point: the block's pre-activation, and the accumulators' updates of the zero row. -/
theorem outs_first (c : Dev nD) (t : Fin cfg3.N) (h0 : t.val % 10 = 0) :
    outsAt3 V c t.val t.isLt
      = (k3_pay1 (iblk3 V c 0 t) (iblk3 V c 4 t) (iblk3 V c 1 t) (iblk3 V c 2 t) (iblk3 V c 3 t), k3_pay4 (iblk3 V c 0 t) (iblk3 V c 4 t) (iblk3 V c 1 t) (iblk3 V c 2 t) (iblk3 V c 3 t) (k3_pay2 (F := Ideal)), k3_pay5 (iblk3 V c 0 t) (iblk3 V c 4 t) (iblk3 V c 1 t) (iblk3 V c 2 t) (iblk3 V c 3 t) (k3_pay3 (F := Ideal))) :=
  (outsAt3_A V c t h0).trans
    (congrArg₂ Prod.mk (first_pre c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
      (congrArg₂ Prod.mk (first_sum c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
        (first_sumsq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))))

/-- After a later point: the block's pre-activation, and the accumulators' updates of what the point before left. -/
theorem outs_later (c : Dev nD) (t : Fin cfg3.N) (h0 : ¬t.val % 10 = 0) :
    outsAt3 V c t.val t.isLt
      = (k3_pay1 (iblk3 V c 0 t) (iblk3 V c 4 t) (iblk3 V c 1 t) (iblk3 V c 2 t) (iblk3 V c 3 t), k3_pay4 (iblk3 V c 0 t) (iblk3 V c 4 t) (iblk3 V c 1 t) (iblk3 V c 2 t) (iblk3 V c 3 t) (outsAt3 V c (t.val - 1) (Nat.lt_of_le_of_lt (Nat.sub_le _ _) t.isLt)).2.1, k3_pay5 (iblk3 V c 0 t) (iblk3 V c 4 t) (iblk3 V c 1 t) (iblk3 V c 2 t) (iblk3 V c 3 t) (outsAt3 V c (t.val - 1) (Nat.lt_of_le_of_lt (Nat.sub_le _ _) t.isLt)).2.2) :=
  (outsAt3_B V c t h0).trans
    (congrArg₂ Prod.mk (later_pre c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2)
      (congrArg₂ Prod.mk (later_sum c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2)
        (later_sumsq c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2)))

/-- The first output block after any point is the pre-activation of the point's row block. -/
theorem outs_pre (c : Dev nD) (t : Fin cfg3.N) : (outsAt3 V c t.val t.isLt).1 = k3_pay1 (iblk3 V c 0 t) (iblk3 V c 4 t) (iblk3 V c 1 t) (iblk3 V c 2 t) (iblk3 V c 3 t) := by
  by_cases h0 : t.val % 10 = 0
  · exact congrArg Prod.fst (outs_first V c t h0)
  · exact congrArg Prod.fst (outs_later V c t h0)

/-- The first accumulator after point `n`: the column sums of the pre-activation over blocks `0 … n`. -/
theorem outs_sum (c : Dev nD) (q : Fin 64) : ∀ (n : ℕ) (hn : n < cfg3.N),
    (outsAt3 V c n hn).2.1 (ix2 0 q) = ∑ k ∈ Finset.range (n + 1), ∑ p : Fin 10000, pre V c (row k p) q
  | 0, hn => by
    refine (congrFun (congrArg (fun z => z.2.1) (outs_first V c ⟨0, hn⟩ rfl)) (ix2 0 q)).trans ?_
    refine (sum_apply (iblk3 V c 0 ⟨0, hn⟩) (iblk3 V c 4 ⟨0, hn⟩) (iblk3 V c 1 ⟨0, hn⟩) (iblk3 V c 2 ⟨0, hn⟩) (iblk3 V c 3 ⟨0, hn⟩) (k3_pay2 (F := Ideal)) q).trans ?_
    rw [zero_sum_apply, Finset.sum_range_succ, Finset.range_zero, Finset.sum_empty, zero_add, zero_add]
    exact Finset.sum_congr rfl fun p _ => pre_blk V c ⟨0, hn⟩ p q
  | n + 1, hn => by
    have hN : cfg3.N = 10 := N_3
    have hB : ¬(⟨n + 1, hn⟩ : Fin cfg3.N).val % 10 = 0 := by dsimp only; omega
    refine (congrFun (congrArg (fun z => z.2.1) (outs_later V c ⟨n + 1, hn⟩ hB)) (ix2 0 q)).trans ?_
    refine (sum_apply (iblk3 V c 0 ⟨n + 1, hn⟩) (iblk3 V c 4 ⟨n + 1, hn⟩) (iblk3 V c 1 ⟨n + 1, hn⟩) (iblk3 V c 2 ⟨n + 1, hn⟩) (iblk3 V c 3 ⟨n + 1, hn⟩) (outsAt3 V c n (Nat.lt_of_succ_lt hn)).2.1 q).trans ?_
    rw [outs_sum c q n (Nat.lt_of_succ_lt hn), Finset.sum_range_succ _ (n + 1)]
    exact congrArg _ (Finset.sum_congr rfl fun p _ => pre_blk V c ⟨n + 1, hn⟩ p q)

/-- The second accumulator after point `n`: the column sums of the squared pre-activation over blocks `0 … n`. -/
theorem outs_sumsq (c : Dev nD) (q : Fin 64) : ∀ (n : ℕ) (hn : n < cfg3.N),
    (outsAt3 V c n hn).2.2 (ix2 0 q)
      = ∑ k ∈ Finset.range (n + 1), ∑ p : Fin 10000, pre V c (row k p) q * pre V c (row k p) q
  | 0, hn => by
    refine (congrFun (congrArg (fun z => z.2.2) (outs_first V c ⟨0, hn⟩ rfl)) (ix2 0 q)).trans ?_
    refine (sumsq_apply (iblk3 V c 0 ⟨0, hn⟩) (iblk3 V c 4 ⟨0, hn⟩) (iblk3 V c 1 ⟨0, hn⟩) (iblk3 V c 2 ⟨0, hn⟩) (iblk3 V c 3 ⟨0, hn⟩) (k3_pay3 (F := Ideal)) q).trans ?_
    rw [zero_sumsq_apply, Finset.sum_range_succ, Finset.range_zero, Finset.sum_empty, zero_add, zero_add]
    exact Finset.sum_congr rfl fun p _ => congrArg₂ (· * ·) (pre_blk V c ⟨0, hn⟩ p q) (pre_blk V c ⟨0, hn⟩ p q)
  | n + 1, hn => by
    have hN : cfg3.N = 10 := N_3
    have hB : ¬(⟨n + 1, hn⟩ : Fin cfg3.N).val % 10 = 0 := by dsimp only; omega
    refine (congrFun (congrArg (fun z => z.2.2) (outs_later V c ⟨n + 1, hn⟩ hB)) (ix2 0 q)).trans ?_
    refine (sumsq_apply (iblk3 V c 0 ⟨n + 1, hn⟩) (iblk3 V c 4 ⟨n + 1, hn⟩) (iblk3 V c 1 ⟨n + 1, hn⟩) (iblk3 V c 2 ⟨n + 1, hn⟩) (iblk3 V c 3 ⟨n + 1, hn⟩) (outsAt3 V c n (Nat.lt_of_succ_lt hn)).2.2 q).trans ?_
    rw [outs_sumsq c q n (Nat.lt_of_succ_lt hn), Finset.sum_range_succ _ (n + 1)]
    exact congrArg _ (Finset.sum_congr rfl fun p _ =>
      congrArg₂ (· * ·) (pre_blk V c ⟨n + 1, hn⟩ p q) (pre_blk V c ⟨n + 1, hn⟩ p q))

/-! ## The pre-activation array -/

/-- The pre-activation as an array over nodes and columns. -/
def preArr (c : Dev nD) : S100000x64.Idx → EReal :=
  fun i => pre V c ⟨(i 0).val, idx2_lt0 (n0 := 100000) (n1 := 64) i⟩ ⟨(i 1).val, idx2_lt1 (n0 := 100000) (n1 := 64) i⟩

/-- Block `t` of the pre-activation array is the pre-activation of the row block of point `t`. -/
theorem pre_blk_arr (c : Dev nD) (t : Fin cfg3.N) (j : S10000x64.Idx) :
    k3_pay1 (iblk3 V c 0 t) (iblk3 V c 4 t) (iblk3 V c 1 t) (iblk3 V c 2 t) (iblk3 V c 3 t) j = preArr V c (((cfg3.win 5).blk t).view.emb j) := by
  have hN : t.val < 10 := lt_of_lt_of_eq t.isLt (show cfg3.N = 10 from N_3)
  obtain ⟨e00, e01, e10, e11, e20, e21, e30, e31, e40, e41, e50, e51, e60, e61, e70, e71⟩ := idx_facts t
  obtain ⟨p, q, rfl⟩ : ∃ (p : Fin 10000) (q : Fin 64), j = ix2 p q := ⟨j 0, j 1, eq_ix2 j⟩
  refine (pre_blk V c t p q).trans ?_
  unfold preArr
  refine congrArg₂ (pre V c) (Fin.ext ?_) (Fin.ext ?_)
  · show (10000 * t.val + p.val) % 100000 = win3_5.index t (0 : Fin 2) * 10000 + 1 * p.val
    rw [e50, Nat.mod_eq_of_lt (by have := p.isLt; omega)]; omega
  · show q.val = win3_5.index t (1 : Fin 2) * 64 + 1 * q.val
    rw [e51]; omega

/-- What point `t` writes back to the first result array is block `t` of the pre-activation array. -/
theorem flushed_pre (c : Dev nD) (t : Fin cfg3.N) :
    (dat3 V c).flushed 5 t = ((cfg3.win 5).blk t).view.read (Elt Ideal) (preArr V c) := by
  show (cfg3.win 5).cut (grid3.coords t) ((dat3 V c).after 5 t) = _
  rw [after3_5, outs_pre V c t]
  exact funext fun j => pre_blk_arr V c t j

/-- A node and column lie in the block of point `t` when the node is among rows `10000 · t … 10000 · t + 9999`. -/
theorem mem_blk_pre (t : Fin cfg3.N) (i : S100000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v50_0).slice (win3_5.rect t)).set ↔ _
  rw [View.set_slice_whole, Rect.mem_set_unit]
  exact Iff.rfl

/-- Node `r` is written by point `r / 10000`. -/
theorem cover_pre (i : S100000x64.Idx) :
    ∃ t : Fin cfg3.N, (cfg3.win 5).flush t = true ∧ i ∈ ((cfg3.win 5).blk t).view.set := by
  have hi0 : (i 0).val < 100000 := idx2_lt0 (n0 := 100000) (n1 := 64) i
  have hi1 : (i 1).val < 64 := idx2_lt1 (n0 := 100000) (n1 := 64) i
  have hN : cfg3.N = 10 := N_3
  obtain ⟨t, ht⟩ : ∃ t : Fin cfg3.N, t.val = (i 0).val / 10000 := ⟨⟨(i 0).val / 10000, by rw [hN]; omega⟩, rfl⟩
  obtain ⟨e00, e01, e10, e11, e20, e21, e30, e31, e40, e41, e50, e51, e60, e61, e70, e71⟩ := idx_facts t
  refine ⟨t, flush3_5 t, ?_⟩
  rw [mem_blk_pre]
  intro a
  match a with
  | ⟨0, _⟩ =>
    show win3_5.index t (0 : Fin 2) * 10000 ≤ (i 0).val ∧ (i 0).val < win3_5.index t (0 : Fin 2) * 10000 + 10000
    rw [e50]; omega
  | ⟨1, _⟩ =>
    show win3_5.index t (1 : Fin 2) * 64 ≤ (i 1).val ∧ (i 1).val < win3_5.index t (1 : Fin 2) * 64 + 64
    rw [e51]; omega

/-- The first result array ends holding the pre-activation array. -/
theorem final_pre (c : Dev nD) : (dat3 V c).arrAt 5 cfg3.N = preArr V c :=
  (dat3 V c).arrAt_eq_of_cover 5 (preArr V c) (fun t _ => flushed_pre V c t) cover_pre

/-! ## The two accumulator rows -/

/-- What the first accumulator holds after the last point. -/
abbrev lastSum (c : Dev nD) : Buf (Elt Ideal) ((c : Thread nD τ).loc main_v50_1) :=
  (outsAt3 V c 9 (by rw [show cfg3.N = 10 from N_3]; decide)).2.1

/-- What the second accumulator holds after the last point. -/
abbrev lastSumsq (c : Dev nD) : Buf (Elt Ideal) ((c : Thread nD τ).loc main_v50_2) :=
  (outsAt3 V c 9 (by rw [show cfg3.N = 10 from N_3]; decide)).2.2

/-- The one write-back of the first accumulator, after the last point, writes the whole row. -/
theorem flushed_sum (c : Dev nD) (t : Fin cfg3.N) (hf : (cfg3.win 6).flush t = true) :
    (dat3 V c).flushed 6 t = ((cfg3.win 6).blk t).view.read (Elt Ideal) (lastSum V c) := by
  have hN : cfg3.N = 10 := N_3
  have h9 : t.val = 9 := by have := (flush3_6 t).mp hf; have := t.isLt; omega
  obtain rfl : t = t3_9 := Fin.ext h9
  show (cfg3.win 6).cut (grid3.coords t3_9) ((dat3 V c).after 6 t3_9) = _
  rw [after3_6]
  have hz' : (fun a => win3_6.index t3_9 a * main_v50_1.ty.shape.size a) = fun _ => 0 :=
    funext fun a => by fin_cases a <;> decide
  exact (Memref.read_access_unit_zero (Elt Ideal) main_v50_1 hz' (fun a => by rw [congrFun hz' a]; simp) (lastSum V c)).symm

/-- The one write-back of the second accumulator, after the last point, writes the whole row. -/
theorem flushed_sumsq (c : Dev nD) (t : Fin cfg3.N) (hf : (cfg3.win 7).flush t = true) :
    (dat3 V c).flushed 7 t = ((cfg3.win 7).blk t).view.read (Elt Ideal) (lastSumsq V c) := by
  have hN : cfg3.N = 10 := N_3
  have h9 : t.val = 9 := by have := (flush3_7 t).mp hf; have := t.isLt; omega
  obtain rfl : t = t3_9 := Fin.ext h9
  show (cfg3.win 7).cut (grid3.coords t3_9) ((dat3 V c).after 7 t3_9) = _
  rw [after3_7]
  have hz' : (fun a => win3_7.index t3_9 a * main_v50_2.ty.shape.size a) = fun _ => 0 :=
    funext fun a => by fin_cases a <;> decide
  exact (Memref.read_access_unit_zero (Elt Ideal) main_v50_2 hz' (fun a => by rw [congrFun hz' a]; simp) (lastSumsq V c)).symm

/-- The first accumulator's array ends holding what the accumulator held after the last point. -/
theorem final_sum (c : Dev nD) : (dat3 V c).arrAt 6 cfg3.N = lastSum V c :=
  (dat3 V c).arrAt_eq_of_cover 6 (lastSum V c) (flushed_sum V c) fun i =>
    ⟨t3_9, (flush3_6 t3_9).mpr rfl, by
      show i ∈ ((View.whole main_v50_1).slice (win3_6.rect t3_9)).set
      rw [View.set_slice_whole, Rect.mem_set_unit]
      intro a
      have h0 : (i 0 : Nat) < 1 := (i 0).isLt
      have h1 : (i 1 : Nat) < 64 := (i 1).isLt
      match a with
      | ⟨0, _⟩ =>
        show win3_6.index t3_9 0 * win3_6.size 0 ≤ (i 0 : Nat)
          ∧ (i 0 : Nat) < win3_6.index t3_9 0 * win3_6.size 0 + win3_6.xsize (grid3.coords t3_9) 0
        rw [show win3_6.index t3_9 0 * win3_6.size 0 = 0 from by decide +kernel,
          show win3_6.xsize (grid3.coords t3_9) 0 = 1 from by decide +kernel]; omega
      | ⟨1, _⟩ =>
        show win3_6.index t3_9 1 * win3_6.size 1 ≤ (i 1 : Nat)
          ∧ (i 1 : Nat) < win3_6.index t3_9 1 * win3_6.size 1 + win3_6.xsize (grid3.coords t3_9) 1
        rw [show win3_6.index t3_9 1 * win3_6.size 1 = 0 from by decide +kernel,
          show win3_6.xsize (grid3.coords t3_9) 1 = 64 from by decide +kernel]; omega⟩

/-- The second accumulator's array ends holding what the accumulator held after the last point. -/
theorem final_sumsq (c : Dev nD) : (dat3 V c).arrAt 7 cfg3.N = lastSumsq V c :=
  (dat3 V c).arrAt_eq_of_cover 7 (lastSumsq V c) (flushed_sumsq V c) fun i =>
    ⟨t3_9, (flush3_7 t3_9).mpr rfl, by
      show i ∈ ((View.whole main_v50_2).slice (win3_7.rect t3_9)).set
      rw [View.set_slice_whole, Rect.mem_set_unit]
      intro a
      have h0 : (i 0 : Nat) < 1 := (i 0).isLt
      have h1 : (i 1 : Nat) < 64 := (i 1).isLt
      match a with
      | ⟨0, _⟩ =>
        show win3_7.index t3_9 0 * win3_7.size 0 ≤ (i 0 : Nat)
          ∧ (i 0 : Nat) < win3_7.index t3_9 0 * win3_7.size 0 + win3_7.xsize (grid3.coords t3_9) 0
        rw [show win3_7.index t3_9 0 * win3_7.size 0 = 0 from by decide +kernel,
          show win3_7.xsize (grid3.coords t3_9) 0 = 1 from by decide +kernel]; omega
      | ⟨1, _⟩ =>
        show win3_7.index t3_9 1 * win3_7.size 1 ≤ (i 1 : Nat)
          ∧ (i 1 : Nat) < win3_7.index t3_9 1 * win3_7.size 1 + win3_7.xsize (grid3.coords t3_9) 1
        rw [show win3_7.index t3_9 1 * win3_7.size 1 = 0 from by decide +kernel,
          show win3_7.xsize (grid3.coords t3_9) 1 = 64 from by decide +kernel]; omega⟩

/-! ## The three result arrays -/

/-- The first result array holds the layer's pre-activation. -/
theorem region3_h (c : Dev nD) (r : Fin 100000) (q : Fin 64) :
    (dat3 V c).arrAt 5 cfg3.N (ix2 r q) = preOf (V c (Pipeline.arrRef spec3 0)) (V c (Pipeline.arrRef spec3 4)) (V c (Pipeline.arrRef spec3 1)) (V c (Pipeline.arrRef spec3 2)) (V c (Pipeline.arrRef spec3 3)) r q :=
  congrFun (final_pre V c) (ix2 r q)

/-- The second result array holds the column sums of the pre-activation over all nodes. -/
theorem region3_sum (c : Dev nD) (q : Fin 64) :
    (dat3 V c).arrAt 6 cfg3.N (ix2 0 q) = ∑ r : Fin 100000, preOf (V c (Pipeline.arrRef spec3 0)) (V c (Pipeline.arrRef spec3 4)) (V c (Pipeline.arrRef spec3 1)) (V c (Pipeline.arrRef spec3 2)) (V c (Pipeline.arrRef spec3 3)) r q := by
  refine (congrFun (final_sum V c) (ix2 0 q)).trans ?_
  refine (outs_sum V c q 9 _).trans ?_
  exact blocks_sum (fun r => pre V c r q)

/-- The third result array holds the column sums of the squared pre-activation over all nodes. -/
theorem region3_sumsq (c : Dev nD) (q : Fin 64) :
    (dat3 V c).arrAt 7 cfg3.N (ix2 0 q)
      = ∑ r : Fin 100000, preOf (V c (Pipeline.arrRef spec3 0)) (V c (Pipeline.arrRef spec3 4)) (V c (Pipeline.arrRef spec3 1)) (V c (Pipeline.arrRef spec3 2)) (V c (Pipeline.arrRef spec3 3)) r q * preOf (V c (Pipeline.arrRef spec3 0)) (V c (Pipeline.arrRef spec3 4)) (V c (Pipeline.arrRef spec3 1)) (V c (Pipeline.arrRef spec3 2)) (V c (Pipeline.arrRef spec3 3)) r q := by
  refine (congrFun (final_sumsq V c) (ix2 0 q)).trans ?_
  refine (outs_sumsq V c q 9 _).trans ?_
  exact blocks_sum (fun r => pre V c r q * pre V c r q)

/-! ## The same, with the given arrays named -/

/-- The first result array, entry by entry, when the five given arrays are the neighbour sums `ag`, the features `x`,
    the weights `wr`, the bias row `bias` and the reciprocal degrees `dv`. -/
theorem region3_h_of (c : Dev nD) (ag : S100000x64.Idx → EReal) (x : S100000x64.Idx → EReal) (wr : S64x64.Idx → EReal)
    (bias : S1x64.Idx → EReal) (dv : S100000x1.Idx → EReal) (h0 : V c (Pipeline.arrRef spec3 0) = ag)
    (h1 : V c (Pipeline.arrRef spec3 1) = x) (h2 : V c (Pipeline.arrRef spec3 2) = wr)
    (h3 : V c (Pipeline.arrRef spec3 3) = bias) (h4 : V c (Pipeline.arrRef spec3 4) = dv) (r : Fin 100000) (q : Fin 64) :
    (dat3 V c).arrAt 5 cfg3.N (ix2 r q)
      = ag (ix2 r q) * dv (ix2 r 0) + (∑ t : Fin 64, x (ix2 r t) * wr (ix2 t q)) + bias (ix2 0 q) := by
  subst h0 h1 h2 h3 h4
  exact region3_h V c r q

/-- The second result array, entry by entry, for the same five given arrays. -/
theorem region3_sum_of (c : Dev nD) (ag : S100000x64.Idx → EReal) (x : S100000x64.Idx → EReal) (wr : S64x64.Idx → EReal)
    (bias : S1x64.Idx → EReal) (dv : S100000x1.Idx → EReal) (h0 : V c (Pipeline.arrRef spec3 0) = ag)
    (h1 : V c (Pipeline.arrRef spec3 1) = x) (h2 : V c (Pipeline.arrRef spec3 2) = wr)
    (h3 : V c (Pipeline.arrRef spec3 3) = bias) (h4 : V c (Pipeline.arrRef spec3 4) = dv) (q : Fin 64) :
    (dat3 V c).arrAt 6 cfg3.N (ix2 0 q)
      = ∑ r : Fin 100000, (ag (ix2 r q) * dv (ix2 r 0) + (∑ t : Fin 64, x (ix2 r t) * wr (ix2 t q)) + bias (ix2 0 q)) := by
  subst h0 h1 h2 h3 h4
  exact region3_sum V c q

/-- The third result array, entry by entry, for the same five given arrays. -/
theorem region3_sumsq_of (c : Dev nD) (ag : S100000x64.Idx → EReal) (x : S100000x64.Idx → EReal) (wr : S64x64.Idx → EReal)
    (bias : S1x64.Idx → EReal) (dv : S100000x1.Idx → EReal) (h0 : V c (Pipeline.arrRef spec3 0) = ag)
    (h1 : V c (Pipeline.arrRef spec3 1) = x) (h2 : V c (Pipeline.arrRef spec3 2) = wr)
    (h3 : V c (Pipeline.arrRef spec3 3) = bias) (h4 : V c (Pipeline.arrRef spec3 4) = dv) (q : Fin 64) :
    (dat3 V c).arrAt 7 cfg3.N (ix2 0 q)
      = ∑ r : Fin 100000, (ag (ix2 r q) * dv (ix2 r 0) + (∑ t : Fin 64, x (ix2 r t) * wr (ix2 t q)) + bias (ix2 0 q)) * (ag (ix2 r q) * dv (ix2 r 0) + (∑ t : Fin 64, x (ix2 r t) * wr (ix2 t q)) + bias (ix2 0 q)) := by
  subst h0 h1 h2 h3 h4
  exact region3_sumsq V c q

end Cert.KernelIdeal.StatsRegion3

end
-- ==== Proof.NormRegion2.lean ====
/-
  Normalise, rectify and project: what the region leaves in its two output arrays.

  The pre-activations `h` (100000 × 64) are cut into ten blocks of 10000 rows; the per-column scale and shift
  (1 × 64 each) and the next weight (64 × 64) are held whole at every point. At point `t` the body scales and
  shifts block `t` of `h` column by column and cuts the result off below at zero; that block is written back as
  block `t` of the first output (100000 × 64), and its product with the weight, accumulated from zero, as block `t`
  of the second (100000 × 64). Row `r` of either output lies in block `r / 10000`, at row `r % 10000` of it,
  and both are computed from row `r` of `h` alone. So the first output is
  `max (h (r, q) · scale (0, q) + shift (0, q)) 0` entry by entry, and the second is the matrix product of the
  first with the weight.
-/
import proofs.«159197_j5257039970572_2_alg».proof.Proof.Gen.KernelIdeal.Frame
import proofs.«159197_j5257039970572_2_alg».proof.Proof.LibPlainMatmul
import proofs.«159197_j5257039970572_2_alg».proof.Proof.LibRows
import Idealize.ShloMosaic.Lib.Pipeline.Value
import Idealize.ShloMosaic.Lib.ValueIdx

set_option maxRecDepth 16384

noncomputable section

namespace Cert.KernelIdeal.NormRegion2

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

local notation:70 a:70 " ⬝ " b:71 => HMul.hMul (α := EReal) (β := EReal) (γ := EReal) a b
local notation:65 a:65 " ⊹ " b:66 => HAdd.hAdd (α := EReal) (β := EReal) (γ := EReal) a b

/-- The offsets of a whole-buffer access are zero on both axes. -/
theorem zero_offsets : (![0, 0] : Fin 2 → Nat) = fun _ => 0 := funext fun a => by fin_cases a <;> rfl

/-- The block indices at point `t`: the pre-activations and both outputs move down one block of rows per point;
    the scale, the shift and the weight stay at block (0, 0), at each of the ten points. -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The body's first result at an entry of the block: scale, shift, cut off at zero. -/
theorem pay1_apply (x0 : FVec Ideal S10000x64 .f32) (x1 x2 : FVec Ideal S1x64 .f32) (p : Fin 10000) (q : Fin 64) :
    k2_pay1 x0 x1 x2 (ix2 p q)
      = max (x0 (ix2 p q) * x1 (ix2 (0 : Fin 1) q) + x2 (ix2 (0 : Fin 1) q)) (Ideal.ofBits .f32 0x00000000#32) := by
  unfold k2_pay1
  show max (shapeCast S10000x64 x0 shapeCasts_S10000x64_S10000x64 (ix2 p q)
        * broadcastTo S10000x64 (shapeCast S1x64 x1 shapeCasts_S1x64_S1x64) broadcasts_S1x64_S10000x64 (ix2 p q)
        + broadcastTo S10000x64 (shapeCast S1x64 x2 shapeCasts_S1x64_S1x64) broadcasts_S1x64_S10000x64 (ix2 p q))
      (Ideal.ofBits .f32 0x00000000#32) = _
  rw [shapeCast_self, shapeCast_self, shapeCast_self,
    Cert.Rows.bcast_row (by decide) x1 broadcasts_S1x64_S10000x64 p q,
    Cert.Rows.bcast_row (by decide) x2 broadcasts_S1x64_S10000x64 p q]

/-- The body's second result at an entry of the block: the first result's row times the weight's column. -/
theorem pay2_apply (x0 : FVec Ideal S10000x64 .f32) (x1 x2 : FVec Ideal S1x64 .f32) (x3 : FVec Ideal S64x64 .f32)
    (p : Fin 10000) (q : Fin 64) :
    k2_pay2 x0 x1 x2 x3 (ix2 p q)
      = ∑ k : Fin 64, max (x0 (ix2 p k) * x1 (ix2 (0 : Fin 1) k) + x2 (ix2 (0 : Fin 1) k))
          (Ideal.ofBits .f32 0x00000000#32) * x3 (ix2 k q) := by
  unfold k2_pay2
  refine (Cert.LibPlainMatmul.matmul_zero_apply dot_S10000x64_S64x64_S10000x64_1_0_0_1_n_n rfl rfl rfl rfl rfl rfl
    none (k2_pay1 x0 x1 x2) x3 p q).trans ?_
  exact Finset.sum_congr rfl fun k _ => by rw [pay1_apply x0 x1 x2 p k]

/-- Row `p` of block `t` of the pre-activations is row `10000 t + p` of the array. -/
theorem h_block (c : Dev nD) (t : Fin cfg2.N) (p : Fin 10000) (q : Fin 64) (r : Fin 100000)
    (hr : r.val = t.val * 10000 + p.val) :
    (iblk2 V c 0 t : Vec Ideal S10000x64 .f32) (ix2 p q)
      = (V c (Pipeline.arrRef spec2 0) : S100000x64.Idx → EReal) (ix2 r q) := by
  obtain ⟨e0, e1, -⟩ := index_facts t
  unfold iblk2
  rw [View.read_apply]
  refine congrArg (V c (Pipeline.arrRef spec2 0) : S100000x64.Idx → EReal) (funext fun a => Fin.ext ?_)
  match a with
  | ⟨0, _⟩ => show win2_0.index t (0 : Fin 2) * 10000 + 1 * p.val = r.val; omega
  | ⟨1, _⟩ => show win2_0.index t (1 : Fin 2) * 64 + 1 * q.val = q.val; omega

/-- The scale's block at every point is the scale. -/
theorem scale_block (c : Dev nD) (t : Fin cfg2.N) (q : Fin 64) :
    (iblk2 V c 1 t : Vec Ideal S1x64 .f32) (ix2 (0 : Fin 1) q)
      = (V c (Pipeline.arrRef spec2 1) : S1x64.Idx → EReal) (ix2 (0 : Fin 1) q) := by
  obtain ⟨-, -, e2, e3, -⟩ := index_facts t
  unfold iblk2
  rw [View.read_apply]
  refine congrArg (V c (Pipeline.arrRef spec2 1) : S1x64.Idx → EReal) (funext fun a => Fin.ext ?_)
  match a with
  | ⟨0, _⟩ => show win2_1.index t (0 : Fin 2) * 1 + 1 * 0 = 0; omega
  | ⟨1, _⟩ => show win2_1.index t (1 : Fin 2) * 64 + 1 * q.val = q.val; omega

/-- The shift's block at every point is the shift. -/
theorem shift_block (c : Dev nD) (t : Fin cfg2.N) (q : Fin 64) :
    (iblk2 V c 2 t : Vec Ideal S1x64 .f32) (ix2 (0 : Fin 1) q)
      = (V c (Pipeline.arrRef spec2 2) : S1x64.Idx → EReal) (ix2 (0 : Fin 1) q) := by
  obtain ⟨-, -, -, -, e4, e5, -⟩ := index_facts t
  unfold iblk2
  rw [View.read_apply]
  refine congrArg (V c (Pipeline.arrRef spec2 2) : S1x64.Idx → EReal) (funext fun a => Fin.ext ?_)
  match a with
  | ⟨0, _⟩ => show win2_2.index t (0 : Fin 2) * 1 + 1 * 0 = 0; omega
  | ⟨1, _⟩ => show win2_2.index t (1 : Fin 2) * 64 + 1 * q.val = q.val; omega

/-- The weight's block at every point is the weight. -/
theorem weight_block (c : Dev nD) (t : Fin cfg2.N) (k : Fin 64) (q : Fin 64) :
    (iblk2 V c 3 t : Vec Ideal S64x64 .f32) (ix2 k q)
      = (V c (Pipeline.arrRef spec2 3) : S64x64.Idx → EReal) (ix2 k q) := by
  obtain ⟨-, -, -, -, -, -, e6, e7, -⟩ := index_facts t
  unfold iblk2
  rw [View.read_apply]
  refine congrArg (V c (Pipeline.arrRef spec2 3) : S64x64.Idx → EReal) (funext fun a => Fin.ext ?_)
  match a with
  | ⟨0, _⟩ => show win2_3.index t (0 : Fin 2) * 64 + 1 * k.val = k.val; omega
  | ⟨1, _⟩ => show win2_3.index t (1 : Fin 2) * 64 + 1 * q.val = q.val; omega

/-- Scale, shift and cut off at zero, at an entry. -/
def norm (h : S100000x64.Idx → EReal) (s b : S1x64.Idx → EReal) (r : Fin 100000) (q : Fin 64) : EReal :=
  max (h (ix2 r q) * s (ix2 (0 : Fin 1) q) + b (ix2 (0 : Fin 1) q)) (Ideal.ofBits .f32 0x00000000#32)

/-- The normalised row times the weight's column, at an entry. -/
def proj (h : S100000x64.Idx → EReal) (s b : S1x64.Idx → EReal) (w : S64x64.Idx → EReal) (r : Fin 100000)
    (q : Fin 64) : EReal :=
  ∑ t : Fin 64, norm h s b r t * w (ix2 t q)

/-- The same as arrays over the outputs' indices. -/
abbrev normArr (h : S100000x64.Idx → EReal) (s b : S1x64.Idx → EReal) : S100000x64.Idx → EReal :=
  fun i => norm h s b ⟨(i 0).val, idx2_lt0 i⟩ ⟨(i 1).val, idx2_lt1 i⟩
abbrev projArr (h : S100000x64.Idx → EReal) (s b : S1x64.Idx → EReal) (w : S64x64.Idx → EReal) : S100000x64.Idx → EReal :=
  fun i => proj h s b w ⟨(i 0).val, idx2_lt0 i⟩ ⟨(i 1).val, idx2_lt1 i⟩

/-- The body's first result at an entry of a block whose rows are rows of `h`: the normalised entry. -/
theorem norm_entry (x0 : FVec Ideal S10000x64 .f32) (x1 x2 : FVec Ideal S1x64 .f32)
    (h : S100000x64.Idx → EReal) (s b : S1x64.Idx → EReal) (p : Fin 10000) (q : Fin 64) (r : Fin 100000)
    (e0 : x0 (ix2 p q) = h (ix2 r q)) (e1 : x1 (ix2 (0 : Fin 1) q) = s (ix2 (0 : Fin 1) q))
    (e2 : x2 (ix2 (0 : Fin 1) q) = b (ix2 (0 : Fin 1) q)) :
    k2_pay1 (F := Ideal) x0 x1 x2 (ix2 p q) = norm h s b r q := by
  rw [pay1_apply, e0, e1, e2]
  rfl

/-- The body's second result at an entry of a block whose rows are rows of `h`: the projected entry. -/
theorem proj_entry (x0 : FVec Ideal S10000x64 .f32) (x1 x2 : FVec Ideal S1x64 .f32) (x3 : FVec Ideal S64x64 .f32)
    (h : S100000x64.Idx → EReal) (s b : S1x64.Idx → EReal) (w : S64x64.Idx → EReal)
    (p : Fin 10000) (q : Fin 64) (r : Fin 100000)
    (e0 : ∀ k : Fin 64, x0 (ix2 p k) = h (ix2 r k))
    (e1 : ∀ k : Fin 64, x1 (ix2 (0 : Fin 1) k) = s (ix2 (0 : Fin 1) k))
    (e2 : ∀ k : Fin 64, x2 (ix2 (0 : Fin 1) k) = b (ix2 (0 : Fin 1) k))
    (e3 : ∀ k : Fin 64, x3 (ix2 k q) = w (ix2 k q)) :
    k2_pay2 (F := Ideal) x0 x1 x2 x3 (ix2 p q) = proj h s b w r q := by
  rw [pay2_apply]
  unfold proj norm
  exact Finset.sum_congr rfl fun k _ => by rw [e0 k, e1 k, e2 k, e3 k]

/-- Entry `(p, q)` of the first output's block `t` is entry `(10000 t + p, q)` of the array. -/
theorem norm_emb (t : Fin cfg2.N) (p : Fin 10000) (q : Fin 64) (r : Fin 100000) (hr : r.val = t.val * 10000 + p.val) :
    ((cfg2.win 4).blk t).view.emb (ix2 p q) = (ix2 r q : S100000x64.Idx) := by
  obtain ⟨-, -, -, -, -, -, -, -, e8, e9, -⟩ := index_facts t
  funext a; apply Fin.ext
  match a with
  | ⟨0, _⟩ => show win2_4.index t (0 : Fin 2) * 10000 + 1 * p.val = r.val; omega
  | ⟨1, _⟩ => show win2_4.index t (1 : Fin 2) * 64 + 1 * q.val = q.val; omega

/-- Entry `(p, q)` of the second output's block `t` is entry `(10000 t + p, q)` of the array. -/
theorem proj_emb (t : Fin cfg2.N) (p : Fin 10000) (q : Fin 64) (r : Fin 100000) (hr : r.val = t.val * 10000 + p.val) :
    ((cfg2.win 5).blk t).view.emb (ix2 p q) = (ix2 r q : S100000x64.Idx) := by
  obtain ⟨-, -, -, -, -, -, -, -, -, -, e10, e11⟩ := index_facts t
  funext a; apply Fin.ext
  match a with
  | ⟨0, _⟩ => show win2_5.index t (0 : Fin 2) * 10000 + 1 * p.val = r.val; omega
  | ⟨1, _⟩ => show win2_5.index t (1 : Fin 2) * 64 + 1 * q.val = q.val; omega

/-- What point `t` writes back to the first output is block `t` of the normalised array. -/
theorem flushed_norm (c : Dev nD) (t : Fin cfg2.N) :
    (dat2 V c).flushed 4 t = ((cfg2.win 4).blk t).view.read (Elt Ideal)
      (normArr (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero zero_offsets]
  simp only [View.ld_unit_zero (S := S10000x64) zero_offsets, View.ld_unit_zero (S := S1x64) zero_offsets]
  funext j
  obtain ⟨p, q, rfl⟩ : ∃ (p : Fin 10000) (q : Fin 64), j = ix2 p q := ⟨j 0, j 1, eq_ix2 j⟩
  have hN : cfg2.N = 10 := N_2
  have hr : t.val * 10000 + p.val < 100000 := by have := t.isLt; omega
  show k2_pay1 (iblk2 V c 0 t) (iblk2 V c 1 t) (iblk2 V c 2 t) (ix2 p q)
    = normArr (V c (Pipeline.arrRef spec2 0)) (V c (Pipeline.arrRef spec2 1)) (V c (Pipeline.arrRef spec2 2)) (((cfg2.win 4).blk t).view.emb (ix2 p q))
  rw [norm_emb t p q ⟨t.val * 10000 + p.val, hr⟩ rfl]
  show _ = norm (V c (Pipeline.arrRef spec2 0)) (V c (Pipeline.arrRef spec2 1)) (V c (Pipeline.arrRef spec2 2)) ⟨t.val * 10000 + p.val, hr⟩ q
  exact norm_entry (iblk2 V c 0 t) (iblk2 V c 1 t) (iblk2 V c 2 t)
    (V c (Pipeline.arrRef spec2 0)) (V c (Pipeline.arrRef spec2 1)) (V c (Pipeline.arrRef spec2 2)) p q ⟨t.val * 10000 + p.val, hr⟩
    (h_block V c t p q ⟨t.val * 10000 + p.val, hr⟩ rfl) (scale_block V c t q) (shift_block V c t q)

/-- What point `t` writes back to the second output is block `t` of the projected array. -/
theorem flushed_proj (c : Dev nD) (t : Fin cfg2.N) :
    (dat2 V c).flushed 5 t = ((cfg2.win 5).blk t).view.read (Elt Ideal)
      (projArr (V c (Pipeline.arrRef spec2 0)) (V c (Pipeline.arrRef spec2 1)) (V c (Pipeline.arrRef spec2 2)) (V c (Pipeline.arrRef spec2 3))) := by
  show (cfg2.win 5).cut (grid2.coords t) ((dat2 V c).after 5 t) = _
  rw [after2_5]
  unfold out2_5
  rw [View.canon_unit_zero zero_offsets]
  simp only [View.ld_unit_zero (S := S10000x64) zero_offsets, View.ld_unit_zero (S := S1x64) zero_offsets,
    View.ld_unit_zero (S := S64x64) zero_offsets]
  funext j
  obtain ⟨p, q, rfl⟩ : ∃ (p : Fin 10000) (q : Fin 64), j = ix2 p q := ⟨j 0, j 1, eq_ix2 j⟩
  have hN : cfg2.N = 10 := N_2
  have hr : t.val * 10000 + p.val < 100000 := by have := t.isLt; omega
  show k2_pay2 (iblk2 V c 0 t) (iblk2 V c 1 t) (iblk2 V c 2 t) (iblk2 V c 3 t) (ix2 p q)
    = projArr (V c (Pipeline.arrRef spec2 0)) (V c (Pipeline.arrRef spec2 1)) (V c (Pipeline.arrRef spec2 2)) (V c (Pipeline.arrRef spec2 3)) (((cfg2.win 5).blk t).view.emb (ix2 p q))
  rw [proj_emb t p q ⟨t.val * 10000 + p.val, hr⟩ rfl]
  show _ = proj (V c (Pipeline.arrRef spec2 0)) (V c (Pipeline.arrRef spec2 1)) (V c (Pipeline.arrRef spec2 2)) (V c (Pipeline.arrRef spec2 3)) ⟨t.val * 10000 + p.val, hr⟩ q
  exact proj_entry (iblk2 V c 0 t) (iblk2 V c 1 t) (iblk2 V c 2 t) (iblk2 V c 3 t)
    (V c (Pipeline.arrRef spec2 0)) (V c (Pipeline.arrRef spec2 1)) (V c (Pipeline.arrRef spec2 2)) (V c (Pipeline.arrRef spec2 3)) p q ⟨t.val * 10000 + p.val, hr⟩
    (fun k => h_block V c t p k ⟨t.val * 10000 + p.val, hr⟩ rfl) (fun k => scale_block V c t k)
    (fun k => shift_block V c t k) (fun k => weight_block V c t k q)

/-- An index of the first output is in point `t`'s block iff each coordinate is in the block's range on its axis. -/
theorem mem_norm_block (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v38_0).slice (win2_4.rect t)).set ↔ _
  rw [View.set_slice_whole, Rect.mem_set_unit]
  exact Iff.rfl

/-- The same for the second output. -/
theorem mem_proj_block (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v38_1).slice (win2_5.rect t)).set ↔ _
  rw [View.set_slice_whole, Rect.mem_set_unit]
  exact Iff.rfl

/-- Every index of the first output is in some point's block: row `r` is in block `r / 10000`. -/
theorem norm_covered (i : S100000x64.Idx) :
    ∃ t : Fin cfg2.N, (cfg2.win 4).flush t = true ∧ i ∈ ((cfg2.win 4).blk t).view.set := by
  have hN : cfg2.N = 10 := N_2
  have h0 : (i 0).val < 100000 := idx2_lt0 i
  have h1 : (i 1).val < 64 := idx2_lt1 i
  obtain ⟨t, ht⟩ : ∃ t : Fin cfg2.N, t.val = (i 0).val / 10000 := ⟨⟨(i 0).val / 10000, by omega⟩, rfl⟩
  obtain ⟨-, -, -, -, -, -, -, -, e8, e9, -⟩ := index_facts t
  refine ⟨t, flush2_4 t, ?_⟩
  rw [mem_norm_block]
  intro a
  match a with
  | ⟨0, _⟩ =>
    show win2_4.index t (0 : Fin 2) * 10000 ≤ (i 0).val ∧ (i 0).val < win2_4.index t (0 : Fin 2) * 10000 + 10000
    omega
  | ⟨1, _⟩ =>
    show win2_4.index t (1 : Fin 2) * 64 ≤ (i 1).val ∧ (i 1).val < win2_4.index t (1 : Fin 2) * 64 + 64
    omega

/-- The same for the second output. -/
theorem proj_covered (i : S100000x64.Idx) :
    ∃ t : Fin cfg2.N, (cfg2.win 5).flush t = true ∧ i ∈ ((cfg2.win 5).blk t).view.set := by
  have hN : cfg2.N = 10 := N_2
  have h0 : (i 0).val < 100000 := idx2_lt0 i
  have h1 : (i 1).val < 64 := idx2_lt1 i
  obtain ⟨t, ht⟩ : ∃ t : Fin cfg2.N, t.val = (i 0).val / 10000 := ⟨⟨(i 0).val / 10000, by omega⟩, rfl⟩
  obtain ⟨-, -, -, -, -, -, -, -, -, -, e10, e11⟩ := index_facts t
  refine ⟨t, flush2_5 t, ?_⟩
  rw [mem_proj_block]
  intro a
  match a with
  | ⟨0, _⟩ =>
    show win2_5.index t (0 : Fin 2) * 10000 ≤ (i 0).val ∧ (i 0).val < win2_5.index t (0 : Fin 2) * 10000 + 10000
    omega
  | ⟨1, _⟩ =>
    show win2_5.index t (1 : Fin 2) * 64 ≤ (i 1).val ∧ (i 1).val < win2_5.index t (1 : Fin 2) * 64 + 64
    omega

/-- The first output array after the region: the normalised pre-activations. -/
theorem norm_array (c : Dev nD) :
    (dat2 V c).arrAt 4 cfg2.N = normArr (V c (Pipeline.arrRef spec2 0)) (V c (Pipeline.arrRef spec2 1)) (V c (Pipeline.arrRef spec2 2)) :=
  (dat2 V c).arrAt_eq_of_cover 4 (normArr (V c (Pipeline.arrRef spec2 0)) (V c (Pipeline.arrRef spec2 1)) (V c (Pipeline.arrRef spec2 2)))
    (fun t _ => flushed_norm V c t) norm_covered

/-- The second output array after the region: the normalised pre-activations times the weight. -/
theorem proj_array (c : Dev nD) :
    (dat2 V c).arrAt 5 cfg2.N = projArr (V c (Pipeline.arrRef spec2 0)) (V c (Pipeline.arrRef spec2 1)) (V c (Pipeline.arrRef spec2 2)) (V c (Pipeline.arrRef spec2 3)) :=
  (dat2 V c).arrAt_eq_of_cover 5 (projArr (V c (Pipeline.arrRef spec2 0)) (V c (Pipeline.arrRef spec2 1)) (V c (Pipeline.arrRef spec2 2)) (V c (Pipeline.arrRef spec2 3)))
    (fun t _ => flushed_proj V c t) proj_covered

/-- The first output at an entry, for any arrays the input windows' arrays are known to be. -/
theorem region2_hout_of (c : Dev nD) (h : S100000x64.Idx → EReal) (sc sh : S1x64.Idx → EReal) (wn : S64x64.Idx → EReal)
    (e0 : V c (Pipeline.arrRef spec2 0) = h) (e1 : V c (Pipeline.arrRef spec2 1) = sc) (e2 : V c (Pipeline.arrRef spec2 2) = sh) (e3 : V c (Pipeline.arrRef spec2 3) = wn)
    (r : Fin 100000) (q : Fin 64) :
    (Gen.dat2 V c).arrAt 4 cfg2.N (ix2 r q)
      = max (h (ix2 r q) * sc (ix2 (0 : Fin 1) q) + sh (ix2 (0 : Fin 1) q)) (Ideal.ofBits .f32 0x00000000#32) := by
  subst e0 e1 e2
  exact congrFun (norm_array V c) (ix2 r q)

/-- The second output at an entry, for any arrays the input windows' arrays are known to be. -/
theorem region2_proj_of (c : Dev nD) (h : S100000x64.Idx → EReal) (sc sh : S1x64.Idx → EReal) (wn : S64x64.Idx → EReal)
    (e0 : V c (Pipeline.arrRef spec2 0) = h) (e1 : V c (Pipeline.arrRef spec2 1) = sc) (e2 : V c (Pipeline.arrRef spec2 2) = sh) (e3 : V c (Pipeline.arrRef spec2 3) = wn)
    (r : Fin 100000) (q : Fin 64) :
    (Gen.dat2 V c).arrAt 5 cfg2.N (ix2 r q)
      = ∑ t : Fin 64, max (h (ix2 r t) * sc (ix2 (0 : Fin 1) t) + sh (ix2 (0 : Fin 1) t))
          (Ideal.ofBits .f32 0x00000000#32) * wn (ix2 t q) := by
  subst e0 e1 e2 e3
  exact congrFun (proj_array V c) (ix2 r q)

/-- The first output at an entry: the pre-activation scaled, shifted and cut off at zero. -/
theorem region2_hout (c : Dev nD) (r : Fin 100000) (q : Fin 64) :
    (Gen.dat2 V c).arrAt 4 cfg2.N (ix2 r q)
      = max (α := EReal) (V c (Pipeline.arrRef spec2 0) (ix2 r q) ⬝ V c (Pipeline.arrRef spec2 1) (ix2 (0 : Fin 1) q) ⊹ V c (Pipeline.arrRef spec2 2) (ix2 (0 : Fin 1) q))
          (Ideal.ofBits .f32 0x00000000#32) :=
  region2_hout_of V c _ _ _ _ rfl rfl rfl rfl r q

/-- The second output at an entry: the normalised row times the weight's column. -/
theorem region2_proj (c : Dev nD) (r : Fin 100000) (q : Fin 64) :
    (Gen.dat2 V c).arrAt 5 cfg2.N (ix2 r q)
      = ∑ t : Fin 64, max (α := EReal) (V c (Pipeline.arrRef spec2 0) (ix2 r t) ⬝ V c (Pipeline.arrRef spec2 1) (ix2 (0 : Fin 1) t) ⊹ V c (Pipeline.arrRef spec2 2) (ix2 (0 : Fin 1) t))
          (Ideal.ofBits .f32 0x00000000#32) ⬝ V c (Pipeline.arrRef spec2 3) (ix2 t q) :=
  region2_proj_of V c _ _ _ _ rfl rfl rfl rfl r q

end Cert.KernelIdeal.NormRegion2

end
-- ==== Proof.NormRegion4.lean ====
/-
  Normalise, rectify and project: what the region leaves in its two output arrays.

  The pre-activations `h` (100000 × 64) are cut into ten blocks of 10000 rows; the per-column scale and shift
  (1 × 64 each) and the next weight (64 × 47) are held whole at every point. At point `t` the body scales and
  shifts block `t` of `h` column by column and cuts the result off below at zero; that block is written back as
  block `t` of the first output (100000 × 64), and its product with the weight, accumulated from zero, as block `t`
  of the second (100000 × 47). Row `r` of either output lies in block `r / 10000`, at row `r % 10000` of it,
  and both are computed from row `r` of `h` alone. So the first output is
  `max (h (r, q) · scale (0, q) + shift (0, q)) 0` entry by entry, and the second is the matrix product of the
  first with the weight.
-/
import proofs.«159197_j5257039970572_2_alg».proof.Proof.Gen.KernelIdeal.Frame
import proofs.«159197_j5257039970572_2_alg».proof.Proof.LibPlainMatmul
import proofs.«159197_j5257039970572_2_alg».proof.Proof.LibRows
import Idealize.ShloMosaic.Lib.Pipeline.Value
import Idealize.ShloMosaic.Lib.ValueIdx

set_option maxRecDepth 16384

noncomputable section

namespace Cert.KernelIdeal.NormRegion4

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

local notation:70 a:70 " ⬝ " b:71 => HMul.hMul (α := EReal) (β := EReal) (γ := EReal) a b
local notation:65 a:65 " ⊹ " b:66 => HAdd.hAdd (α := EReal) (β := EReal) (γ := EReal) a b

/-- The offsets of a whole-buffer access are zero on both axes. -/
theorem zero_offsets : (![0, 0] : Fin 2 → Nat) = fun _ => 0 := funext fun a => by fin_cases a <;> rfl

/-- The block indices at point `t`: the pre-activations and both outputs move down one block of rows per point;
    the scale, the shift and the weight stay at block (0, 0), at each of the ten points. -/
theorem index_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The body's first result at an entry of the block: scale, shift, cut off at zero. -/
theorem pay1_apply (x0 : FVec Ideal S10000x64 .f32) (x1 x2 : FVec Ideal S1x64 .f32) (p : Fin 10000) (q : Fin 64) :
    k4_pay1 x0 x1 x2 (ix2 p q)
      = max (x0 (ix2 p q) * x1 (ix2 (0 : Fin 1) q) + x2 (ix2 (0 : Fin 1) q)) (Ideal.ofBits .f32 0x00000000#32) := by
  unfold k4_pay1
  show max (shapeCast S10000x64 x0 shapeCasts_S10000x64_S10000x64 (ix2 p q)
        * broadcastTo S10000x64 (shapeCast S1x64 x1 shapeCasts_S1x64_S1x64) broadcasts_S1x64_S10000x64 (ix2 p q)
        + broadcastTo S10000x64 (shapeCast S1x64 x2 shapeCasts_S1x64_S1x64) broadcasts_S1x64_S10000x64 (ix2 p q))
      (Ideal.ofBits .f32 0x00000000#32) = _
  rw [shapeCast_self, shapeCast_self, shapeCast_self,
    Cert.Rows.bcast_row (by decide) x1 broadcasts_S1x64_S10000x64 p q,
    Cert.Rows.bcast_row (by decide) x2 broadcasts_S1x64_S10000x64 p q]

/-- The body's second result at an entry of the block: the first result's row times the weight's column. -/
theorem pay2_apply (x0 : FVec Ideal S10000x64 .f32) (x1 x2 : FVec Ideal S1x64 .f32) (x3 : FVec Ideal S64x47 .f32)
    (p : Fin 10000) (q : Fin 47) :
    k4_pay2 x0 x1 x2 x3 (ix2 p q)
      = ∑ k : Fin 64, max (x0 (ix2 p k) * x1 (ix2 (0 : Fin 1) k) + x2 (ix2 (0 : Fin 1) k))
          (Ideal.ofBits .f32 0x00000000#32) * x3 (ix2 k q) := by
  unfold k4_pay2
  refine (Cert.LibPlainMatmul.matmul_zero_apply dot_S10000x64_S64x47_S10000x47_1_0_0_1_n_n rfl rfl rfl rfl rfl rfl
    none (k4_pay1 x0 x1 x2) x3 p q).trans ?_
  exact Finset.sum_congr rfl fun k _ => by rw [pay1_apply x0 x1 x2 p k]

/-- Row `p` of block `t` of the pre-activations is row `10000 t + p` of the array. -/
theorem h_block (c : Dev nD) (t : Fin cfg4.N) (p : Fin 10000) (q : Fin 64) (r : Fin 100000)
    (hr : r.val = t.val * 10000 + p.val) (h : S100000x64.Idx → EReal) (eh : V c (Pipeline.arrRef spec4 0) = h) :
    (iblk4 V c 0 t : Vec Ideal S10000x64 .f32) (ix2 p q) = h (ix2 r q) := by
  subst eh
  obtain ⟨e0, e1, -⟩ := index_facts t
  unfold iblk4
  rw [View.read_apply]
  refine congrArg (V c (Pipeline.arrRef spec4 0) : S100000x64.Idx → EReal) (funext fun a => Fin.ext ?_)
  match a with
  | ⟨0, _⟩ => show win4_0.index t (0 : Fin 2) * 10000 + 1 * p.val = r.val; omega
  | ⟨1, _⟩ => show win4_0.index t (1 : Fin 2) * 64 + 1 * q.val = q.val; omega

/-- The scale's block at every point is the scale. -/
theorem scale_block (c : Dev nD) (t : Fin cfg4.N) (q : Fin 64) (s : S1x64.Idx → EReal) (es : V c (Pipeline.arrRef spec4 1) = s) :
    (iblk4 V c 1 t : Vec Ideal S1x64 .f32) (ix2 (0 : Fin 1) q) = s (ix2 (0 : Fin 1) q) := by
  subst es
  obtain ⟨-, -, e2, e3, -⟩ := index_facts t
  unfold iblk4
  rw [View.read_apply]
  refine congrArg (V c (Pipeline.arrRef spec4 1) : S1x64.Idx → EReal) (funext fun a => Fin.ext ?_)
  match a with
  | ⟨0, _⟩ => show win4_1.index t (0 : Fin 2) * 1 + 1 * 0 = 0; omega
  | ⟨1, _⟩ => show win4_1.index t (1 : Fin 2) * 64 + 1 * q.val = q.val; omega

/-- The shift's block at every point is the shift. -/
theorem shift_block (c : Dev nD) (t : Fin cfg4.N) (q : Fin 64) (b : S1x64.Idx → EReal) (eb : V c (Pipeline.arrRef spec4 2) = b) :
    (iblk4 V c 2 t : Vec Ideal S1x64 .f32) (ix2 (0 : Fin 1) q) = b (ix2 (0 : Fin 1) q) := by
  subst eb
  obtain ⟨-, -, -, -, e4, e5, -⟩ := index_facts t
  unfold iblk4
  rw [View.read_apply]
  refine congrArg (V c (Pipeline.arrRef spec4 2) : S1x64.Idx → EReal) (funext fun a => Fin.ext ?_)
  match a with
  | ⟨0, _⟩ => show win4_2.index t (0 : Fin 2) * 1 + 1 * 0 = 0; omega
  | ⟨1, _⟩ => show win4_2.index t (1 : Fin 2) * 64 + 1 * q.val = q.val; omega

/-- The weight's block at every point is the weight. -/
theorem weight_block (c : Dev nD) (t : Fin cfg4.N) (k : Fin 64) (q : Fin 47) (w : S64x47.Idx → EReal)
    (ew : V c (Pipeline.arrRef spec4 3) = w) :
    (iblk4 V c 3 t : Vec Ideal S64x47 .f32) (ix2 k q) = w (ix2 k q) := by
  subst ew
  obtain ⟨-, -, -, -, -, -, e6, e7, -⟩ := index_facts t
  unfold iblk4
  rw [View.read_apply]
  refine congrArg (V c (Pipeline.arrRef spec4 3) : S64x47.Idx → EReal) (funext fun a => Fin.ext ?_)
  match a with
  | ⟨0, _⟩ => show win4_3.index t (0 : Fin 2) * 64 + 1 * k.val = k.val; omega
  | ⟨1, _⟩ => show win4_3.index t (1 : Fin 2) * 47 + 1 * q.val = q.val; omega

/-- Scale, shift and cut off at zero, at an entry. -/
def norm (h : S100000x64.Idx → EReal) (s b : S1x64.Idx → EReal) (r : Fin 100000) (q : Fin 64) : EReal :=
  max (h (ix2 r q) * s (ix2 (0 : Fin 1) q) + b (ix2 (0 : Fin 1) q)) (Ideal.ofBits .f32 0x00000000#32)

/-- The normalised row times the weight's column, at an entry. -/
def proj (h : S100000x64.Idx → EReal) (s b : S1x64.Idx → EReal) (w : S64x47.Idx → EReal) (r : Fin 100000)
    (q : Fin 47) : EReal :=
  ∑ t : Fin 64, norm h s b r t * w (ix2 t q)

/-- The same as arrays over the outputs' indices. -/
abbrev normArr (h : S100000x64.Idx → EReal) (s b : S1x64.Idx → EReal) : S100000x64.Idx → EReal :=
  fun i => norm h s b ⟨(i 0).val, idx2_lt0 i⟩ ⟨(i 1).val, idx2_lt1 i⟩
abbrev projArr (h : S100000x64.Idx → EReal) (s b : S1x64.Idx → EReal) (w : S64x47.Idx → EReal) : S100000x47.Idx → EReal :=
  fun i => proj h s b w ⟨(i 0).val, idx2_lt0 i⟩ ⟨(i 1).val, idx2_lt1 i⟩

/-- The body's first result at an entry of a block whose rows are rows of `h`: the normalised entry. -/
theorem norm_entry (x0 : FVec Ideal S10000x64 .f32) (x1 x2 : FVec Ideal S1x64 .f32)
    (h : S100000x64.Idx → EReal) (s b : S1x64.Idx → EReal) (p : Fin 10000) (q : Fin 64) (r : Fin 100000)
    (e0 : x0 (ix2 p q) = h (ix2 r q)) (e1 : x1 (ix2 (0 : Fin 1) q) = s (ix2 (0 : Fin 1) q))
    (e2 : x2 (ix2 (0 : Fin 1) q) = b (ix2 (0 : Fin 1) q)) :
    k4_pay1 (F := Ideal) x0 x1 x2 (ix2 p q) = norm h s b r q := by
  rw [pay1_apply, e0, e1, e2]
  rfl

/-- The body's second result at an entry of a block whose rows are rows of `h`: the projected entry. -/
theorem proj_entry (x0 : FVec Ideal S10000x64 .f32) (x1 x2 : FVec Ideal S1x64 .f32) (x3 : FVec Ideal S64x47 .f32)
    (h : S100000x64.Idx → EReal) (s b : S1x64.Idx → EReal) (w : S64x47.Idx → EReal)
    (p : Fin 10000) (q : Fin 47) (r : Fin 100000)
    (e0 : ∀ k : Fin 64, x0 (ix2 p k) = h (ix2 r k))
    (e1 : ∀ k : Fin 64, x1 (ix2 (0 : Fin 1) k) = s (ix2 (0 : Fin 1) k))
    (e2 : ∀ k : Fin 64, x2 (ix2 (0 : Fin 1) k) = b (ix2 (0 : Fin 1) k))
    (e3 : ∀ k : Fin 64, x3 (ix2 k q) = w (ix2 k q)) :
    k4_pay2 (F := Ideal) x0 x1 x2 x3 (ix2 p q) = proj h s b w r q := by
  rw [pay2_apply]
  unfold proj norm
  exact Finset.sum_congr rfl fun k _ => by rw [e0 k, e1 k, e2 k, e3 k]

/-- Entry `(p, q)` of the first output's block `t` is entry `(10000 t + p, q)` of the array. -/
theorem norm_emb (t : Fin cfg4.N) (p : Fin 10000) (q : Fin 64) (r : Fin 100000) (hr : r.val = t.val * 10000 + p.val) :
    ((cfg4.win 4).blk t).view.emb (ix2 p q) = (ix2 r q : S100000x64.Idx) := by
  obtain ⟨-, -, -, -, -, -, -, -, e8, e9, -⟩ := index_facts t
  funext a; apply Fin.ext
  match a with
  | ⟨0, _⟩ => show win4_4.index t (0 : Fin 2) * 10000 + 1 * p.val = r.val; omega
  | ⟨1, _⟩ => show win4_4.index t (1 : Fin 2) * 64 + 1 * q.val = q.val; omega

/-- Entry `(p, q)` of the second output's block `t` is entry `(10000 t + p, q)` of the array. -/
theorem proj_emb (t : Fin cfg4.N) (p : Fin 10000) (q : Fin 47) (r : Fin 100000) (hr : r.val = t.val * 10000 + p.val) :
    ((cfg4.win 5).blk t).view.emb (ix2 p q) = (ix2 r q : S100000x47.Idx) := by
  obtain ⟨-, -, -, -, -, -, -, -, -, -, e10, e11⟩ := index_facts t
  funext a; apply Fin.ext
  match a with
  | ⟨0, _⟩ => show win4_5.index t (0 : Fin 2) * 10000 + 1 * p.val = r.val; omega
  | ⟨1, _⟩ => show win4_5.index t (1 : Fin 2) * 47 + 1 * q.val = q.val; omega

/-- What point `t` writes back to the first output is block `t` of the normalised array. -/
theorem flushed_norm (c : Dev nD) (t : Fin cfg4.N) (h : S100000x64.Idx → EReal) (s b : S1x64.Idx → EReal)
    (eh : V c (Pipeline.arrRef spec4 0) = h) (es : V c (Pipeline.arrRef spec4 1) = s) (eb : V c (Pipeline.arrRef spec4 2) = b) :
    (dat4 V c).flushed 4 t = ((cfg4.win 4).blk t).view.read (Elt Ideal) (normArr h s b) := by
  show (cfg4.win 4).cut (grid4.coords t) ((dat4 V c).after 4 t) = _
  rw [after4_4]
  unfold out4_4
  rw [View.canon_unit_zero zero_offsets]
  simp only [View.ld_unit_zero (S := S10000x64) zero_offsets, View.ld_unit_zero (S := S1x64) zero_offsets]
  funext j
  obtain ⟨p, q, rfl⟩ : ∃ (p : Fin 10000) (q : Fin 64), j = ix2 p q := ⟨j 0, j 1, eq_ix2 j⟩
  have hN : cfg4.N = 10 := N_4
  have hr : t.val * 10000 + p.val < 100000 := by have := t.isLt; omega
  show k4_pay1 (iblk4 V c 0 t) (iblk4 V c 1 t) (iblk4 V c 2 t) (ix2 p q)
    = normArr h s b (((cfg4.win 4).blk t).view.emb (ix2 p q))
  rw [norm_emb t p q ⟨t.val * 10000 + p.val, hr⟩ rfl]
  show _ = norm h s b ⟨t.val * 10000 + p.val, hr⟩ q
  exact norm_entry (iblk4 V c 0 t) (iblk4 V c 1 t) (iblk4 V c 2 t) h s b p q ⟨t.val * 10000 + p.val, hr⟩
    (h_block V c t p q ⟨t.val * 10000 + p.val, hr⟩ rfl h eh) (scale_block V c t q s es) (shift_block V c t q b eb)

/-- What point `t` writes back to the second output is block `t` of the projected array. -/
theorem flushed_proj (c : Dev nD) (t : Fin cfg4.N) (h : S100000x64.Idx → EReal) (s b : S1x64.Idx → EReal)
    (w : S64x47.Idx → EReal) (eh : V c (Pipeline.arrRef spec4 0) = h) (es : V c (Pipeline.arrRef spec4 1) = s) (eb : V c (Pipeline.arrRef spec4 2) = b) (ew : V c (Pipeline.arrRef spec4 3) = w) :
    (dat4 V c).flushed 5 t = ((cfg4.win 5).blk t).view.read (Elt Ideal) (projArr h s b w) := by
  show (cfg4.win 5).cut (grid4.coords t) ((dat4 V c).after 5 t) = _
  rw [after4_5]
  unfold out4_5
  rw [View.canon_unit_zero zero_offsets]
  simp only [View.ld_unit_zero (S := S10000x64) zero_offsets, View.ld_unit_zero (S := S1x64) zero_offsets,
    View.ld_unit_zero (S := S64x47) zero_offsets]
  funext j
  obtain ⟨p, q, rfl⟩ : ∃ (p : Fin 10000) (q : Fin 47), j = ix2 p q := ⟨j 0, j 1, eq_ix2 j⟩
  have hN : cfg4.N = 10 := N_4
  have hr : t.val * 10000 + p.val < 100000 := by have := t.isLt; omega
  show k4_pay2 (iblk4 V c 0 t) (iblk4 V c 1 t) (iblk4 V c 2 t) (iblk4 V c 3 t) (ix2 p q)
    = projArr h s b w (((cfg4.win 5).blk t).view.emb (ix2 p q))
  rw [proj_emb t p q ⟨t.val * 10000 + p.val, hr⟩ rfl]
  show _ = proj h s b w ⟨t.val * 10000 + p.val, hr⟩ q
  exact proj_entry (iblk4 V c 0 t) (iblk4 V c 1 t) (iblk4 V c 2 t) (iblk4 V c 3 t)
    h s b w p q ⟨t.val * 10000 + p.val, hr⟩
    (fun k => h_block V c t p k ⟨t.val * 10000 + p.val, hr⟩ rfl h eh) (fun k => scale_block V c t k s es)
    (fun k => shift_block V c t k b eb) (fun k => weight_block V c t k q w ew)

/-- An index of the first output is in point `t`'s block iff each coordinate is in the block's range on its axis. -/
theorem mem_norm_block (t : Fin cfg4.N) (i : S100000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole main_v67_0).slice (win4_4.rect t)).set ↔ _
  rw [View.set_slice_whole, Rect.mem_set_unit]
  exact Iff.rfl

/-- The same for the second output. -/
theorem mem_proj_block (t : Fin cfg4.N) (i : S100000x47.Idx) :
    i ∈ ((cfg4.win 5).blk t).view.set ↔ ∀ a : Fin 2, win4_5.index t a * S10000x47.size a ≤ (i a).val
      ∧ (i a).val < win4_5.index t a * S10000x47.size a + S10000x47.size a := by
  show i ∈ ((View.whole main_v67_1).slice (win4_5.rect t)).set ↔ _
  rw [View.set_slice_whole, Rect.mem_set_unit]
  exact Iff.rfl

/-- Every index of the first output is in some point's block: row `r` is in block `r / 10000`. -/
theorem norm_covered (i : S100000x64.Idx) :
    ∃ t : Fin cfg4.N, (cfg4.win 4).flush t = true ∧ i ∈ ((cfg4.win 4).blk t).view.set := by
  have hN : cfg4.N = 10 := N_4
  have h0 : (i 0).val < 100000 := idx2_lt0 i
  have h1 : (i 1).val < 64 := idx2_lt1 i
  obtain ⟨t, ht⟩ : ∃ t : Fin cfg4.N, t.val = (i 0).val / 10000 := ⟨⟨(i 0).val / 10000, by omega⟩, rfl⟩
  obtain ⟨-, -, -, -, -, -, -, -, e8, e9, -⟩ := index_facts t
  refine ⟨t, flush4_4 t, ?_⟩
  rw [mem_norm_block]
  intro a
  match a with
  | ⟨0, _⟩ =>
    show win4_4.index t (0 : Fin 2) * 10000 ≤ (i 0).val ∧ (i 0).val < win4_4.index t (0 : Fin 2) * 10000 + 10000
    omega
  | ⟨1, _⟩ =>
    show win4_4.index t (1 : Fin 2) * 64 ≤ (i 1).val ∧ (i 1).val < win4_4.index t (1 : Fin 2) * 64 + 64
    omega

/-- The same for the second output. -/
theorem proj_covered (i : S100000x47.Idx) :
    ∃ t : Fin cfg4.N, (cfg4.win 5).flush t = true ∧ i ∈ ((cfg4.win 5).blk t).view.set := by
  have hN : cfg4.N = 10 := N_4
  have h0 : (i 0).val < 100000 := idx2_lt0 i
  have h1 : (i 1).val < 47 := idx2_lt1 i
  obtain ⟨t, ht⟩ : ∃ t : Fin cfg4.N, t.val = (i 0).val / 10000 := ⟨⟨(i 0).val / 10000, by omega⟩, rfl⟩
  obtain ⟨-, -, -, -, -, -, -, -, -, -, e10, e11⟩ := index_facts t
  refine ⟨t, flush4_5 t, ?_⟩
  rw [mem_proj_block]
  intro a
  match a with
  | ⟨0, _⟩ =>
    show win4_5.index t (0 : Fin 2) * 10000 ≤ (i 0).val ∧ (i 0).val < win4_5.index t (0 : Fin 2) * 10000 + 10000
    omega
  | ⟨1, _⟩ =>
    show win4_5.index t (1 : Fin 2) * 47 ≤ (i 1).val ∧ (i 1).val < win4_5.index t (1 : Fin 2) * 47 + 47
    omega

/-- The first output array after the region: the normalised pre-activations. -/
theorem norm_array (c : Dev nD) (h : S100000x64.Idx → EReal) (s b : S1x64.Idx → EReal)
    (eh : V c (Pipeline.arrRef spec4 0) = h) (es : V c (Pipeline.arrRef spec4 1) = s) (eb : V c (Pipeline.arrRef spec4 2) = b) :
    (dat4 V c).arrAt 4 cfg4.N = normArr h s b :=
  (dat4 V c).arrAt_eq_of_cover 4 (normArr h s b) (fun t _ => flushed_norm V c t h s b eh es eb) norm_covered

/-- The second output array after the region: the normalised pre-activations times the weight. -/
theorem proj_array (c : Dev nD) (h : S100000x64.Idx → EReal) (s b : S1x64.Idx → EReal) (w : S64x47.Idx → EReal)
    (eh : V c (Pipeline.arrRef spec4 0) = h) (es : V c (Pipeline.arrRef spec4 1) = s) (eb : V c (Pipeline.arrRef spec4 2) = b) (ew : V c (Pipeline.arrRef spec4 3) = w) :
    (dat4 V c).arrAt 5 cfg4.N = projArr h s b w :=
  (dat4 V c).arrAt_eq_of_cover 5 (projArr h s b w) (fun t _ => flushed_proj V c t h s b w eh es eb ew)
    proj_covered

/-- The first output at an entry, for any arrays the input windows' arrays are known to be. -/
theorem region4_hout_of (c : Dev nD) (h : S100000x64.Idx → EReal) (sc sh : S1x64.Idx → EReal) (wn : S64x47.Idx → EReal)
    (e0 : V c (Pipeline.arrRef spec4 0) = h) (e1 : V c (Pipeline.arrRef spec4 1) = sc) (e2 : V c (Pipeline.arrRef spec4 2) = sh) (e3 : V c (Pipeline.arrRef spec4 3) = wn)
    (r : Fin 100000) (q : Fin 64) :
    (Gen.dat4 V c).arrAt 4 cfg4.N (ix2 r q)
      = max (h (ix2 r q) * sc (ix2 (0 : Fin 1) q) + sh (ix2 (0 : Fin 1) q)) (Ideal.ofBits .f32 0x00000000#32) :=
  congrFun (norm_array V c h sc sh e0 e1 e2) (ix2 r q)

/-- The second output at an entry, for any arrays the input windows' arrays are known to be. -/
theorem region4_proj_of (c : Dev nD) (h : S100000x64.Idx → EReal) (sc sh : S1x64.Idx → EReal) (wn : S64x47.Idx → EReal)
    (e0 : V c (Pipeline.arrRef spec4 0) = h) (e1 : V c (Pipeline.arrRef spec4 1) = sc) (e2 : V c (Pipeline.arrRef spec4 2) = sh) (e3 : V c (Pipeline.arrRef spec4 3) = wn)
    (r : Fin 100000) (q : Fin 47) :
    (Gen.dat4 V c).arrAt 5 cfg4.N (ix2 r q)
      = ∑ t : Fin 64, max (h (ix2 r t) * sc (ix2 (0 : Fin 1) t) + sh (ix2 (0 : Fin 1) t))
          (Ideal.ofBits .f32 0x00000000#32) * wn (ix2 t q) :=
  congrFun (proj_array V c h sc sh wn e0 e1 e2 e3) (ix2 r q)

/-- The first output at an entry: the pre-activation scaled, shifted and cut off at zero. -/
theorem region4_hout (c : Dev nD) (r : Fin 100000) (q : Fin 64) :
    (Gen.dat4 V c).arrAt 4 cfg4.N (ix2 r q)
      = max (α := EReal) (V c (Pipeline.arrRef spec4 0) (ix2 r q) ⬝ V c (Pipeline.arrRef spec4 1) (ix2 (0 : Fin 1) q) ⊹ V c (Pipeline.arrRef spec4 2) (ix2 (0 : Fin 1) q))
          (Ideal.ofBits .f32 0x00000000#32) :=
  region4_hout_of V c _ _ _ _ rfl rfl rfl rfl r q

/-- The second output at an entry: the normalised row times the weight's column. -/
theorem region4_proj (c : Dev nD) (r : Fin 100000) (q : Fin 47) :
    (Gen.dat4 V c).arrAt 5 cfg4.N (ix2 r q)
      = ∑ t : Fin 64, max (α := EReal) (V c (Pipeline.arrRef spec4 0) (ix2 r t) ⬝ V c (Pipeline.arrRef spec4 1) (ix2 (0 : Fin 1) t) ⊹ V c (Pipeline.arrRef spec4 2) (ix2 (0 : Fin 1) t))
          (Ideal.ofBits .f32 0x00000000#32) ⬝ V c (Pipeline.arrRef spec4 3) (ix2 t q) :=
  region4_proj_of V c _ _ _ _ rfl rfl rfl rfl r q

end Cert.KernelIdeal.NormRegion4

end
-- ==== Proof.RegionsE1.lean ====
/-
  The logarithm of the soft-max of each row of a block of rows, read entry by entry.

  For a block `w` of 10000 rows and 47 columns the body takes, row by row, the largest entry
      M_i = max_p w (i, p),
  folded from minus infinity and compared once more with minus infinity (which changes nothing), spreads it
  back over the row, subtracts it, exponentiates, adds the exponentials along the row from zero, takes the
  logarithm of that sum on the column of row sums, spreads it back over the row, and subtracts it:
      (w (i, q) - M_i) - log (Σ_p exp (w (i, p) - M_i)).
  Both reductions run along a row, so an entry of the result depends on its own row of the block only.
-/
import proofs.«159197_j5257039970572_2_alg».proof.Proof.Gen.KernelIdeal.Skeleton
import proofs.«159197_j5257039970572_2_alg».proof.Proof.Spec
import proofs.«159197_j5257039970572_2_alg».proof.Proof.LibRowMax
import proofs.«159197_j5257039970572_2_alg».proof.Proof.LibMatrixReduce

noncomputable section

namespace Cert.KernelIdeal.SoftmaxRegion5

open Cert.KernelIdeal Cert.KernelIdeal.Gen Idealize.ShloMosaic Idealize.ShloMosaic.ValueIdx

/-- Each row's largest entry, spread back over the row. -/
def rowTop (w : FVec Ideal S10000x47 .f32) : FVec Ideal S10000x47 .f32 :=
  broadcastTo S10000x47
    (shapeCast S10000x1
      (maximumf (broadcast S10000 (Scalar.ofBits (F := Ideal) .f32 0xFF800000#32))
        (multiReduction .maximumf [1] S10000 w 0xFF800000#32 reduces_S10000x47_S10000 (.inl rfl) rfl))
      shapeCasts_S10000_S10000x1)
    broadcasts_S10000x1_S10000x47

/-- The logarithm of each row's sum of exponentials, spread back over the row. -/
def rowLogSum (u : FVec Ideal S10000x47 .f32) : FVec Ideal S10000x47 .f32 :=
  broadcastTo S10000x47
    (log (shapeCast S10000x1
      (multiReduction .add [1] S10000 (exp u) 0x00000000#32 reduces_S10000x47_S10000 (.inl rfl) rfl)
      shapeCasts_S10000_S10000x1))
    broadcasts_S10000x1_S10000x47

/-- The logarithm of the soft-max of every row of the block. -/
def logSoftmaxRows (w : FVec Ideal S10000x47 .f32) : FVec Ideal S10000x47 .f32 :=
  subf (subf w (rowTop w)) (rowLogSum (subf w (rowTop w)))

/-- At `(i, q)` the spread maximum is the maximum of row `i`: the second comparison with minus infinity is absorbed. -/
theorem rowTop_apply (w : FVec Ideal S10000x47 .f32) (i : Fin 10000) (q : Fin 47) :
    rowTop w (ix2 i q) = Cert.Sage.rowMax (fun p : Fin 47 => w (ix2 i p)) := by
  unfold rowTop
  refine (Cert.LibMatrixReduce.keptCol_apply (show (10000 : ℕ) ≠ 1 by decide) _ _ _ i q).trans ?_
  refine (maximumf_apply _ _ (ix1 i)).trans ?_
  refine (Cert.Rows.neg_inf_max _).trans ?_
  exact Cert.LibRowMax.rowMax_apply w 0xFF800000#32 reduces_S10000x47_S10000 (.inl rfl) rfl i

/-- At `(i, q)` the spread logarithm is the logarithm of the sum of row `i`'s exponentials. -/
theorem rowLogSum_apply (u : FVec Ideal S10000x47 .f32) (i : Fin 10000) (q : Fin 47) :
    rowLogSum u (ix2 i q) = Ideal.log (∑ p : Fin 47, Ideal.exp (u (ix2 i p))) := by
  unfold rowLogSum
  refine (Cert.Rows.bcast_col (show (10000 : ℕ) ≠ 1 by decide) _ _ i q).trans ?_
  change Ideal.log _ = _
  refine congrArg Ideal.log ?_
  refine (Cert.Rows.cast_col _ _ i).trans ?_
  exact Cert.LibMatrixReduce.rowSum_apply (exp u) 0x00000000#32 reduces_S10000x47_S10000 (.inl rfl) rfl i

/-- The block's result at `(i, q)` is the row-wise logarithm of the soft-max of the block's entries, at `(i, q)`. -/
theorem logSoftmaxRows_apply (w : FVec Ideal S10000x47 .f32) (i : Fin 10000) (q : Fin 47) :
    logSoftmaxRows w (ix2 i q) = Cert.Sage.lsm (fun (a : Fin 10000) (p : Fin 47) => w (ix2 a p)) i q := by
  have hshift : ∀ p : Fin 47, subf w (rowTop w) (ix2 i p) = w (ix2 i p) - Cert.Sage.rowMax (fun p : Fin 47 => w (ix2 i p)) :=
    fun p => (subf_apply w (rowTop w) (ix2 i p)).trans (congrArg (fun m => w (ix2 i p) - m) (rowTop_apply w i p))
  unfold logSoftmaxRows Cert.Sage.lsm
  refine (subf_apply _ _ (ix2 i q)).trans ?_
  rw [rowLogSum_apply, hshift q]
  exact congrArg (fun s => (w (ix2 i q) - Cert.Sage.rowMax (fun p : Fin 47 => w (ix2 i p))) - Ideal.log s)
    (Finset.sum_congr rfl fun p _ => congrArg Ideal.exp (hshift p))

end Cert.KernelIdeal.SoftmaxRegion5

end
-- ==== Proof.RegionsE2.lean ====
/-
  The output layer's body on a block of rows, read entry by entry.

  From a block `a` of scaled-to-be neighbour sums (10000 rows, 47 columns), the column `d` of reciprocal degrees of
  the block's rows, the block `x` of the rows' own features (64 columns), the whole weight matrix `w` (64 by 47)
  and the bias row `b`, the body forms the block's pre-activation
      z (i, q) = a (i, q) · d (i, 0) + Σ_t x (i, t) · w (t, q) + b (0, q)
  — the product a plain matrix product accumulated into zero, the degree column spread along each row, the bias
  row spread down the rows; the casts applied to the loaded blocks keep their shapes and are the identity — and
  then the row-wise logarithm of the soft-max of `z`.
-/
import proofs.«159197_j5257039970572_2_alg».proof.Proof.Gen.KernelIdeal.Skeleton
import proofs.«159197_j5257039970572_2_alg».proof.Proof.Spec
import proofs.«159197_j5257039970572_2_alg».proof.Proof.LibPlainMatmul
import proofs.«159197_j5257039970572_2_alg».proof.Proof.RegionsE1

noncomputable section

namespace Cert.KernelIdeal.SoftmaxRegion5

open Cert.KernelIdeal Cert.KernelIdeal.Gen Idealize.ShloMosaic Idealize.ShloMosaic.ValueIdx

variable (a : Vec Ideal S10000x47 .f32) (d : Vec Ideal S10000x1 .f32) (x : Vec Ideal S10000x64 .f32)
  (w : Vec Ideal S64x47 .f32) (b : Vec Ideal S1x47 .f32)

/-- The block's pre-activation as the body forms it. -/
def preRows : FVec Ideal S10000x47 .f32 :=
  addf (F := Ideal) (φ := .f32)
    (addf (F := Ideal) (φ := .f32)
      (mulf (F := Ideal) (φ := .f32) (shapeCast S10000x47 a shapeCasts_S10000x47_S10000x47)
        (broadcastTo S10000x47 (shapeCast S10000x1 d shapeCasts_S10000x1_S10000x1) broadcasts_S10000x1_S10000x47))
      (matmul (F := Ideal) (φ₁ := .f32) (φ₂ := .f32) dot_S10000x64_S64x47_S10000x47_1_0_0_1_n_n none
        (shapeCast S10000x64 x shapeCasts_S10000x64_S10000x64) w (constant (F := Ideal) S10000x47 .f32 0x00000000#32)))
    (broadcastTo S10000x47 (shapeCast S1x47 b shapeCasts_S1x47_S1x47) broadcasts_S1x47_S10000x47)

/-- The body's stored value is the row-wise logarithm of the soft-max of that pre-activation. -/
theorem body_eq : k5_pay1 (F := Ideal) a d x w b = logSoftmaxRows (preRows a d x w b) := rfl

/-- The block's pre-activation as a matrix of extended reals. -/
def zRows : Cert.Sage.Mat 10000 47 :=
  fun i q => (a (ix2 i q) : EReal) * d (ix2 i 0) + (∑ t : Fin 64, (x (ix2 i t) : EReal) * w (ix2 t q)) + b (ix2 0 q)

/-- The pre-activation at `(i, q)`. -/
theorem preRows_apply (i : Fin 10000) (q : Fin 47) : preRows a d x w b (ix2 i q) = zRows a d x w b i q := by
  have h1 : shapeCast S10000x47 a shapeCasts_S10000x47_S10000x47 (ix2 i q) = a (ix2 i q) :=
    congrFun (shapeCast_self a _) _
  have h2 : broadcastTo S10000x47 (shapeCast S10000x1 d shapeCasts_S10000x1_S10000x1) broadcasts_S10000x1_S10000x47 (ix2 i q)
      = d (ix2 i 0) :=
    (Cert.Rows.bcast_col (show (10000 : ℕ) ≠ 1 by decide) _ _ i q).trans (congrFun (shapeCast_self d _) _)
  have h3 : matmul (F := Ideal) (φ₁ := .f32) (φ₂ := .f32) dot_S10000x64_S64x47_S10000x47_1_0_0_1_n_n none
        (shapeCast S10000x64 x shapeCasts_S10000x64_S10000x64) w (constant (F := Ideal) S10000x47 .f32 0x00000000#32) (ix2 i q)
      = ∑ t : Fin 64, (x (ix2 i t) : EReal) * w (ix2 t q) := by
    rw [shapeCast_self]
    exact Cert.LibPlainMatmul.matmul_zero_apply dot_S10000x64_S64x47_S10000x47_1_0_0_1_n_n rfl rfl rfl rfl rfl rfl none x w i q
  have h4 : broadcastTo S10000x47 (shapeCast S1x47 b shapeCasts_S1x47_S1x47) broadcasts_S1x47_S10000x47 (ix2 i q) = b (ix2 0 q) :=
    (Cert.Rows.bcast_row (show (47 : ℕ) ≠ 1 by decide) _ _ i q).trans (congrFun (shapeCast_self b _) _)
  unfold preRows zRows
  refine (addf_apply _ _ (ix2 i q)).trans ?_
  refine congrArg₂ (· + ·) ?_ h4
  refine (addf_apply _ _ (ix2 i q)).trans ?_
  refine congrArg₂ (· + ·) ?_ h3
  refine (mulf_apply _ _ (ix2 i q)).trans ?_
  exact congrArg₂ (· * ·) h1 h2

/-- THE BODY AT AN ENTRY: the stored block at `(i, q)` is the row-wise logarithm of the soft-max of the block's
    pre-activation, at `(i, q)`. -/
theorem body_apply (i : Fin 10000) (q : Fin 47) :
    k5_pay1 (F := Ideal) a d x w b (ix2 i q) = Cert.Sage.lsm (zRows a d x w b) i q :=
  (congrFun (body_eq a d x w b) (ix2 i q)).trans
    ((logSoftmaxRows_apply (preRows a d x w b) i q).trans
      (congrArg (fun z : Cert.Sage.Mat 10000 47 => Cert.Sage.lsm z i q)
        (funext fun r => funext fun p => preRows_apply a d x w b r p)))

end Cert.KernelIdeal.SoftmaxRegion5

end
-- ==== Proof.SoftmaxRegion5.lean ====
/-
  What the output layer's region leaves in its result array.

  The region runs the body once per block of 10000 consecutive rows: point `t` reads rows `10000·t … 10000·t + 9999` of
  the neighbour sums, of the reciprocal degrees and of the nodes' features, the whole weight matrix and the whole
  bias row, and writes rows `10000·t … 10000·t + 9999` of the result. Row `i` of the block at point `t` is row
  `10000·t + i` of each row-blocked array, with the same column; the weight matrix and the bias are read where they
  are. The body's row maximum and row sum run along a row, and a block holds whole rows, so entry `(i, q)` of the
  block the body leaves depends only on row `10000·t + i` of the arrays: it is the row-wise logarithm of the
  soft-max of the whole pre-activation
      z (r, q) = a (r, q) · d (r, 0) + Σ_t x (r, t) · w (t, q) + b (0, q)
  at `(10000·t + i, q)`. The ten blocks cover the rows — row `r` lies in block `r / 10000` —, so the result array
  ends holding that function at every entry.
-/
import proofs.«159197_j5257039970572_2_alg».proof.Proof.Gen.KernelIdeal.Frame
import proofs.«159197_j5257039970572_2_alg».proof.Proof.RegionsE2
import Idealize.ShloMosaic.Lib.Pipeline.Value

noncomputable section

namespace Cert.KernelIdeal.SoftmaxRegion5

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The logarithm of the soft-max of a row depends on that row only. -/
theorem lsm_row_congr {n n' k : ℕ} (z : Cert.Sage.Mat n k) (z' : Cert.Sage.Mat n' k) (i : Fin n) (r : Fin n') (q : Fin k)
    (h : z i = z' r) : Cert.Sage.lsm z i q = Cert.Sage.lsm z' r q := by
  unfold Cert.Sage.lsm
  rw [h]

/-- The output layer's pre-activation as a function of the five arrays: the neighbour sums `a` scaled row by row by
    the reciprocal degrees `d`, plus the features `x` times the weight matrix `w`, plus the bias row `b`. -/
abbrev preOut (a : S100000x47.Idx → EReal) (x : S100000x64.Idx → EReal) (w : S64x47.Idx → EReal)
    (b : S1x47.Idx → EReal) (d : S100000x1.Idx → EReal) : Cert.Sage.Mat 100000 47 :=
  fun r q => a (ix2 r q) * d (ix2 r 0) + (∑ t : Fin 64, x (ix2 r t) * w (ix2 t q)) + b (ix2 0 q)

/-- The whole pre-activation of the output layer, from the arrays as the region finds them (windows 0 to 4). -/
def preAll (c : Dev nD) : Cert.Sage.Mat 100000 47 :=
  preOut (V c (Pipeline.arrRef spec5 0)) (V c (Pipeline.arrRef spec5 1)) (V c (Pipeline.arrRef spec5 2))
    (V c (Pipeline.arrRef spec5 3)) (V c (Pipeline.arrRef spec5 4))

/-- What the result array ends holding: the row-wise logarithm of the soft-max of the whole pre-activation. -/
def outAll (c : Dev nD) : S100000x47.Idx → EReal :=
  fun j => Cert.Sage.lsm (preAll V c) ⟨(j 0).val, idx2_lt0 j⟩ ⟨(j 1).val, idx2_lt1 j⟩

/-- The zero offsets of a whole block, spelt both ways. -/
theorem zeros : (![0, 0] : Fin 2 → Nat) = fun _ => 0 := funext fun a => by fin_cases a <;> rfl

/-- The index maps over the ten points: a row-blocked window is at block `(t, 0)`, a whole one at `(0, 0)`. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- The region has ten points. -/
theorem point_lt (t : Fin cfg5.N) : t.val < 10 := lt_of_lt_of_eq t.isLt N_5

/-- Row `i` of the block at point `t`, as a row of the arrays. -/
def rowOf (t : Fin cfg5.N) (i : Fin 10000) : Fin 100000 :=
  ⟨t.val * 10000 + i.val, by have := point_lt t; have := i.isLt; omega⟩

/-! ## Each input block, read where it lies in its array -/

/-- The block of the neighbour sums at point `t`: row `i` of the block is row `10000·t + i` of the array. -/
theorem blk0_apply (c : Dev nD) (t : Fin cfg5.N) (i : Fin 10000) (p : Fin 47) :
    (iblk5 V c 0 t : Vec Ideal S10000x47 .f32) (ix2 i p)
      = (V c (Pipeline.arrRef spec5 0) : S100000x47.Idx → EReal) (ix2 (rowOf t i) p) := by
  obtain ⟨e0, e1, -⟩ := index_facts t
  show (V c (Pipeline.arrRef spec5 0) : S100000x47.Idx → EReal) (((cfg5.win 0).blk t).view.emb (ix2 i p)) = _
  refine congrArg (V c (Pipeline.arrRef spec5 0) : S100000x47.Idx → EReal) (funext fun a => Fin.ext ?_)
  match a with
  | ⟨0, _⟩ => show win5_0.index t (0 : Fin 2) * 10000 + 1 * i.val = t.val * 10000 + i.val; rw [e0]; omega
  | ⟨1, _⟩ => show win5_0.index t (1 : Fin 2) * 47 + 1 * p.val = p.val; rw [e1]; omega

/-- The block of the features at point `t`: row `i` of the block is row `10000·t + i` of the array. -/
theorem blk1_apply (c : Dev nD) (t : Fin cfg5.N) (i : Fin 10000) (k : Fin 64) :
    (iblk5 V c 1 t : Vec Ideal S10000x64 .f32) (ix2 i k)
      = (V c (Pipeline.arrRef spec5 1) : S100000x64.Idx → EReal) (ix2 (rowOf t i) k) := by
  obtain ⟨-, -, e0, e1, -⟩ := index_facts t
  show (V c (Pipeline.arrRef spec5 1) : S100000x64.Idx → EReal) (((cfg5.win 1).blk t).view.emb (ix2 i k)) = _
  refine congrArg (V c (Pipeline.arrRef spec5 1) : S100000x64.Idx → EReal) (funext fun a => Fin.ext ?_)
  match a with
  | ⟨0, _⟩ => show win5_1.index t (0 : Fin 2) * 10000 + 1 * i.val = t.val * 10000 + i.val; rw [e0]; omega
  | ⟨1, _⟩ => show win5_1.index t (1 : Fin 2) * 64 + 1 * k.val = k.val; rw [e1]; omega

/-- The block of the weight matrix at point `t` is the array itself. -/
theorem blk2_apply (c : Dev nD) (t : Fin cfg5.N) (k : Fin 64) (p : Fin 47) :
    (iblk5 V c 2 t : Vec Ideal S64x47 .f32) (ix2 k p)
      = (V c (Pipeline.arrRef spec5 2) : S64x47.Idx → EReal) (ix2 k p) := by
  obtain ⟨-, -, -, -, e0, e1, -⟩ := index_facts t
  show (V c (Pipeline.arrRef spec5 2) : S64x47.Idx → EReal) (((cfg5.win 2).blk t).view.emb (ix2 k p)) = _
  refine congrArg (V c (Pipeline.arrRef spec5 2) : S64x47.Idx → EReal) (funext fun a => Fin.ext ?_)
  match a with
  | ⟨0, _⟩ => show win5_2.index t (0 : Fin 2) * 64 + 1 * k.val = k.val; rw [e0]; omega
  | ⟨1, _⟩ => show win5_2.index t (1 : Fin 2) * 47 + 1 * p.val = p.val; rw [e1]; omega

/-- The block of the bias row at point `t` is the array itself. -/
theorem blk3_apply (c : Dev nD) (t : Fin cfg5.N) (p : Fin 47) :
    (iblk5 V c 3 t : Vec Ideal S1x47 .f32) (ix2 0 p)
      = (V c (Pipeline.arrRef spec5 3) : S1x47.Idx → EReal) (ix2 0 p) := by
  obtain ⟨-, -, -, -, -, -, e0, e1, -⟩ := index_facts t
  show (V c (Pipeline.arrRef spec5 3) : S1x47.Idx → EReal) (((cfg5.win 3).blk t).view.emb (ix2 0 p)) = _
  refine congrArg (V c (Pipeline.arrRef spec5 3) : S1x47.Idx → EReal) (funext fun a => Fin.ext ?_)
  match a with
  | ⟨0, _⟩ => show win5_3.index t (0 : Fin 2) * 1 + 1 * 0 = 0; rw [e0]
  | ⟨1, _⟩ => show win5_3.index t (1 : Fin 2) * 47 + 1 * p.val = p.val; rw [e1]; omega

/-- The block of the reciprocal degrees at point `t`: row `i` of the block is row `10000·t + i` of the array. -/
theorem blk4_apply (c : Dev nD) (t : Fin cfg5.N) (i : Fin 10000) :
    (iblk5 V c 4 t : Vec Ideal S10000x1 .f32) (ix2 i 0)
      = (V c (Pipeline.arrRef spec5 4) : S100000x1.Idx → EReal) (ix2 (rowOf t i) 0) := by
  obtain ⟨-, -, -, -, -, -, -, -, e0, e1, -⟩ := index_facts t
  show (V c (Pipeline.arrRef spec5 4) : S100000x1.Idx → EReal) (((cfg5.win 4).blk t).view.emb (ix2 i 0)) = _
  refine congrArg (V c (Pipeline.arrRef spec5 4) : S100000x1.Idx → EReal) (funext fun a => Fin.ext ?_)
  match a with
  | ⟨0, _⟩ => show win5_4.index t (0 : Fin 2) * 10000 + 1 * i.val = t.val * 10000 + i.val; rw [e0]; omega
  | ⟨1, _⟩ => show win5_4.index t (1 : Fin 2) * 1 + 1 * 0 = 0; rw [e1]

/-- The pre-activation of the block at point `t` is rows `10000·t …` of the whole pre-activation. -/
theorem zRows_blk (c : Dev nD) (t : Fin cfg5.N) (i : Fin 10000) (p : Fin 47) :
    zRows (iblk5 V c 0 t) (iblk5 V c 4 t) (iblk5 V c 1 t) (iblk5 V c 2 t) (iblk5 V c 3 t) i p = preAll V c (rowOf t i) p := by
  unfold zRows preAll preOut
  exact congrArg₂ (· + ·)
    (congrArg₂ (· + ·) (congrArg₂ (· * ·) (blk0_apply V c t i p) (blk4_apply V c t i))
      (Finset.sum_congr rfl fun k _ => congrArg₂ (· * ·) (blk1_apply V c t i k) (blk2_apply V c t k p)))
    (blk3_apply V c t p)

/-! ## From the blocks to the array -/

/-- WHAT POINT `t` WRITES BACK is block `t` of `outAll`. -/
theorem flushed_eq (c : Dev nD) (t : Fin cfg5.N) :
    (dat5 V c).flushed 5 t = ((cfg5.win 5).blk t).view.read (Elt Ideal) (outAll V c) := by
  show (cfg5.win 5).cut (grid5.coords t) ((dat5 V c).after 5 t) = _
  rw [after5_5]
  unfold out5_5
  rw [View.canon_unit_zero zeros]
  simp only [View.ld_unit_zero (S := S10000x47) zeros, View.ld_unit_zero (S := S10000x1) zeros,
    View.ld_unit_zero (S := S10000x64) zeros, View.ld_unit_zero (S := S64x47) zeros, View.ld_unit_zero (S := S1x47) zeros]
  obtain ⟨-, -, -, -, -, -, -, -, -, -, e0, e1⟩ := index_facts t
  show (k5_pay1 (F := Ideal) (iblk5 V c 0 t) (iblk5 V c 4 t) (iblk5 V c 1 t) (iblk5 V c 2 t) (iblk5 V c 3 t) : S10000x47.Idx → EReal)
      = fun y : S10000x47.Idx => outAll V c (((cfg5.win 5).blk t).view.emb y)
  funext y
  obtain ⟨i, q, rfl⟩ : ∃ (i : Fin 10000) (q : Fin 47), y = ix2 i q := ⟨y 0, y 1, eq_ix2 y⟩
  have hemb : ((cfg5.win 5).blk t).view.emb (ix2 i q) = (ix2 (rowOf t i) q : S100000x47.Idx) :=
    funext fun a => Fin.ext (by
      match a with
      | ⟨0, _⟩ => show win5_5.index t (0 : Fin 2) * 10000 + 1 * i.val = t.val * 10000 + i.val; rw [e0]; omega
      | ⟨1, _⟩ => show win5_5.index t (1 : Fin 2) * 47 + 1 * q.val = q.val; rw [e1]; omega)
  refine (body_apply _ _ _ _ _ i q).trans ?_
  refine Eq.trans ?_ (congrArg (outAll V c) hemb).symm
  exact lsm_row_congr _ (preAll V c) i (rowOf t i) q (funext fun p => zRows_blk V c t i p)

/-- An entry of the array is in point `t`'s block iff each coordinate is in the block's range on its axis. -/
theorem mem_blk (t : Fin cfg5.N) (j : S100000x47.Idx) :
    j ∈ ((cfg5.win 5).blk t).view.set ↔ ∀ a : Fin 2, win5_5.index t a * S10000x47.size a ≤ (j a).val
      ∧ (j a).val < win5_5.index t a * S10000x47.size a + S10000x47.size a := by
  show j ∈ ((View.whole main_v79).slice (win5_5.rect t)).set ↔ _
  rw [View.set_slice_whole, Rect.mem_set_unit]
  exact Iff.rfl

/-- Every entry is in some point's block: row `r` is in block `r / 10000`. -/
theorem cover (j : S100000x47.Idx) :
    ∃ t : Fin cfg5.N, (cfg5.win 5).flush t = true ∧ j ∈ ((cfg5.win 5).blk t).view.set := by
  have h0 : (j 0).val < 100000 := idx2_lt0 j
  have h1 : (j 1).val < 47 := idx2_lt1 j
  have hlt : (j 0).val / 10000 < cfg5.N := by show _ < grid5.N; rw [N_5]; omega
  obtain ⟨-, -, -, -, -, -, -, -, -, -, e0, e1⟩ := index_facts ⟨(j 0).val / 10000, hlt⟩
  refine ⟨⟨(j 0).val / 10000, hlt⟩, flush5_5 _, ?_⟩
  rw [mem_blk]
  intro a
  match a with
  | ⟨0, _⟩ =>
    show win5_5.index ⟨(j 0).val / 10000, hlt⟩ (0 : Fin 2) * 10000 ≤ (j 0).val
      ∧ (j 0).val < win5_5.index ⟨(j 0).val / 10000, hlt⟩ (0 : Fin 2) * 10000 + 10000
    rw [e0]; show (j 0).val / 10000 * 10000 ≤ (j 0).val ∧ (j 0).val < (j 0).val / 10000 * 10000 + 10000; omega
  | ⟨1, _⟩ =>
    show win5_5.index ⟨(j 0).val / 10000, hlt⟩ (1 : Fin 2) * 47 ≤ (j 1).val
      ∧ (j 1).val < win5_5.index ⟨(j 0).val / 10000, hlt⟩ (1 : Fin 2) * 47 + 47
    rw [e1]; omega

/-- THE ARRAY after the region: `outAll`. -/
theorem region5_array (c : Dev nD) : (dat5 V c).arrAt 5 cfg5.N = outAll V c :=
  (dat5 V c).arrAt_eq_of_cover 5 (outAll V c) (fun t _ => flushed_eq V c t) (cover)

/-- THE RESULT at an entry: the row-wise logarithm of the soft-max of the output layer's pre-activation. -/
theorem region5_out (c : Dev nD) (r : Fin 100000) (q : Fin 47) :
    (dat5 V c).arrAt 5 cfg5.N (ix2 r q)
      = Cert.Sage.lsm (preOut (V c (Pipeline.arrRef spec5 0)) (V c (Pipeline.arrRef spec5 1)) (V c (Pipeline.arrRef spec5 2))
          (V c (Pipeline.arrRef spec5 3)) (V c (Pipeline.arrRef spec5 4))) r q :=
  congrFun (region5_array V c) (ix2 r q)

/-- The same with the five arrays named: whatever the region's input arrays are known to hold. -/
theorem region5_out_of (c : Dev nD) (a : S100000x47.Idx → EReal) (x : S100000x64.Idx → EReal) (w : S64x47.Idx → EReal)
    (b : S1x47.Idx → EReal) (d : S100000x1.Idx → EReal)
    (ha : V c (Pipeline.arrRef spec5 0) = a) (hx : V c (Pipeline.arrRef spec5 1) = x) (hw : V c (Pipeline.arrRef spec5 2) = w)
    (hb : V c (Pipeline.arrRef spec5 3) = b) (hd : V c (Pipeline.arrRef spec5 4) = d) (r : Fin 100000) (q : Fin 47) :
    (dat5 V c).arrAt 5 cfg5.N (ix2 r q)
      = Cert.Sage.lsm (fun (r : Fin 100000) (q : Fin 47) =>
          a (ix2 r q) * d (ix2 r 0) + (∑ t : Fin 64, x (ix2 r t) * w (ix2 t q)) + b (ix2 0 q)) r q := by
  subst ha hx hw hb hd
  exact region5_out V c r q

end Cert.KernelIdeal.SoftmaxRegion5

end
-- ==== Proof.Fold.lean ====
/-
  The idealized kernel's result as one function of its arguments.

  The run's boundaries are read one after the other. A stretch of host operations turns the projected rows into their
  neighbour sums (rows gathered along the wrapped source indices, added up along the target indices) or the two
  column sums into the scale and the shift of the folded normalisation; a kernel region multiplies row blocks by a
  weight, or forms the pre-activation (neighbour sum scaled by the reciprocal degree, plus the features times the
  second weight, plus the bias) together with its column sums, or normalises, rectifies and projects, or ends with
  the row-wise log-soft-max. Read at a row and a column, every boundary's array is the corresponding matrix of the
  network written with the products taken before the neighbour sums; the last one is the whole network.
-/
import proofs.«159197_j5257039970572_2_alg».proof.Proof.Carry
import proofs.«159197_j5257039970572_2_alg».proof.Proof.Graph
import proofs.«159197_j5257039970572_2_alg».proof.Proof.HostReads
import proofs.«159197_j5257039970572_2_alg».proof.Proof.Bridge
import proofs.«159197_j5257039970572_2_alg».proof.Proof.ProjRegion0
import proofs.«159197_j5257039970572_2_alg».proof.Proof.StatsRegion1
import proofs.«159197_j5257039970572_2_alg».proof.Proof.StatsRegion3
import proofs.«159197_j5257039970572_2_alg».proof.Proof.NormRegion2
import proofs.«159197_j5257039970572_2_alg».proof.Proof.NormRegion4
import proofs.«159197_j5257039970572_2_alg».proof.Proof.SoftmaxRegion5

set_option maxRecDepth 16384

noncomputable section

namespace Cert.KernelIdeal.Fold

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The arguments as launched, the graph, and the network's matrices -/

abbrev A0 : S100000x100.Idx → EReal := m ((c : Thread nD τ).loc main_arg0)
abbrev A3 : S100x64.Idx → EReal := m ((c : Thread nD τ).loc main_arg3)
abbrev A4 : S100x64.Idx → EReal := m ((c : Thread nD τ).loc main_arg4)
abbrev A5 : S64.Idx → EReal := m ((c : Thread nD τ).loc main_arg5)
abbrev A6 : S64.Idx → EReal := m ((c : Thread nD τ).loc main_arg6)
abbrev A7 : S64.Idx → EReal := m ((c : Thread nD τ).loc main_arg7)
abbrev A8 : S64x64.Idx → EReal := m ((c : Thread nD τ).loc main_arg8)
abbrev A9 : S64x64.Idx → EReal := m ((c : Thread nD τ).loc main_arg9)
abbrev A10 : S64.Idx → EReal := m ((c : Thread nD τ).loc main_arg10)
abbrev A11 : S64.Idx → EReal := m ((c : Thread nD τ).loc main_arg11)
abbrev A12 : S64.Idx → EReal := m ((c : Thread nD τ).loc main_arg12)
abbrev A13 : S64x47.Idx → EReal := m ((c : Thread nD τ).loc main_arg13)
abbrev A14 : S64x47.Idx → EReal := m ((c : Thread nD τ).loc main_arg14)
abbrev A15 : S47.Idx → EReal := m ((c : Thread nD τ).loc main_arg15)
abbrev A1 : IVec S1600000 32 := m ((c : Thread nD τ).loc main_arg1)
abbrev A2 : IVec S1600000 32 := m ((c : Thread nD τ).loc main_arg2)

/-- The edges arriving at each node, the row each edge carries, and the reciprocal degrees. -/
abbrev seg : Fin 100000 → Finset (Fin 1600000) := Cert.Sage.segOf (N := 100000) (A2 m c)
abbrev tk : Fin 1600000 → Fin 100000 := Cert.Sage.tkOf (N := 100000) (by decide) 100000#32 (A1 m c)
abbrev dv : Fin 100000 → EReal := Cert.Sage.degInv (seg m c)

/-- The three pre-activations and the two normalised, rectified feature matrices between them. -/
abbrev H1 : Cert.Sage.Mat 100000 64 :=
  Cert.Sage.preK (seg m c) (tk m c) (dv m c) (Cert.Sage.cur (A0 m c)) (Cert.Sage.cur (A3 m c)) (Cert.Sage.cur (A4 m c)) (Cert.Sage.vec (A5 m c))
abbrev X2 : Cert.Sage.Mat 100000 64 := Cert.Sage.bnK (Cert.Sage.vec (A6 m c)) (Cert.Sage.vec (A7 m c)) (H1 m c)
abbrev H2 : Cert.Sage.Mat 100000 64 :=
  Cert.Sage.preK (seg m c) (tk m c) (dv m c) (X2 m c) (Cert.Sage.cur (A8 m c)) (Cert.Sage.cur (A9 m c)) (Cert.Sage.vec (A10 m c))
abbrev X3 : Cert.Sage.Mat 100000 64 := Cert.Sage.bnK (Cert.Sage.vec (A11 m c)) (Cert.Sage.vec (A12 m c)) (H2 m c)
abbrev Z : Cert.Sage.Mat 100000 47 :=
  Cert.Sage.preK (seg m c) (tk m c) (dv m c) (X3 m c) (Cert.Sage.cur (A13 m c)) (Cert.Sage.cur (A14 m c)) (Cert.Sage.vec (A15 m c))

/-- Two sums over one index set whose summands, as extended reals, agree term by term. -/
theorem sum_congr_ereal {ι : Type} {s : Finset ι} {f g : ι → EReal} (h : ∀ x ∈ s, f x = g x) : s.sum f = s.sum g :=
  Finset.sum_congr rfl h

/-! ## Before the first region: the reciprocal degrees; after it: the first projection -/

theorem dv_W1 (r : Fin 100000) : (W1 m ρ c (Proc.devRef .tc main_v8) : S100000x1.Idx → EReal) (ix2 r 0) = dv m c r :=
  Cert.KernelIdeal.HostReads.degInv_read (W0 m ρ c) r

theorem p1_W2 (r : Fin 100000) (q : Fin 64) :
    (W2 m ρ c (Proc.devRef .tc main_v9) : S100000x64.Idx → EReal) (ix2 r q) = Cert.Sage.mm (Cert.Sage.cur (A0 m c)) (Cert.Sage.cur (A3 m c)) r q :=
  (congrFun (W2_arr m ρ c 2) (ix2 r q)).trans
    (Cert.KernelIdeal.ProjRegion0.region0_out_of (V1 m ρ) c (A0 m c) (A3 m c) (W1_main_arg0_eq_W0 m ρ c) (W1_main_arg3_eq_W0 m ρ c) r q)

/-! ## Layer 1 -/

/-- After the stretch: the neighbour sum of the projected rows. -/
theorem agg1_W3 (r : Fin 100000) (q : Fin 64) :
    (W3 m ρ c (Proc.devRef .tc main_v19) : S100000x64.Idx → EReal) (ix2 r q) = Cert.Sage.agg (seg m c) (tk m c) (Cert.Sage.mm (Cert.Sage.cur (A0 m c)) (Cert.Sage.cur (A3 m c))) r q := by
  have h := Cert.KernelIdeal.HostReads.agg1_read (W2 m ρ c) r q
  rw [show W2 m ρ c (Proc.devRef .tc main_arg2) = A2 m c from W2_main_arg2_eq_W0 m ρ c,
    show W2 m ρ c (Proc.devRef .tc main_arg1) = A1 m c from W2_main_arg1_eq_W0 m ρ c] at h
  refine h.trans ?_
  rw [Cert.Sage.zero_eq, zero_add]
  unfold Cert.Sage.agg Cert.Sage.cur
  exact sum_congr_ereal (fun j _ => p1_W2 m ρ c (tk m c j) q)

/-- After the stretch: the bias as a row. -/
theorem bias1_W3 (q : Fin 64) :
    (W3 m ρ c (Proc.devRef .tc main_v20) : S1x64.Idx → EReal) (ix2 0 q) = (A5 m c) (ix1 q) :=
  (Cert.KernelIdeal.HostReads.bias1_read (W2 m ρ c) q).trans (congrFun (show W2 m ρ c (Proc.devRef .tc main_arg5) = A5 m c from W2_main_arg5_eq_W0 m ρ c) (ix1 q))

/-- After the stretch: the reciprocal degrees are still there. -/
theorem dv_W3 (r : Fin 100000) : (W3 m ρ c (Proc.devRef .tc main_v8) : S100000x1.Idx → EReal) (ix2 r 0) = dv m c r :=
  (congrFun (W3_main_v8_eq_W1 m ρ c) (ix2 r 0)).trans (dv_W1 m ρ c r)

/-- The combine region's entry, at a row and a column, is the layer's pre-activation. -/
theorem pre1_point (ag : S100000x64.Idx → EReal) (dd : S100000x1.Idx → EReal) (bb : S1x64.Idx → EReal)
    (hag : ag = W3 m ρ c (Proc.devRef .tc main_v19)) (hdd : dd = W3 m ρ c (Proc.devRef .tc main_v8)) (hbb : bb = W3 m ρ c (Proc.devRef .tc main_v20))
    (r : Fin 100000) (q : Fin 64) :
    ag (ix2 r q) * dd (ix2 r 0) + (∑ t : Fin 100, (A0 m c) (ix2 r t) * (A4 m c) (ix2 t q)) + bb (ix2 0 q)
      = H1 m c r q := by
  subst hag hdd hbb
  rw [agg1_W3 m ρ c r q, dv_W3 m ρ c r, bias1_W3 m ρ c q]
  simp only [Cert.Sage.preK, Cert.Sage.mm, Cert.Sage.cur, Cert.Sage.vec]

/-- After the combine region: the pre-activation, and the column sums of its entries and of their squares. -/
theorem h1_W4 (r : Fin 100000) (q : Fin 64) :
    (W4 m ρ c (Proc.devRef .tc main_v21_0) : S100000x64.Idx → EReal) (ix2 r q) = H1 m c r q :=
  (congrFun (W4_arr m ρ c 5) (ix2 r q)).trans
    ((Cert.KernelIdeal.StatsRegion1.region1_h_of (V3 m ρ) c (W3 m ρ c (Proc.devRef .tc main_v19)) (A0 m c) (A4 m c) (W3 m ρ c (Proc.devRef .tc main_v20)) (W3 m ρ c (Proc.devRef .tc main_v8)) rfl (W3_main_arg0_eq_W0 m ρ c) (W3_main_arg4_eq_W0 m ρ c) rfl rfl r q).trans (pre1_point m ρ c _ _ _ rfl rfl rfl r q))

theorem sum1_W4 (q : Fin 64) :
    (W4 m ρ c (Proc.devRef .tc main_v21_1) : S1x64.Idx → EReal) (ix2 0 q) = ∑ r : Fin 100000, H1 m c r q :=
  (congrFun (W4_arr m ρ c 6) (ix2 0 q)).trans
    ((Cert.KernelIdeal.StatsRegion1.region1_sum_of (V3 m ρ) c (W3 m ρ c (Proc.devRef .tc main_v19)) (A0 m c) (A4 m c) (W3 m ρ c (Proc.devRef .tc main_v20)) (W3 m ρ c (Proc.devRef .tc main_v8)) rfl (W3_main_arg0_eq_W0 m ρ c) (W3_main_arg4_eq_W0 m ρ c) rfl rfl q).trans (sum_congr_ereal fun r _ => pre1_point m ρ c _ _ _ rfl rfl rfl r q))

theorem sumsq1_W4 (q : Fin 64) :
    (W4 m ρ c (Proc.devRef .tc main_v21_2) : S1x64.Idx → EReal) (ix2 0 q) = ∑ r : Fin 100000, H1 m c r q * H1 m c r q :=
  (congrFun (W4_arr m ρ c 7) (ix2 0 q)).trans
    ((Cert.KernelIdeal.StatsRegion1.region1_sumsq_of (V3 m ρ) c (W3 m ρ c (Proc.devRef .tc main_v19)) (A0 m c) (A4 m c) (W3 m ρ c (Proc.devRef .tc main_v20)) (W3 m ρ c (Proc.devRef .tc main_v8)) rfl (W3_main_arg0_eq_W0 m ρ c) (W3_main_arg4_eq_W0 m ρ c) rfl rfl q).trans
      (sum_congr_ereal fun r _ => congrArg₂ (· * ·) (pre1_point m ρ c _ _ _ rfl rfl rfl r q) (pre1_point m ρ c _ _ _ rfl rfl rfl r q)))

/-- After the scalar stretch: the scale and the shift of the folded normalisation. -/
theorem scale1_W5 (q : Fin 64) :
    (W5 m ρ c (Proc.devRef .tc main_v34) : S1x64.Idx → EReal) (ix2 0 q) = Cert.Sage.scaleK (Cert.Sage.vec (A6 m c)) (H1 m c) q := by
  have h := Cert.KernelIdeal.HostReads.scale1_read (W4 m ρ c) q
  rw [sum1_W4 m ρ c q, sumsq1_W4 m ρ c q,
    show W4 m ρ c (Proc.devRef .tc main_arg6) = A6 m c from W4_main_arg6_eq_W0 m ρ c] at h
  refine h.trans ?_
  unfold Cert.Sage.scaleK Cert.Sage.varK Cert.Sage.mean Cert.Sage.vec
  rfl

theorem shift1_W5 (q : Fin 64) :
    (W5 m ρ c (Proc.devRef .tc main_v37) : S1x64.Idx → EReal) (ix2 0 q) = Cert.Sage.shiftK (Cert.Sage.vec (A6 m c)) (Cert.Sage.vec (A7 m c)) (H1 m c) q := by
  have h := Cert.KernelIdeal.HostReads.shift1_read (W4 m ρ c) q
  rw [sum1_W4 m ρ c q, sumsq1_W4 m ρ c q,
    show W4 m ρ c (Proc.devRef .tc main_arg6) = A6 m c from W4_main_arg6_eq_W0 m ρ c,
    show W4 m ρ c (Proc.devRef .tc main_arg7) = A7 m c from W4_main_arg7_eq_W0 m ρ c] at h
  refine h.trans ?_
  unfold Cert.Sage.shiftK Cert.Sage.scaleK Cert.Sage.varK Cert.Sage.mean Cert.Sage.vec
  rfl

/-- The normalise-and-project region's entry, at a row and a column, is the normalised, rectified pre-activation. -/
theorem norm1_point (hh : S100000x64.Idx → EReal) (sc sh : S1x64.Idx → EReal)
    (hhh : hh = W5 m ρ c (Proc.devRef .tc main_v21_0)) (hsc : sc = W5 m ρ c (Proc.devRef .tc main_v34)) (hsh : sh = W5 m ρ c (Proc.devRef .tc main_v37))
    (r : Fin 100000) (q : Fin 64) :
    max (hh (ix2 r q) * sc (ix2 0 q) + sh (ix2 0 q)) (Ideal.ofBits .f32 0x00000000#32) = X2 m c r q := by
  subst hhh hsc hsh
  rw [congrFun (W5_main_v21_0_eq_W4 m ρ c) (ix2 r q), h1_W4 m ρ c r q, scale1_W5 m ρ c q, shift1_W5 m ρ c q]
  simp only [Cert.Sage.bnK]

/-- After the normalise-and-project region: the next layer's features, and their projection. -/
theorem x2_W6 (r : Fin 100000) (q : Fin 64) :
    (W6 m ρ c (Proc.devRef .tc main_v38_0) : S100000x64.Idx → EReal) (ix2 r q) = X2 m c r q :=
  (congrFun (W6_arr m ρ c 4) (ix2 r q)).trans
    ((Cert.KernelIdeal.NormRegion2.region2_hout_of (V5 m ρ) c (W5 m ρ c (Proc.devRef .tc main_v21_0)) (W5 m ρ c (Proc.devRef .tc main_v34)) (W5 m ρ c (Proc.devRef .tc main_v37)) (A8 m c) rfl rfl rfl (W5_main_arg8_eq_W0 m ρ c) r q).trans (norm1_point m ρ c _ _ _ rfl rfl rfl r q))

theorem p2_W6 (r : Fin 100000) (q : Fin 64) :
    (W6 m ρ c (Proc.devRef .tc main_v38_1) : S100000x64.Idx → EReal) (ix2 r q) = Cert.Sage.mm (X2 m c) (Cert.Sage.cur (A8 m c)) r q :=
  (congrFun (W6_arr m ρ c 5) (ix2 r q)).trans
    ((Cert.KernelIdeal.NormRegion2.region2_proj_of (V5 m ρ) c (W5 m ρ c (Proc.devRef .tc main_v21_0)) (W5 m ρ c (Proc.devRef .tc main_v34)) (W5 m ρ c (Proc.devRef .tc main_v37)) (A8 m c) rfl rfl rfl (W5_main_arg8_eq_W0 m ρ c) r q).trans
      (sum_congr_ereal fun t _ => congrArg (· * (A8 m c) (ix2 t q)) (norm1_point m ρ c _ _ _ rfl rfl rfl r t)))

/-! ## Layer 2 -/

/-- After the stretch: the neighbour sum of the projected rows. -/
theorem agg2_W7 (r : Fin 100000) (q : Fin 64) :
    (W7 m ρ c (Proc.devRef .tc main_v48) : S100000x64.Idx → EReal) (ix2 r q) = Cert.Sage.agg (seg m c) (tk m c) (Cert.Sage.mm (X2 m c) (Cert.Sage.cur (A8 m c))) r q := by
  have h := Cert.KernelIdeal.HostReads.agg2_read (W6 m ρ c) r q
  rw [show W6 m ρ c (Proc.devRef .tc main_arg2) = A2 m c from W6_main_arg2_eq_W0 m ρ c,
    show W6 m ρ c (Proc.devRef .tc main_arg1) = A1 m c from W6_main_arg1_eq_W0 m ρ c] at h
  refine h.trans ?_
  rw [Cert.Sage.zero_eq, zero_add]
  unfold Cert.Sage.agg Cert.Sage.cur
  exact sum_congr_ereal (fun j _ => p2_W6 m ρ c (tk m c j) q)

/-- After the stretch: the bias as a row. -/
theorem bias2_W7 (q : Fin 64) :
    (W7 m ρ c (Proc.devRef .tc main_v49) : S1x64.Idx → EReal) (ix2 0 q) = (A10 m c) (ix1 q) :=
  (Cert.KernelIdeal.HostReads.bias2_read (W6 m ρ c) q).trans (congrFun (show W6 m ρ c (Proc.devRef .tc main_arg10) = A10 m c from W6_main_arg10_eq_W0 m ρ c) (ix1 q))

/-- After the stretch: the reciprocal degrees are still there. -/
theorem dv_W7 (r : Fin 100000) : (W7 m ρ c (Proc.devRef .tc main_v8) : S100000x1.Idx → EReal) (ix2 r 0) = dv m c r :=
  (congrFun (W7_main_v8_eq_W1 m ρ c) (ix2 r 0)).trans (dv_W1 m ρ c r)

/-- After the stretch: the layer's input features are still there. -/
theorem x2_W7 (r : Fin 100000) (t : Fin 64) : (W7 m ρ c (Proc.devRef .tc main_v38_0) : S100000x64.Idx → EReal) (ix2 r t) = (X2 m c) r t :=
  (congrFun (W7_main_v38_0_eq_W6 m ρ c) (ix2 r t)).trans (x2_W6 m ρ c r t)

/-- The combine region's entry, at a row and a column, is the layer's pre-activation. -/
theorem pre2_point (ag : S100000x64.Idx → EReal) (dd : S100000x1.Idx → EReal) (bb : S1x64.Idx → EReal) (xx : S100000x64.Idx → EReal)
    (hag : ag = W7 m ρ c (Proc.devRef .tc main_v48)) (hdd : dd = W7 m ρ c (Proc.devRef .tc main_v8)) (hbb : bb = W7 m ρ c (Proc.devRef .tc main_v49)) (hxx : xx = W7 m ρ c (Proc.devRef .tc main_v38_0))
    (r : Fin 100000) (q : Fin 64) :
    ag (ix2 r q) * dd (ix2 r 0) + (∑ t : Fin 64, xx (ix2 r t) * (A9 m c) (ix2 t q)) + bb (ix2 0 q)
      = H2 m c r q := by
  subst hag hdd hbb hxx
  rw [agg2_W7 m ρ c r q, dv_W7 m ρ c r, bias2_W7 m ρ c q]
  simp only [x2_W7 m ρ c]
  simp only [Cert.Sage.preK, Cert.Sage.mm, Cert.Sage.cur, Cert.Sage.vec]

/-- After the combine region: the pre-activation, and the column sums of its entries and of their squares. -/
theorem h2_W8 (r : Fin 100000) (q : Fin 64) :
    (W8 m ρ c (Proc.devRef .tc main_v50_0) : S100000x64.Idx → EReal) (ix2 r q) = H2 m c r q :=
  (congrFun (W8_arr m ρ c 5) (ix2 r q)).trans
    ((Cert.KernelIdeal.StatsRegion3.region3_h_of (V7 m ρ) c (W7 m ρ c (Proc.devRef .tc main_v48)) (W7 m ρ c (Proc.devRef .tc main_v38_0)) (A9 m c) (W7 m ρ c (Proc.devRef .tc main_v49)) (W7 m ρ c (Proc.devRef .tc main_v8)) rfl rfl (W7_main_arg9_eq_W0 m ρ c) rfl rfl r q).trans (pre2_point m ρ c _ _ _ _ rfl rfl rfl rfl r q))

theorem sum2_W8 (q : Fin 64) :
    (W8 m ρ c (Proc.devRef .tc main_v50_1) : S1x64.Idx → EReal) (ix2 0 q) = ∑ r : Fin 100000, H2 m c r q :=
  (congrFun (W8_arr m ρ c 6) (ix2 0 q)).trans
    ((Cert.KernelIdeal.StatsRegion3.region3_sum_of (V7 m ρ) c (W7 m ρ c (Proc.devRef .tc main_v48)) (W7 m ρ c (Proc.devRef .tc main_v38_0)) (A9 m c) (W7 m ρ c (Proc.devRef .tc main_v49)) (W7 m ρ c (Proc.devRef .tc main_v8)) rfl rfl (W7_main_arg9_eq_W0 m ρ c) rfl rfl q).trans (sum_congr_ereal fun r _ => pre2_point m ρ c _ _ _ _ rfl rfl rfl rfl r q))

theorem sumsq2_W8 (q : Fin 64) :
    (W8 m ρ c (Proc.devRef .tc main_v50_2) : S1x64.Idx → EReal) (ix2 0 q) = ∑ r : Fin 100000, H2 m c r q * H2 m c r q :=
  (congrFun (W8_arr m ρ c 7) (ix2 0 q)).trans
    ((Cert.KernelIdeal.StatsRegion3.region3_sumsq_of (V7 m ρ) c (W7 m ρ c (Proc.devRef .tc main_v48)) (W7 m ρ c (Proc.devRef .tc main_v38_0)) (A9 m c) (W7 m ρ c (Proc.devRef .tc main_v49)) (W7 m ρ c (Proc.devRef .tc main_v8)) rfl rfl (W7_main_arg9_eq_W0 m ρ c) rfl rfl q).trans
      (sum_congr_ereal fun r _ => congrArg₂ (· * ·) (pre2_point m ρ c _ _ _ _ rfl rfl rfl rfl r q) (pre2_point m ρ c _ _ _ _ rfl rfl rfl rfl r q)))

/-- After the scalar stretch: the scale and the shift of the folded normalisation. -/
theorem scale2_W9 (q : Fin 64) :
    (W9 m ρ c (Proc.devRef .tc main_v63) : S1x64.Idx → EReal) (ix2 0 q) = Cert.Sage.scaleK (Cert.Sage.vec (A11 m c)) (H2 m c) q := by
  have h := Cert.KernelIdeal.HostReads.scale2_read (W8 m ρ c) q
  rw [sum2_W8 m ρ c q, sumsq2_W8 m ρ c q,
    show W8 m ρ c (Proc.devRef .tc main_arg11) = A11 m c from W8_main_arg11_eq_W0 m ρ c] at h
  refine h.trans ?_
  unfold Cert.Sage.scaleK Cert.Sage.varK Cert.Sage.mean Cert.Sage.vec
  rfl

theorem shift2_W9 (q : Fin 64) :
    (W9 m ρ c (Proc.devRef .tc main_v66) : S1x64.Idx → EReal) (ix2 0 q) = Cert.Sage.shiftK (Cert.Sage.vec (A11 m c)) (Cert.Sage.vec (A12 m c)) (H2 m c) q := by
  have h := Cert.KernelIdeal.HostReads.shift2_read (W8 m ρ c) q
  rw [sum2_W8 m ρ c q, sumsq2_W8 m ρ c q,
    show W8 m ρ c (Proc.devRef .tc main_arg11) = A11 m c from W8_main_arg11_eq_W0 m ρ c,
    show W8 m ρ c (Proc.devRef .tc main_arg12) = A12 m c from W8_main_arg12_eq_W0 m ρ c] at h
  refine h.trans ?_
  unfold Cert.Sage.shiftK Cert.Sage.scaleK Cert.Sage.varK Cert.Sage.mean Cert.Sage.vec
  rfl

/-- The normalise-and-project region's entry, at a row and a column, is the normalised, rectified pre-activation. -/
theorem norm2_point (hh : S100000x64.Idx → EReal) (sc sh : S1x64.Idx → EReal)
    (hhh : hh = W9 m ρ c (Proc.devRef .tc main_v50_0)) (hsc : sc = W9 m ρ c (Proc.devRef .tc main_v63)) (hsh : sh = W9 m ρ c (Proc.devRef .tc main_v66))
    (r : Fin 100000) (q : Fin 64) :
    max (hh (ix2 r q) * sc (ix2 0 q) + sh (ix2 0 q)) (Ideal.ofBits .f32 0x00000000#32) = X3 m c r q := by
  subst hhh hsc hsh
  rw [congrFun (W9_main_v50_0_eq_W8 m ρ c) (ix2 r q), h2_W8 m ρ c r q, scale2_W9 m ρ c q, shift2_W9 m ρ c q]
  simp only [Cert.Sage.bnK]

/-- After the normalise-and-project region: the next layer's features, and their projection. -/
theorem x3_W10 (r : Fin 100000) (q : Fin 64) :
    (W10 m ρ c (Proc.devRef .tc main_v67_0) : S100000x64.Idx → EReal) (ix2 r q) = X3 m c r q :=
  (congrFun (W10_arr m ρ c 4) (ix2 r q)).trans
    ((Cert.KernelIdeal.NormRegion4.region4_hout_of (V9 m ρ) c (W9 m ρ c (Proc.devRef .tc main_v50_0)) (W9 m ρ c (Proc.devRef .tc main_v63)) (W9 m ρ c (Proc.devRef .tc main_v66)) (A13 m c) rfl rfl rfl (W9_main_arg13_eq_W0 m ρ c) r q).trans (norm2_point m ρ c _ _ _ rfl rfl rfl r q))

theorem p3_W10 (r : Fin 100000) (q : Fin 47) :
    (W10 m ρ c (Proc.devRef .tc main_v67_1) : S100000x47.Idx → EReal) (ix2 r q) = Cert.Sage.mm (X3 m c) (Cert.Sage.cur (A13 m c)) r q :=
  (congrFun (W10_arr m ρ c 5) (ix2 r q)).trans
    ((Cert.KernelIdeal.NormRegion4.region4_proj_of (V9 m ρ) c (W9 m ρ c (Proc.devRef .tc main_v50_0)) (W9 m ρ c (Proc.devRef .tc main_v63)) (W9 m ρ c (Proc.devRef .tc main_v66)) (A13 m c) rfl rfl rfl (W9_main_arg13_eq_W0 m ρ c) r q).trans
      (sum_congr_ereal fun t _ => congrArg (· * (A13 m c) (ix2 t q)) (norm2_point m ρ c _ _ _ rfl rfl rfl r t)))

/-! ## Layer 3 -/

/-- After the stretch: the neighbour sum of the projected rows. -/
theorem agg3_W11 (r : Fin 100000) (q : Fin 47) :
    (W11 m ρ c (Proc.devRef .tc main_v77) : S100000x47.Idx → EReal) (ix2 r q) = Cert.Sage.agg (seg m c) (tk m c) (Cert.Sage.mm (X3 m c) (Cert.Sage.cur (A13 m c))) r q := by
  have h := Cert.KernelIdeal.HostReads.agg3_read (W10 m ρ c) r q
  rw [show W10 m ρ c (Proc.devRef .tc main_arg2) = A2 m c from W10_main_arg2_eq_W0 m ρ c,
    show W10 m ρ c (Proc.devRef .tc main_arg1) = A1 m c from W10_main_arg1_eq_W0 m ρ c] at h
  refine h.trans ?_
  rw [Cert.Sage.zero_eq, zero_add]
  unfold Cert.Sage.agg Cert.Sage.cur
  exact sum_congr_ereal (fun j _ => p3_W10 m ρ c (tk m c j) q)

/-- After the stretch: the bias as a row. -/
theorem bias3_W11 (q : Fin 47) :
    (W11 m ρ c (Proc.devRef .tc main_v78) : S1x47.Idx → EReal) (ix2 0 q) = (A15 m c) (ix1 q) :=
  (Cert.KernelIdeal.HostReads.bias3_read (W10 m ρ c) q).trans (congrFun (show W10 m ρ c (Proc.devRef .tc main_arg15) = A15 m c from W10_main_arg15_eq_W0 m ρ c) (ix1 q))

/-- After the stretch: the reciprocal degrees are still there. -/
theorem dv_W11 (r : Fin 100000) : (W11 m ρ c (Proc.devRef .tc main_v8) : S100000x1.Idx → EReal) (ix2 r 0) = dv m c r :=
  (congrFun (W11_main_v8_eq_W1 m ρ c) (ix2 r 0)).trans (dv_W1 m ρ c r)

/-- After the stretch: the layer's input features are still there. -/
theorem x3_W11 (r : Fin 100000) (t : Fin 64) : (W11 m ρ c (Proc.devRef .tc main_v67_0) : S100000x64.Idx → EReal) (ix2 r t) = (X3 m c) r t :=
  (congrFun (W11_main_v67_0_eq_W10 m ρ c) (ix2 r t)).trans (x3_W10 m ρ c r t)

/-- The combine region's entry, at a row and a column, is the layer's pre-activation. -/
theorem pre3_point (ag : S100000x47.Idx → EReal) (dd : S100000x1.Idx → EReal) (bb : S1x47.Idx → EReal) (xx : S100000x64.Idx → EReal)
    (hag : ag = W11 m ρ c (Proc.devRef .tc main_v77)) (hdd : dd = W11 m ρ c (Proc.devRef .tc main_v8)) (hbb : bb = W11 m ρ c (Proc.devRef .tc main_v78)) (hxx : xx = W11 m ρ c (Proc.devRef .tc main_v67_0))
    (r : Fin 100000) (q : Fin 47) :
    ag (ix2 r q) * dd (ix2 r 0) + (∑ t : Fin 64, xx (ix2 r t) * (A14 m c) (ix2 t q)) + bb (ix2 0 q)
      = Z m c r q := by
  subst hag hdd hbb hxx
  rw [agg3_W11 m ρ c r q, dv_W11 m ρ c r, bias3_W11 m ρ c q]
  simp only [x3_W11 m ρ c]
  simp only [Cert.Sage.preK, Cert.Sage.mm, Cert.Sage.cur, Cert.Sage.vec]

/-- After the last region: the result array is the row-wise log-soft-max of the pre-activation. -/
theorem out_W12 (r : Fin 100000) (q : Fin 47) :
    (W12 m ρ c (Proc.devRef .tc main_v79) : S100000x47.Idx → EReal) (ix2 r q) = Cert.Sage.lsm (Z m c) r q := by
  refine (congrFun (W12_arr m ρ c 5) (ix2 r q)).trans ?_
  refine (Cert.KernelIdeal.SoftmaxRegion5.region5_out_of (V11 m ρ) c (W11 m ρ c (Proc.devRef .tc main_v77)) (W11 m ρ c (Proc.devRef .tc main_v67_0)) (A14 m c) (W11 m ρ c (Proc.devRef .tc main_v78)) (W11 m ρ c (Proc.devRef .tc main_v8)) rfl rfl (W11_main_arg14_eq_W0 m ρ c) rfl rfl r q).trans ?_
  exact congrArg (fun z : Cert.Sage.Mat 100000 47 => Cert.Sage.lsm z r q) (funext fun r' => funext fun q' => pre3_point m ρ c _ _ _ _ rfl rfl rfl rfl r' q')

/-! ## The whole network -/

/-- The network with the products taken before the neighbour sums, as contents of the result array. -/
def netArr : S100000x47.Idx → EReal := fun j =>
  Cert.Sage.netK (seg m c) (tk m c) (Cert.Sage.cur (A0 m c)) (Cert.Sage.cur (A3 m c)) (Cert.Sage.cur (A4 m c)) (Cert.Sage.vec (A5 m c))
    (Cert.Sage.vec (A6 m c)) (Cert.Sage.vec (A7 m c)) (Cert.Sage.cur (A8 m c)) (Cert.Sage.cur (A9 m c)) (Cert.Sage.vec (A10 m c))
    (Cert.Sage.vec (A11 m c)) (Cert.Sage.vec (A12 m c)) (Cert.Sage.cur (A13 m c)) (Cert.Sage.cur (A14 m c)) (Cert.Sage.vec (A15 m c)) (j 0) (j 1)

/-- The result array ends holding it. -/
theorem result_eq : (W12 m ρ c (Proc.devRef .tc main_v79) : S100000x47.Idx → EReal) = netArr m c := by
  funext j
  rw [eq_ix2 j]
  exact out_W12 m ρ c (j 0) (j 1)

end Cert.KernelIdeal.Fold

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The finiteness precondition, decoded: if the conjunction over the fourteen float arguments of "every entry has
  absolute value strictly below +∞" is true, then every entry of every one of them is a real number.

  The predicate's value is a single bit, the "and" of fourteen bits, one per argument; the whole is 1 only if each
  is 1. Each of these bits is the "and", over all entries of the argument, of the comparison |x| < +∞; it is 1 only
  if every comparison holds, and |x| < +∞ fails at both infinities (|⊥| = |⊤| = ⊤), so x is a real number.
-/
import proofs.«159197_j5257039970572_2_alg».proof.Pre_finite_inputs
import proofs.«159197_j5257039970572_2_alg».proof.Proof.Graph
import proofs.«159197_j5257039970572_2_alg».proof.Proof.Bridge
import proofs.«159197_j5257039970572_2_alg».proof.Proof.LibFiniteAll

noncomputable section

open Idealize.ShloMosaic Idealize.ShloMosaic.ValueIdx

namespace Cert.Sage

open Cert.Pre_finite_inputs Cert.Pre_finite_inputs.Facts

/-- A bit that is the "and" of two one-index arrays of bits is 1 only if both are. -/
theorem and_bits {p q : IVec S_ 1} (h : andi p q ix0 = 1#1) : p ix0 = 1#1 ∧ q ix0 = 1#1 :=
  IntOp.andi_eq_one.1 h

/-- A matrix all of whose entries pass the test is a real matrix. -/
theorem realMat_of_all {a b : Nat} (x : FVec Ideal (⟨2, ![a, b]⟩ : Shape) .f32)
    (hb : S_.BroadcastsInDim (⟨2, ![a, b]⟩ : Shape) (![] : Fin 0 → Fin (⟨2, ![a, b]⟩ : Shape).rank))
    (hr : (⟨2, ![a, b]⟩ : Shape).ReducesTo [0, 1] S_) (hu : 0 < S_.numel)
    (e : Host.reduce IntOp.andi
          (cmpf .olt (Host.absf x) (broadcastInDim (⟨2, ![a, b]⟩ : Shape) ![] hb (constant (F := Ideal) S_ .f32 0x7F800000#32)))
          (constantI S_ 1 1#1) hr hu ix0 = 1#1) :
    RealMat (cur x) :=
  fun r t => Cert.FiniteAll.all_real x hb hr hu ix0 e (ix2 r t)

/-- A vector all of whose entries pass the test is a real vector. -/
theorem realVec_of_all {a : Nat} (x : FVec Ideal (⟨1, ![a]⟩ : Shape) .f32)
    (hb : S_.BroadcastsInDim (⟨1, ![a]⟩ : Shape) (![] : Fin 0 → Fin (⟨1, ![a]⟩ : Shape).rank))
    (hr : (⟨1, ![a]⟩ : Shape).ReducesTo [0] S_) (hu : 0 < S_.numel)
    (e : Host.reduce IntOp.andi
          (cmpf .olt (Host.absf x) (broadcastInDim (⟨1, ![a]⟩ : Shape) ![] hb (constant (F := Ideal) S_ .f32 0x7F800000#32)))
          (constantI S_ 1 1#1) hr hu ix0 = 1#1) :
    RealVec (vec x) :=
  fun q => Cert.FiniteAll.all_real x hb hr hu ix0 e (ix1 q)

/-- The precondition gives every float argument real. -/
theorem finite_args [hP : Cert.Pre_finite_inputs.Facts] (a0 : FVec Ideal S100000x100 .f32) (a1 a2 : IVec S1600000 32)
    (a3 a4 : FVec Ideal S100x64 .f32) (a5 a6 a7 : FVec Ideal S64 .f32) (a8 a9 : FVec Ideal S64x64 .f32)
    (a10 a11 a12 : FVec Ideal S64 .f32) (a13 a14 : FVec Ideal S64x47 .f32) (a15 : FVec Ideal S47 .f32)
    (h : Cert.Pre_finite_inputs.fn (F := Ideal) a0 a1 a2 a3 a4 a5 a6 a7 a8 a9 a10 a11 a12 a13 a14 a15 = fun _ => 1#1) :
    RealMat (cur a0) ∧ RealMat (cur a3) ∧ RealMat (cur a4) ∧ RealVec (vec a5) ∧ RealVec (vec a6) ∧ RealVec (vec a7)
      ∧ RealMat (cur a8) ∧ RealMat (cur a9) ∧ RealVec (vec a10) ∧ RealVec (vec a11) ∧ RealVec (vec a12)
      ∧ RealMat (cur a13) ∧ RealMat (cur a14) ∧ RealVec (vec a15) := by
  have h0 := congrFun h ix0
  dsimp only [fn, fn_part1, fn_part2, fn_part3, fn_part4] at h0
  obtain ⟨h0, e15⟩ := and_bits h0
  obtain ⟨h0, e14⟩ := and_bits h0
  obtain ⟨h0, e13⟩ := and_bits h0
  obtain ⟨h0, e12⟩ := and_bits h0
  obtain ⟨h0, e11⟩ := and_bits h0
  obtain ⟨h0, e10⟩ := and_bits h0
  obtain ⟨h0, e9⟩ := and_bits h0
  obtain ⟨h0, e8⟩ := and_bits h0
  obtain ⟨h0, e7⟩ := and_bits h0
  obtain ⟨h0, e6⟩ := and_bits h0
  obtain ⟨h0, e5⟩ := and_bits h0
  obtain ⟨h0, e4⟩ := and_bits h0
  obtain ⟨e0, e3⟩ := and_bits h0
  exact ⟨realMat_of_all a0 _ _ _ e0, realMat_of_all a3 _ _ _ e3, realMat_of_all a4 _ _ _ e4,
    realVec_of_all a5 _ _ _ e5, realVec_of_all a6 _ _ _ e6, realVec_of_all a7 _ _ _ e7,
    realMat_of_all a8 _ _ _ e8, realMat_of_all a9 _ _ _ e9, realVec_of_all a10 _ _ _ e10,
    realVec_of_all a11 _ _ _ e11, realVec_of_all a12 _ _ _ e12, realMat_of_all a13 _ _ _ e13,
    realMat_of_all a14 _ _ _ e14, realVec_of_all a15 _ _ _ e15⟩

end Cert.Sage

end
-- ==== Proof.LibPlainDot.lean ====
/-
  A host `dot_general` with the plain dimension numbers read at an entry, over the extended reals.

  For dimension numbers that contract the left operand's columns with the right operand's rows and have no batch axes
  (`[1] × [0]`, free axes `[0]` and `[1]`), the host's product of an `M × K` by a `K × N` matrix is, at entry `(a, b)`,
  the sum over `k` of `l (a, k) · r (k, b)`, whatever the precision and the schedule key: exact arithmetic has no
  rounding and no order of summation left in it. The dimension-number record is a variable with its six lists given by
  hypotheses, so the statement applies to any printed record of this form. It is the host-side companion of the
  kernel-side product into a zero accumulator (`LibPlainMatmul.matmul_zero_apply`): the two read as the same sum.
-/
import proofs.«159197_j5257039970572_2_alg».proof.Proof.LibPlainMatmul

noncomputable section

namespace Cert.LibPlainDot

open Idealize.ShloMosaic Idealize.ShloMosaic.ValueIdx

variable {M K N : Nat} (D : DotDims ⟨2, ![M, K]⟩ ⟨2, ![K, N]⟩ ⟨2, ![M, N]⟩)

/-- A host `dot_general` of an `M × K` by a `K × N` matrix with the plain dimension numbers, at entry `(a, b)`:
    `∑ k, l (a, k) · r (k, b)`. -/
theorem dotGeneral_plain_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) := by
  rw [Ideal.dotGeneral_apply,
    ← Equiv.sum_comp (contrEquiv1 D K (LibPlainMatmul.contr_rank D hlc) (LibPlainMatmul.contr_size D hlc)).symm]
  refine Finset.sum_congr rfl fun k _ => ?_
  have hk := contrEquiv1_symm_val D K (LibPlainMatmul.contr_rank D hlc) (LibPlainMatmul.contr_size D hlc) k
  have el : D.lhsIdx (ix2 a b) ((contrEquiv1 D K (LibPlainMatmul.contr_rank D hlc) (LibPlainMatmul.contr_size D hlc)).symm k) = ix2 a k :=
    funext fun c => Fin.ext (by
      match c with
      | ⟨0, _⟩ => exact LibPlainMatmul.lhs_row D hln hlb _ _
      | ⟨1, _⟩ => exact (D.lhsIdx_val_of_single hlc _ _).trans hk)
  have er : D.rhsIdx (ix2 a b) ((contrEquiv1 D K (LibPlainMatmul.contr_rank D hlc) (LibPlainMatmul.contr_size D hlc)).symm k) = ix2 k b :=
    funext fun c => Fin.ext (by
      match c with
      | ⟨0, _⟩ => exact (D.rhsIdx_val_of_single hrc _ _).trans hk
      | ⟨1, _⟩ => exact LibPlainMatmul.rhs_col D hln hrn hlb hrb _ _)
  rw [el, er]

end Cert.LibPlainDot

end
-- ==== Proof.RefLayer.lean ====
/-
  One layer of the network as a host program computes it, read at a row and a column.

  The host works on whole arrays. A layer's input is a matrix `x : [N, K]`; the edges are two index columns
  `[E, 1]`. The rows `x[src]` are taken (one row per edge), added into the rows of a zero matrix along `dst`
  (so row `r` receives the sum of the taken rows over the edges arriving at `r`), every row is multiplied by the
  node's reciprocal in-degree, and the result is multiplied on the right by a weight matrix; the node's own row
  times a second weight matrix and a bias row are added. Read at `(r, q)` this is the pre-activation
  `∑ t, (∑ j ∈ seg r, x (tk j) t) · d r · wl t q + ∑ t, x r t · wr t q + b q` of the specification, the order of
  the operations unchanged: the zero the sum starts from is the additive unit of the extended reals.

  The reciprocal in-degree itself is one divided by the larger of one and the number of arriving edges, the number
  counted by scattering ones into zeros.
-/
import proofs.«159197_j5257039970572_2_alg».proof.Proof.Graph
import proofs.«159197_j5257039970572_2_alg».proof.Proof.LibPlainDot

noncomputable section

open Idealize.ShloMosaic Idealize.ShloMosaic.ValueIdx Cert.SegmentRows Cert.LibHostReads Cert.Sage

namespace Cert.ReferenceIdeal.RefValue

variable {N E K C : ℕ}

/-- The shape of a single number. -/
abbrev S0 : Shape := ⟨0, ![]⟩

/-- One number, given by its word, at every position of an array. -/
def splat (s : Shape) (h : S0.BroadcastsInDim s (![] : Fin 0 → Fin s.rank)) (w : BitVec 32) : FVec Ideal s .f32 :=
  broadcastInDim s ![] h (constant (F := Ideal) S0 .f32 w)

theorem splat_apply (s : Shape) (h : S0.BroadcastsInDim s (![] : Fin 0 → Fin s.rank)) (w : BitVec 32) (i : s.Idx) :
    splat s h w i = Ideal.ofBits .f32 w :=
  broadcastInDim_apply _ h _ i (fun a => a.elim0) (fun a => a.elim0)

/-- A vector indexed by the rows, repeated along every column. -/
def colB (hc1 : (⟨1, ![N]⟩ : Shape).BroadcastsInDim ⟨2, ![N, 1]⟩ ![0])
    (hc2 : (⟨2, ![N, 1]⟩ : Shape).BroadcastsInDim ⟨2, ![N, K]⟩ ![0, 1])
    (v : FVec Ideal ⟨1, ![N]⟩ .f32) : FVec Ideal ⟨2, ![N, K]⟩ .f32 :=
  broadcastInDim ⟨2, ![N, K]⟩ ![0, 1] hc2 (broadcastInDim ⟨2, ![N, 1]⟩ ![0] hc1 v)

theorem colB_apply (hc1 : (⟨1, ![N]⟩ : Shape).BroadcastsInDim ⟨2, ![N, 1]⟩ ![0])
    (hc2 : (⟨2, ![N, 1]⟩ : Shape).BroadcastsInDim ⟨2, ![N, K]⟩ ![0, 1])
    (v : FVec Ideal ⟨1, ![N]⟩ .f32) (r : Fin N) (t : Fin K) : colB hc1 hc2 v (ix2 r t) = v (ix1 r) :=
  (colOuter_apply _ hc2 r t).trans (colInner_apply v hc1 r)

/-- A vector indexed by the columns, repeated along every row. -/
def rowB (hr1 : (⟨1, ![C]⟩ : Shape).BroadcastsInDim ⟨2, ![1, C]⟩ ![1])
    (hr2 : (⟨2, ![1, C]⟩ : Shape).BroadcastsInDim ⟨2, ![N, C]⟩ ![0, 1])
    (v : FVec Ideal ⟨1, ![C]⟩ .f32) : FVec Ideal ⟨2, ![N, C]⟩ .f32 :=
  broadcastInDim ⟨2, ![N, C]⟩ ![0, 1] hr2 (broadcastInDim ⟨2, ![1, C]⟩ ![1] hr1 v)

theorem rowB_apply (hr1 : (⟨1, ![C]⟩ : Shape).BroadcastsInDim ⟨2, ![1, C]⟩ ![1])
    (hr2 : (⟨2, ![1, C]⟩ : Shape).BroadcastsInDim ⟨2, ![N, C]⟩ ![0, 1])
    (v : FVec Ideal ⟨1, ![C]⟩ .f32) (r : Fin N) (q : Fin C) : rowB hr1 hr2 v (ix2 r q) = v (ix1 q) :=
  (rowOuter_apply _ hr2 r q).trans (rowInner_apply v hr1 q)

/-! ## The reciprocal in-degree -/

/-- One divided by the larger of one and the count of arriving edges, the count a scatter of ones into zeros. -/
def degOps (d : ScatterDims ⟨1, ![N]⟩ ⟨2, ![E, 1]⟩ ⟨1, ![E]⟩)
    (hN : S0.BroadcastsInDim ⟨1, ![N]⟩ ![]) (hE : S0.BroadcastsInDim ⟨1, ![E]⟩ ![])
    (col : IVec ⟨2, ![E, 1]⟩ 32) : FVec Ideal ⟨1, ![N]⟩ .f32 :=
  Host.divf (splat _ hN 0x3F800000#32)
    (maximumf (Host.scatterAdd d (splat _ hN 0x00000000#32) col (splat _ hE 0x3F800000#32)) (splat _ hN 0x3F800000#32))

/-- At node `r` it is the specification's reciprocal in-degree over the edge sets the index column gives. -/
theorem degOps_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (hN : S0.BroadcastsInDim ⟨1, ![N]⟩ ![]) (hE : S0.BroadcastsInDim ⟨1, ![E]⟩ ![])
    (col : IVec ⟨2, ![E, 1]⟩ 32) (seg : Fin N → Finset (Fin E)) (hseg : segment col = seg) :
    vec (degOps d hN hE col) = degInv seg := by
  subst hseg
  funext r
  show Ideal.div (splat _ hN 0x3F800000#32 (ix1 r))
      (max (Host.scatterAdd (F := Ideal) (φ := .f32) d (splat _ hN 0x00000000#32) col (splat _ hE 0x3F800000#32) (ix1 r))
        (splat _ hN 0x3F800000#32 (ix1 r))) = _
  rw [hostScatter_vec_apply d wf hd]
  simp only [splat_apply]
  rfl

/-! ## A layer's pre-activation -/

/-- The host's operations of one layer, on whole arrays. -/
def layerOps (gd : GatherDims ⟨2, ![N, K]⟩ ⟨2, ![E, 1]⟩ ⟨2, ![E, K]⟩)
    (sd : ScatterDims ⟨2, ![N, K]⟩ ⟨2, ![E, 1]⟩ ⟨2, ![E, K]⟩)
    (D : DotDims ⟨2, ![N, K]⟩ ⟨2, ![K, C]⟩ ⟨2, ![N, C]⟩)
    (h0 : S0.BroadcastsInDim ⟨2, ![N, K]⟩ ![])
    (hc1 : (⟨1, ![N]⟩ : Shape).BroadcastsInDim ⟨2, ![N, 1]⟩ ![0])
    (hc2 : (⟨2, ![N, 1]⟩ : Shape).BroadcastsInDim ⟨2, ![N, K]⟩ ![0, 1])
    (hr1 : (⟨1, ![C]⟩ : Shape).BroadcastsInDim ⟨2, ![1, C]⟩ ![1])
    (hr2 : (⟨2, ![1, C]⟩ : Shape).BroadcastsInDim ⟨2, ![N, C]⟩ ![0, 1])
    (x : FVec Ideal ⟨2, ![N, K]⟩ .f32) (src dst : IVec ⟨2, ![E, 1]⟩ 32) (dinv : FVec Ideal ⟨1, ![N]⟩ .f32)
    (wl wr : FVec Ideal ⟨2, ![K, C]⟩ .f32) (b : FVec Ideal ⟨1, ![C]⟩ .f32) : FVec Ideal ⟨2, ![N, C]⟩ .f32 :=
  addf
    (addf
      (Host.dotGeneral D none
        (mulf (Host.scatterAdd sd (splat _ h0 0x00000000#32) dst (Host.gather gd x src)) (colB hc1 hc2 dinv)) wl)
      (Host.dotGeneral D none x wr))
    (rowB hr1 hr2 b)

/-- Read by row and column, the layer's operations are the specification's pre-activation that sums the neighbours
    before multiplying, over the edge sets and source rows the two index columns give. -/
theorem layerOps_apply (hN : 0 < N)
    (gd : GatherDims ⟨2, ![N, K]⟩ ⟨2, ![E, 1]⟩ ⟨2, ![E, K]⟩)
    (gwf : GatherDims.WF ⟨2, ![N, K]⟩ ⟨2, ![E, 1]⟩ ⟨2, ![E, K]⟩ [1] [0] [] [0] [] 1 ![1, K])
    (hgd : gd = rowGatherDims N E K gwf)
    (sd : ScatterDims ⟨2, ![N, K]⟩ ⟨2, ![E, 1]⟩ ⟨2, ![E, K]⟩)
    (swf : ScatterDims.WF ⟨2, ![N, K]⟩ ⟨2, ![E, 1]⟩ ⟨2, ![E, K]⟩ [1] [0] [0] 1)
    (hsd : sd = rowScatterDims N E K swf)
    (D : DotDims ⟨2, ![N, K]⟩ ⟨2, ![K, C]⟩ ⟨2, ![N, C]⟩)
    (hlc : D.lhsContracting = [1]) (hrc : D.rhsContracting = [0]) (hln : D.lhsNonContracting = [0])
    (hrn : D.rhsNonContracting = [1]) (hlb : D.lhsBatch = []) (hrb : D.rhsBatch = [])
    (h0 : S0.BroadcastsInDim ⟨2, ![N, K]⟩ ![])
    (hc1 : (⟨1, ![N]⟩ : Shape).BroadcastsInDim ⟨2, ![N, 1]⟩ ![0])
    (hc2 : (⟨2, ![N, 1]⟩ : Shape).BroadcastsInDim ⟨2, ![N, K]⟩ ![0, 1])
    (hr1 : (⟨1, ![C]⟩ : Shape).BroadcastsInDim ⟨2, ![1, C]⟩ ![1])
    (hr2 : (⟨2, ![1, C]⟩ : Shape).BroadcastsInDim ⟨2, ![N, C]⟩ ![0, 1])
    (x : FVec Ideal ⟨2, ![N, K]⟩ .f32) (src dst : IVec ⟨2, ![E, 1]⟩ 32) (dinv : FVec Ideal ⟨1, ![N]⟩ .f32)
    (wl wr : FVec Ideal ⟨2, ![K, C]⟩ .f32) (b : FVec Ideal ⟨1, ![C]⟩ .f32)
    (seg : Fin N → Finset (Fin E)) (hseg : segment dst = seg)
    (tk : Fin E → Fin N) (htk : takeRow hN src = tk)
    (dv : Fin N → EReal) (hdv : vec dinv = dv) (X : Mat N K) (hX : cur x = X) :
    cur (layerOps gd sd D h0 hc1 hc2 hr1 hr2 x src dst dinv wl wr b)
      = preR seg tk dv X (cur wl) (cur wr) (vec b) := by
  subst hseg htk hdv hX
  -- the scaled neighbour sum, entry by entry
  have hagg : ∀ (r : Fin N) (t : Fin K),
      mulf (Host.scatterAdd sd (splat _ h0 0x00000000#32) dst (Host.gather gd x src)) (colB hc1 hc2 dinv) (ix2 r t)
        = agg (segment dst) (takeRow hN src) (cur x) r t * vec dinv r := by
    intro r t
    show Host.scatterAdd (F := Ideal) (φ := .f32) sd (splat _ h0 0x00000000#32) dst (Host.gather gd x src) (ix2 r t)
        * colB hc1 hc2 dinv (ix2 r t) = _
    rw [hostScatter_rows_apply sd swf hsd, splat_apply, Ideal.ofBits_zero_f32, zero_add, colB_apply]
    have hsum : ∑ e ∈ segment dst r, Host.gather gd x src (ix2 e t)
        = ∑ e ∈ segment dst r, x (ix2 (takeRow hN src e) t) :=
      Finset.sum_congr rfl fun e _ => hostGather_rows_apply hN gd gwf hgd x src e t
    rw [hsum]
    rfl
  funext r q
  show FloatOps.dotGeneral D none .single
        (mulf (Host.scatterAdd sd (splat _ h0 0x00000000#32) dst (Host.gather gd x src)) (colB hc1 hc2 dinv)) wl (ix2 r q)
      + FloatOps.dotGeneral D none .single x wr (ix2 r q) + rowB hr1 hr2 b (ix2 r q) = _
  rw [Cert.LibPlainDot.dotGeneral_plain_apply D hlc hrc hln hrn hlb hrb,
    Cert.LibPlainDot.dotGeneral_plain_apply D hlc hrc hln hrn hlb hrb, rowB_apply]
  have hsum : ∑ k : Fin K,
        mulf (Host.scatterAdd sd (splat _ h0 0x00000000#32) dst (Host.gather gd x src)) (colB hc1 hc2 dinv) (ix2 r k)
          * wl (ix2 k q)
      = ∑ k : Fin K, agg (segment dst) (takeRow hN src) (cur x) r k * vec dinv r * wl (ix2 k q) :=
    Finset.sum_congr rfl fun k _ => by rw [hagg r k]
  rw [hsum]
  rfl

end Cert.ReferenceIdeal.RefValue

end
-- ==== Proof.LibHostColumns.lean ====
/-
  Three readings of host operations over the extended reals.

  * The host's sum down the columns of a matrix (a `reduce` with an add body over axis 0 and a scalar
    initial value), at column `c`: the initial value plus `∑ k, v (k, c)`.
  * A `select` on the bit of an ordered comparison is the `if` on that comparison.
  * The integer zero converted to a float is zero.
-/
import proofs.«159197_j5257039970572_2_alg».proof.Proof.LibAxisZero
import Idealize.ShloMosaic.PureOps.Ideal.Laws
import Idealize.ShloMosaic.Lib.ValueIdx

noncomputable section

open scoped BigOperators

open Idealize.ShloMosaic Idealize.ShloMosaic.ValueIdx

namespace Cert.LibHostColumns

/-- The host's sum down the columns at `c`: the initial value plus the sum over the column. -/
theorem hostColSum_apply {m n : ℕ} (v : FVec Ideal (⟨2, ![m, n]⟩ : Shape) .f32) (init : (⟨0, ![]⟩ : Shape).Idx → EReal)
    (h' : (⟨2, ![m, n]⟩ : Shape).ReducesTo [0] (⟨1, ![n]⟩ : Shape))
    (hu : 0 < (⟨0, ![]⟩ : Shape).numel) (c : Fin n) :
    Host.reduceAdd (F := Ideal) (φ := .f32) v init h' hu (ix1 c) = init (Shape.Idx.first hu) + ∑ k : Fin m, v (ix2 k c) := by
  have h : (⟨2, ![m, n]⟩ : Shape).Reduces [0] (⟨1, ![n]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.LibAxisZero.lift_col h c k)

/-- A `select` on "`z ≤ y`" is the `if`. -/
theorem select_oge {α : Type} (y z : EReal) (a b : α) :
    Scalar.select (FloatOps.cmpf (F := Ideal) (φ := .f32) .oge y z) a b = if z ≤ y then a else b := by
  show (if Ideal.cmp .oge y z = 1 then a else b) = _
  unfold Ideal.cmp
  by_cases h : z ≤ y <;> simp [h]

/-- A `select` on "`z < y`" is the `if`. -/
theorem select_ogt {α : Type} (y z : EReal) (a b : α) :
    Scalar.select (FloatOps.cmpf (F := Ideal) (φ := .f32) .ogt y z) a b = if z < y then a else b := by
  show (if Ideal.cmp .ogt y z = 1 then a else b) = _
  unfold Ideal.cmp
  by_cases h : z < y <;> simp [h]

/-- The 32-bit integer zero, converted, is the real zero. -/
theorem sitofp_zero : FloatOps.sitofp (F := Ideal) .f32 (0#32 : BitVec 32) = (0 : EReal) := by
  show (((0#32 : BitVec 32).toInt : ℝ) : EReal) = 0
  simp

end Cert.LibHostColumns

end
-- ==== Proof.RefNorm.lean ====
/-
  Batch normalisation with rectification, and the row-wise logarithm of the soft-max, as a host program computes
  them on whole arrays, read at a row and a column.

  Normalisation over the nodes: the column sums divided by the number of nodes are the column means; the matrix less
  its column means, squared entry by entry, summed down the columns and divided by the number of nodes is the
  variance; each entry's deviation from its column mean is multiplied by the column's gain and by the reciprocal
  square root of the variance plus a small shift, the column's offset is added, and the result is cut off at zero
  from below. Each sum starts from zero, the additive unit of the extended reals, so at `(r, q)` these operations
  are the specification's normalisation through the deviation from the mean, in the same order.

  Soft-max: each row's largest entry, folded from minus infinity and then compared with minus infinity once more
  (which changes nothing: minus infinity is the unit of the maximum), is subtracted from the row; the exponentials of
  the differences are summed along the row, and the logarithm of that sum is subtracted from each difference.
-/
import proofs.«159197_j5257039970572_2_alg».proof.Proof.RefLayer
import proofs.«159197_j5257039970572_2_alg».proof.Proof.LibHostColumns

noncomputable section

open Idealize.ShloMosaic Idealize.ShloMosaic.ValueIdx Cert.LibHostReads Cert.Sage

namespace Cert.ReferenceIdeal.RefValue

variable {N C : ℕ}

/-! ## Column statistics -/

/-- The column sums from zero, divided by the number of nodes. -/
def meanOps (hred : (⟨2, ![N, C]⟩ : Shape).ReducesTo [0] (⟨1, ![C]⟩ : Shape)) (hS : 0 < S0.numel)
    (hC : S0.BroadcastsInDim ⟨1, ![C]⟩ ![]) (H : FVec Ideal ⟨2, ![N, C]⟩ .f32) : FVec Ideal ⟨1, ![C]⟩ .f32 :=
  Host.divf (Host.reduceAdd H (constant (F := Ideal) S0 .f32 0x00000000#32) hred hS) (splat _ hC 0x47C35000#32)

theorem meanOps_apply (hred : (⟨2, ![N, C]⟩ : Shape).ReducesTo [0] (⟨1, ![C]⟩ : Shape)) (hS : 0 < S0.numel)
    (hC : S0.BroadcastsInDim ⟨1, ![C]⟩ ![]) (H : FVec Ideal ⟨2, ![N, C]⟩ .f32) (q : Fin C) :
    meanOps hred hS hC H (ix1 q) = mean (cur H) q := by
  show Ideal.div (Host.reduceAdd (F := Ideal) (φ := .f32) H (constant (F := Ideal) S0 .f32 0x00000000#32) hred hS (ix1 q))
      (splat _ hC 0x47C35000#32 (ix1 q)) = _
  rw [Cert.LibHostColumns.hostColSum_apply, splat_apply]
  show Ideal.div (Ideal.ofBits .f32 0x00000000#32 + ∑ k : Fin N, H (ix2 k q)) (Ideal.ofBits .f32 0x47C35000#32) = _
  rw [Ideal.ofBits_zero_f32, zero_add]
  rfl

/-- The matrix less its column means. -/
def devOps (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (H : FVec Ideal ⟨2, ![N, C]⟩ .f32) : FVec Ideal ⟨2, ![N, C]⟩ .f32 :=
  subf H (rowB hr1 hr2 (meanOps hred hS hC H))

theorem devOps_apply (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (H : FVec Ideal ⟨2, ![N, C]⟩ .f32) (r : Fin N) (q : Fin C) :
    devOps hred hS hC hr1 hr2 H (ix2 r q) = cur H r q - mean (cur H) q := by
  show H (ix2 r q) - rowB hr1 hr2 (meanOps hred hS hC H) (ix2 r q) = _
  rw [rowB_apply, meanOps_apply]
  rfl

/-- The mean of the squared deviations. -/
def varOps (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (H : FVec Ideal ⟨2, ![N, C]⟩ .f32) : FVec Ideal ⟨1, ![C]⟩ .f32 :=
  Host.divf
    (Host.reduceAdd (mulf (devOps hred hS hC hr1 hr2 H) (devOps hred hS hC hr1 hr2 H))
      (constant (F := Ideal) S0 .f32 0x00000000#32) hred hS)
    (splat _ hC 0x47C35000#32)

theorem varOps_apply (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (H : FVec Ideal ⟨2, ![N, C]⟩ .f32) (q : Fin C) :
    varOps hred hS hC hr1 hr2 H (ix1 q) = varR (cur H) q := by
  show Ideal.div
      (Host.reduceAdd (F := Ideal) (φ := .f32) (mulf (devOps hred hS hC hr1 hr2 H) (devOps hred hS hC hr1 hr2 H))
        (constant (F := Ideal) S0 .f32 0x00000000#32) hred hS (ix1 q))
      (splat _ hC 0x47C35000#32 (ix1 q)) = _
  rw [Cert.LibHostColumns.hostColSum_apply, splat_apply]
  show Ideal.div (Ideal.ofBits .f32 0x00000000#32
        + ∑ k : Fin N, devOps hred hS hC hr1 hr2 H (ix2 k q) * devOps hred hS hC hr1 hr2 H (ix2 k q))
      (Ideal.ofBits .f32 0x47C35000#32) = _
  rw [Ideal.ofBits_zero_f32, zero_add]
  have hsum : ∑ k : Fin N, devOps hred hS hC hr1 hr2 H (ix2 k q) * devOps hred hS hC hr1 hr2 H (ix2 k q)
      = ∑ k : Fin N, (cur H k q - mean (cur H) q) * (cur H k q - mean (cur H) q) :=
    Finset.sum_congr rfl fun k _ => by rw [devOps_apply]
  rw [hsum]
  rfl

/-! ## Normalise and rectify -/

/-- The host's operations of one normalisation with rectification, on whole arrays. -/
def normOps (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (h0 : S0.BroadcastsInDim ⟨2, ![N, C]⟩ ![])
    (H : FVec Ideal ⟨2, ![N, C]⟩ .f32) (g be : FVec Ideal ⟨1, ![C]⟩ .f32) : FVec Ideal ⟨2, ![N, C]⟩ .f32 :=
  maximumf
    (addf
      (mulf (mulf (rowB hr1 hr2 g) (devOps hred hS hC hr1 hr2 H))
        (rowB hr1 hr2 (Host.rsqrt (addf (varOps hred hS hC hr1 hr2 H) (splat _ hC 0x3727C5AC#32)))))
      (rowB hr1 hr2 be))
    (splat _ h0 0x00000000#32)

/-- Read by row and column, they are the specification's normalisation through the deviation from the mean. -/
theorem normOps_apply (hred : (⟨2, ![N, C]⟩ : Shape).ReducesTo [0] (⟨1, ![C]⟩ : Shape)) (hS : 0 < S0.numel)
    (hC : S0.BroadcastsInDim ⟨1, ![C]⟩ ![])
    (hr1 : (⟨1, ![C]⟩ : Shape).BroadcastsInDim ⟨2, ![1, C]⟩ ![1])
    (hr2 : (⟨2, ![1, C]⟩ : Shape).BroadcastsInDim ⟨2, ![N, C]⟩ ![0, 1])
    (h0 : S0.BroadcastsInDim ⟨2, ![N, C]⟩ ![])
    (H : FVec Ideal ⟨2, ![N, C]⟩ .f32) (g be : FVec Ideal ⟨1, ![C]⟩ .f32) (X : Mat N C) (hX : cur H = X) :
    cur (normOps hred hS hC hr1 hr2 h0 H g be) = bnR (vec g) (vec be) X := by
  subst hX
  funext r q
  show max
      (rowB hr1 hr2 g (ix2 r q) * devOps hred hS hC hr1 hr2 H (ix2 r q)
          * rowB hr1 hr2 (Host.rsqrt (addf (varOps hred hS hC hr1 hr2 H) (splat _ hC 0x3727C5AC#32))) (ix2 r q)
        + rowB hr1 hr2 be (ix2 r q))
      (splat _ h0 0x00000000#32 (ix2 r q)) = _
  rw [rowB_apply, rowB_apply, rowB_apply, splat_apply, devOps_apply]
  show max
      (g (ix1 q) * (cur H r q - mean (cur H) q)
          * Ideal.rsqrt (varOps hred hS hC hr1 hr2 H (ix1 q) + splat _ hC 0x3727C5AC#32 (ix1 q))
        + be (ix1 q))
      (Ideal.ofBits .f32 0x00000000#32) = _
  rw [splat_apply, varOps_apply]
  rfl

/-! ## The row-wise logarithm of the soft-max -/

/-- Each row's largest entry, folded from minus infinity and compared with minus infinity once more. -/
def rowTop (hredR : (⟨2, ![N, C]⟩ : Shape).ReducesTo [1] (⟨1, ![N]⟩ : Shape)) (hS : 0 < S0.numel)
    (hN : S0.BroadcastsInDim ⟨1, ![N]⟩ ![]) (Z : FVec Ideal ⟨2, ![N, C]⟩ .f32) : FVec Ideal ⟨1, ![N]⟩ .f32 :=
  maximumf (splat _ hN 0xFF800000#32)
    (Host.reduce (FloatOps.maximumf (F := Ideal) (φ := .f32)) Z (constant (F := Ideal) S0 .f32 0xFF800000#32) hredR hS)

theorem rowTop_apply (hredR : (⟨2, ![N, C]⟩ : Shape).ReducesTo [1] (⟨1, ![N]⟩ : Shape)) (hS : 0 < S0.numel)
    (hN : S0.BroadcastsInDim ⟨1, ![N]⟩ ![]) (Z : FVec Ideal ⟨2, ![N, C]⟩ .f32) (r : Fin N) :
    rowTop hredR hS hN Z (ix1 r) = rowMax (cur Z r) := by
  show max (splat _ hN 0xFF800000#32 (ix1 r))
      (Host.reduce (FloatOps.maximumf (F := Ideal) (φ := .f32)) Z (constant (F := Ideal) S0 .f32 0xFF800000#32) hredR hS (ix1 r)) = _
  rw [splat_apply, Cert.Rows.neg_inf_max, hostRowMax_apply]
  rfl

/-- Each entry less its row's largest. -/
def shiftOps (hredR : (⟨2, ![N, C]⟩ : Shape).ReducesTo [1] (⟨1, ![N]⟩ : Shape)) (hS : 0 < S0.numel)
    (hN : S0.BroadcastsInDim ⟨1, ![N]⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (Z : FVec Ideal ⟨2, ![N, C]⟩ .f32) : FVec Ideal ⟨2, ![N, C]⟩ .f32 :=
  subf Z (colB hc1 hc2 (rowTop hredR hS hN Z))

theorem shiftOps_apply (hredR : (⟨2, ![N, C]⟩ : Shape).ReducesTo [1] (⟨1, ![N]⟩ : Shape)) (hS : 0 < S0.numel)
    (hN : S0.BroadcastsInDim ⟨1, ![N]⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (Z : FVec Ideal ⟨2, ![N, C]⟩ .f32) (r : Fin N) (q : Fin C) :
    shiftOps hredR hS hN hc1 hc2 Z (ix2 r q) = cur Z r q - rowMax (cur Z r) := by
  show Z (ix2 r q) - colB hc1 hc2 (rowTop hredR hS hN Z) (ix2 r q) = _
  rw [colB_apply, rowTop_apply]
  rfl

/-- The host's operations of the row-wise logarithm of the soft-max, on whole arrays. -/
def logSoftmaxOps (hredR : (⟨2, ![N, C]⟩ : Shape).ReducesTo [1] (⟨1, ![N]⟩ : Shape)) (hS : 0 < S0.numel)
    (hN : S0.BroadcastsInDim ⟨1, ![N]⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (Z : FVec Ideal ⟨2, ![N, C]⟩ .f32) : FVec Ideal ⟨2, ![N, C]⟩ .f32 :=
  subf (shiftOps hredR hS hN hc1 hc2 Z)
    (broadcastInDim ⟨2, ![N, C]⟩ ![0, 1] hc2
      (Host.log (broadcastInDim ⟨2, ![N, 1]⟩ ![0] hc1
        (Host.reduceAdd (Host.exp (shiftOps hredR hS hN hc1 hc2 Z)) (constant (F := Ideal) S0 .f32 0x00000000#32) hredR hS))))

/-- Read by row and column, they are the specification's logarithm of the soft-max. -/
theorem logSoftmaxOps_apply (hredR : (⟨2, ![N, C]⟩ : Shape).ReducesTo [1] (⟨1, ![N]⟩ : Shape)) (hS : 0 < S0.numel)
    (hN : S0.BroadcastsInDim ⟨1, ![N]⟩ ![])
    (hc1 : (⟨1, ![N]⟩ : Shape).BroadcastsInDim ⟨2, ![N, 1]⟩ ![0])
    (hc2 : (⟨2, ![N, 1]⟩ : Shape).BroadcastsInDim ⟨2, ![N, C]⟩ ![0, 1])
    (Z : FVec Ideal ⟨2, ![N, C]⟩ .f32) (X : Mat N C) (hX : cur Z = X) :
    cur (logSoftmaxOps hredR hS hN hc1 hc2 Z) = lsm X := by
  subst hX
  funext r q
  show shiftOps hredR hS hN hc1 hc2 Z (ix2 r q)
      - broadcastInDim ⟨2, ![N, C]⟩ ![0, 1] hc2
          (Host.log (broadcastInDim ⟨2, ![N, 1]⟩ ![0] hc1
            (Host.reduceAdd (Host.exp (shiftOps hredR hS hN hc1 hc2 Z)) (constant (F := Ideal) S0 .f32 0x00000000#32) hredR hS)))
          (ix2 r q) = _
  rw [colOuter_apply]
  show shiftOps hredR hS hN hc1 hc2 Z (ix2 r q)
      - Ideal.log (broadcastInDim ⟨2, ![N, 1]⟩ ![0] hc1
          (Host.reduceAdd (F := Ideal) (φ := .f32) (Host.exp (shiftOps hredR hS hN hc1 hc2 Z))
            (constant (F := Ideal) S0 .f32 0x00000000#32) hredR hS) (ix2 r 0)) = _
  rw [colInner_apply, hostRowSum_apply]
  show shiftOps hredR hS hN hc1 hc2 Z (ix2 r q)
      - Ideal.log (Ideal.ofBits .f32 0x00000000#32 + ∑ c : Fin C, Ideal.exp (shiftOps hredR hS hN hc1 hc2 Z (ix2 r c))) = _
  rw [Ideal.ofBits_zero_f32, zero_add, shiftOps_apply]
  have hsum : ∑ c : Fin C, Ideal.exp (shiftOps hredR hS hN hc1 hc2 Z (ix2 r c))
      = ∑ c : Fin C, Ideal.exp (cur Z r c - rowMax (cur Z r)) :=
    Finset.sum_congr rfl fun c _ => by rw [shiftOps_apply]
  rw [hsum]
  rfl

end Cert.ReferenceIdeal.RefValue

end
-- ==== Proof.RefValue.lean ====
/-
  The reference program's result, read back as the network of the specification.

  The program is a chain of whole-array operations. Its stages fall into seven groups: the reciprocal in-degrees;
  three layers (take the source rows, add them into the target rows, scale by the reciprocal in-degree, multiply by
  one weight matrix, add the node's own row times another and the bias); two normalisations with rectification
  between the layers; and the row-wise logarithm of the soft-max at the end. Each group is one of the general
  readings of the host's operations at a row and a column, applied to the previous group's array; the edge sets and
  source rows come from the two index vectors, which every layer hands to the same gather and scatter as a column
  (the source indices first wrapped: a negative index counts from the end).
-/
import proofs.«159197_j5257039970572_2_alg».proof.Proof.RefReadP
import proofs.«159197_j5257039970572_2_alg».proof.Proof.RefNorm

noncomputable section

open Idealize.ShloMosaic Idealize.ShloMosaic.ValueIdx Cert.SegmentRows Cert.LibHostReads Cert.Sage
open Cert.ReferenceIdeal Cert.ReferenceIdeal.Gen Cert.ReferenceIdeal.ReadP

namespace Cert.ReferenceIdeal.RefValue

variable (a0 : FVec Ideal S100000x100 .f32) (a1 a2 : IVec S1600000 32) (a3 a4 : FVec Ideal S100x64 .f32)
  (a5 a6 a7 : FVec Ideal S64 .f32) (a8 a9 : FVec Ideal S64x64 .f32) (a10 a11 a12 : FVec Ideal S64 .f32)
  (a13 a14 : FVec Ideal S64x47 .f32) (a15 : FVec Ideal S47 .f32)

/-! ## The graph, from the index columns -/

/-- A column that reads as the target vector gives the target vector's edge sets. -/
theorem seg_of_col (col : IVec S1600000x1 32) (h : ∀ j : Fin 1600000, col (ix2 j 0) = a2 (ix1 j)) :
    (segment col : Fin 100000 → Finset (Fin 1600000)) = segOf a2 :=
  funext fun r => segment_of_col col a2 h r

/-- A column that reads as the wrapped source vector gives the source vector's rows. -/
theorem tk_of_col (col : IVec S1600000x1 32) (h : ∀ j : Fin 1600000, col (ix2 j 0) = wrapAt 100000#32 a1 j) :
    (takeRow (N := 100000) (by decide) col : Fin 1600000 → Fin 100000) = tkOf (by decide) 100000#32 a1 :=
  funext fun j => takeRow_of_col (by decide) 100000#32 col a1 h j

/-! ## The stages of the specification -/

/-- The first layer's pre-activation. -/
def hid1 : Mat 100000 64 :=
  preR (segOf (N := 100000) a2) (tkOf (N := 100000) (by decide) 100000#32 a1) (degInv (segOf (N := 100000) a2)) (cur a0) (cur a3) (cur a4) (vec a5)

/-- The first layer, normalised and rectified. -/
def act1 : Mat 100000 64 := bnR (vec a6) (vec a7) (hid1 a0 a1 a2 a3 a4 a5)

/-- The second layer's pre-activation. -/
def hid2 : Mat 100000 64 :=
  preR (segOf (N := 100000) a2) (tkOf (N := 100000) (by decide) 100000#32 a1) (degInv (segOf (N := 100000) a2)) (act1 a0 a1 a2 a3 a4 a5 a6 a7) (cur a8) (cur a9) (vec a10)

/-- The second layer, normalised and rectified. -/
def act2 : Mat 100000 64 := bnR (vec a11) (vec a12) (hid2 a0 a1 a2 a3 a4 a5 a6 a7 a8 a9 a10)

/-- The output layer's pre-activation. -/
def hid3 : Mat 100000 47 :=
  preR (segOf (N := 100000) a2) (tkOf (N := 100000) (by decide) 100000#32 a1) (degInv (segOf (N := 100000) a2)) (act2 a0 a1 a2 a3 a4 a5 a6 a7 a8 a9 a10 a11 a12) (cur a13) (cur a14) (vec a15)

/-! ## The program's stages are the specification's -/

/-- The reciprocal in-degrees. -/
theorem deg_eq : vec (val_main_v7 (F := Ideal) a2) = degInv (segOf (N := 100000) a2) :=
  degOps_apply (N := 100000) (E := 1600000) scatter_S100000_S1600000x1_S1600000_n_0_0_1
    scatter_S100000_S1600000x1_S1600000_n_0_0_1_wf rfl bcast_S_S100000 bcast_S_S1600000
    (val_main_v2 (F := Ideal) a2) (segOf (N := 100000) a2)
    (seg_of_col a2 _ fun j => colInner_apply a2 bcast_S1600000_S1600000x1_0 j)

/-- The first layer. -/
theorem hid1_eq : cur (val_main_v26 (F := Ideal) a0 a1 a2 a3 a4 a5) = hid1 a0 a1 a2 a3 a4 a5 :=
  layerOps_apply (N := 100000) (E := 1600000) (K := 100) (C := 64) (by decide)
    gather_S100000x100_S1600000x1_S1600000x100_1_0_n_n_0_1_1100
    gather_S100000x100_S1600000x1_S1600000x100_1_0_n_n_0_1_1100_wf rfl
    scatter_S100000x100_S1600000x1_S1600000x100_1_0_0_1 scatter_S100000x100_S1600000x1_S1600000x100_1_0_0_1_wf rfl
    dot_S100000x100_S100x64_S100000x64_1_0_0_1_n_n rfl rfl rfl rfl rfl rfl
    bcast_S_S100000x100 bcast_S100000_S100000x1_0 bcast_S100000x1_S100000x100_0_1 bcast_S64_S1x64_1
    bcast_S1x64_S100000x64_0_1
    a0 (val_main_v13 (F := Ideal) a1) (val_main_v16 (F := Ideal) a2) (val_main_v7 (F := Ideal) a2) a3 a4 a5
    (segOf (N := 100000) a2) (seg_of_col a2 _ fun j => colInner_apply a2 bcast_S1600000_S1600000x1_0 j)
    (tkOf (N := 100000) (by decide) 100000#32 a1)
    (tk_of_col a1 _ fun j => (colInner_apply (val_main_v12 (F := Ideal) a1) bcast_S1600000_S1600000x1_0 j).trans rfl)
    (degInv (segOf (N := 100000) a2)) (deg_eq a2) (cur a0) rfl

/-- The first normalisation. -/
theorem act1_eq : cur (val_main_v52 (F := Ideal) a0 a1 a2 a3 a4 a5 a6 a7) = act1 a0 a1 a2 a3 a4 a5 a6 a7 :=
  normOps_apply (N := 100000) (C := 64) reducesTo_S100000x64_S64_d0 h_S_ bcast_S_S64 bcast_S64_S1x64_1
    bcast_S1x64_S100000x64_0_1 bcast_S_S100000x64 (val_main_v26 (F := Ideal) a0 a1 a2 a3 a4 a5) a6 a7
    (hid1 a0 a1 a2 a3 a4 a5) (hid1_eq a0 a1 a2 a3 a4 a5)

/-- The second layer. -/
theorem hid2_eq : cur (val_main_v71 (F := Ideal) a0 a1 a2 a3 a4 a5 a6 a7 a8 a9 a10) = hid2 a0 a1 a2 a3 a4 a5 a6 a7 a8 a9 a10 :=
  layerOps_apply (N := 100000) (E := 1600000) (K := 64) (C := 64) (by decide)
    gather_S100000x64_S1600000x1_S1600000x64_1_0_n_n_0_1_164
    gather_S100000x64_S1600000x1_S1600000x64_1_0_n_n_0_1_164_wf rfl
    scatter_S100000x64_S1600000x1_S1600000x64_1_0_0_1 scatter_S100000x64_S1600000x1_S1600000x64_1_0_0_1_wf rfl
    dot_S100000x64_S64x64_S100000x64_1_0_0_1_n_n rfl rfl rfl rfl rfl rfl
    bcast_S_S100000x64 bcast_S100000_S100000x1_0 bcast_S100000x1_S100000x64_0_1 bcast_S64_S1x64_1
    bcast_S1x64_S100000x64_0_1
    (val_main_v52 (F := Ideal) a0 a1 a2 a3 a4 a5 a6 a7) (val_main_v58 (F := Ideal) a1) (val_main_v61 (F := Ideal) a2)
    (val_main_v7 (F := Ideal) a2) a8 a9 a10
    (segOf (N := 100000) a2) (seg_of_col a2 _ fun j => colInner_apply a2 bcast_S1600000_S1600000x1_0 j)
    (tkOf (N := 100000) (by decide) 100000#32 a1)
    (tk_of_col a1 _ fun j => (colInner_apply (val_main_v57 (F := Ideal) a1) bcast_S1600000_S1600000x1_0 j).trans rfl)
    (degInv (segOf (N := 100000) a2)) (deg_eq a2) (act1 a0 a1 a2 a3 a4 a5 a6 a7) (act1_eq a0 a1 a2 a3 a4 a5 a6 a7)

/-- The second normalisation. -/
theorem act2_eq : cur (val_main_v97 (F := Ideal) a0 a1 a2 a3 a4 a5 a6 a7 a8 a9 a10 a11 a12) = act2 a0 a1 a2 a3 a4 a5 a6 a7 a8 a9 a10 a11 a12 :=
  normOps_apply (N := 100000) (C := 64) reducesTo_S100000x64_S64_d0 h_S_ bcast_S_S64 bcast_S64_S1x64_1
    bcast_S1x64_S100000x64_0_1 bcast_S_S100000x64 (val_main_v71 (F := Ideal) a0 a1 a2 a3 a4 a5 a6 a7 a8 a9 a10) a11 a12
    (hid2 a0 a1 a2 a3 a4 a5 a6 a7 a8 a9 a10) (hid2_eq a0 a1 a2 a3 a4 a5 a6 a7 a8 a9 a10)

/-- The output layer. -/
theorem hid3_eq : cur (val_main_v116 (F := Ideal) a0 a1 a2 a3 a4 a5 a6 a7 a8 a9 a10 a11 a12 a13 a14 a15) = hid3 a0 a1 a2 a3 a4 a5 a6 a7 a8 a9 a10 a11 a12 a13 a14 a15 :=
  layerOps_apply (N := 100000) (E := 1600000) (K := 64) (C := 47) (by decide)
    gather_S100000x64_S1600000x1_S1600000x64_1_0_n_n_0_1_164
    gather_S100000x64_S1600000x1_S1600000x64_1_0_n_n_0_1_164_wf rfl
    scatter_S100000x64_S1600000x1_S1600000x64_1_0_0_1 scatter_S100000x64_S1600000x1_S1600000x64_1_0_0_1_wf rfl
    dot_S100000x64_S64x47_S100000x47_1_0_0_1_n_n rfl rfl rfl rfl rfl rfl
    bcast_S_S100000x64 bcast_S100000_S100000x1_0 bcast_S100000x1_S100000x64_0_1 bcast_S47_S1x47_1
    bcast_S1x47_S100000x47_0_1
    (val_main_v97 (F := Ideal) a0 a1 a2 a3 a4 a5 a6 a7 a8 a9 a10 a11 a12) (val_main_v103 (F := Ideal) a1) (val_main_v106 (F := Ideal) a2)
    (val_main_v7 (F := Ideal) a2) a13 a14 a15
    (segOf (N := 100000) a2) (seg_of_col a2 _ fun j => colInner_apply a2 bcast_S1600000_S1600000x1_0 j)
    (tkOf (N := 100000) (by decide) 100000#32 a1)
    (tk_of_col a1 _ fun j => (colInner_apply (val_main_v102 (F := Ideal) a1) bcast_S1600000_S1600000x1_0 j).trans rfl)
    (degInv (segOf (N := 100000) a2)) (deg_eq a2) (act2 a0 a1 a2 a3 a4 a5 a6 a7 a8 a9 a10 a11 a12) (act2_eq a0 a1 a2 a3 a4 a5 a6 a7 a8 a9 a10 a11 a12)

/-- The logarithm of the soft-max of the output layer. -/
theorem out_eq : cur (val_main_v117 (F := Ideal) a0 a1 a2 a3 a4 a5 a6 a7 a8 a9 a10 a11 a12 a13 a14 a15) = lsm (hid3 a0 a1 a2 a3 a4 a5 a6 a7 a8 a9 a10 a11 a12 a13 a14 a15) :=
  logSoftmaxOps_apply (N := 100000) (C := 47) reducesTo_S100000x47_S100000_d1 h_S_ bcast_S_S100000
    bcast_S100000_S100000x1_0 bcast_S100000x1_S100000x47_0_1 (val_main_v116 (F := Ideal) a0 a1 a2 a3 a4 a5 a6 a7 a8 a9 a10 a11 a12 a13 a14 a15)
    (hid3 a0 a1 a2 a3 a4 a5 a6 a7 a8 a9 a10 a11 a12 a13 a14 a15) (hid3_eq a0 a1 a2 a3 a4 a5 a6 a7 a8 a9 a10 a11 a12 a13 a14 a15)

/-- The reference's result, read by row and column, is the specification's network that sums the neighbours before
    each product and normalises through the deviation from the mean. -/
theorem net_eq :
    cur (val_main_v117 (F := Ideal) a0 a1 a2 a3 a4 a5 a6 a7 a8 a9 a10 a11 a12 a13 a14 a15)
      = netR (segOf (N := 100000) a2) (tkOf (N := 100000) (by decide) 100000#32 a1) (cur a0) (cur a3) (cur a4) (vec a5) (vec a6) (vec a7) (cur a8) (cur a9) (vec a10) (vec a11)
          (vec a12) (cur a13) (cur a14) (vec a15) :=
  out_eq a0 a1 a2 a3 a4 a5 a6 a7 a8 a9 a10 a11 a12 a13 a14 a15

/-- THE REFERENCE'S RESULT, at node `r` and class `q`, is the specification's network that sums the neighbours before
    each product and normalises through the deviation from the mean. -/
theorem result_eq (r : Fin 100000) (q : Fin 47) :
    val_main_v117 (F := Ideal) a0 a1 a2 a3 a4 a5 a6 a7 a8 a9 a10 a11 a12 a13 a14 a15 (ix2 r q)
      = netR (segOf (N := 100000) a2) (tkOf (N := 100000) (by decide) 100000#32 a1) (cur a0) (cur a3) (cur a4) (vec a5) (vec a6) (vec a7) (cur a8) (cur a9) (vec a10) (vec a11)
          (vec a12) (cur a13) (cur a14) (vec a15) r q :=
  congrFun (congrFun (out_eq a0 a1 a2 a3 a4 a5 a6 a7 a8 a9 a10 a11 a12 a13 a14 a15) r) q

/-- The same, as one equation between arrays. -/
theorem result_fun :
    val_main_v117 (F := Ideal) a0 a1 a2 a3 a4 a5 a6 a7 a8 a9 a10 a11 a12 a13 a14 a15
      = fun i => netR (segOf (N := 100000) a2) (tkOf (N := 100000) (by decide) 100000#32 a1) (cur a0) (cur a3) (cur a4) (vec a5) (vec a6) (vec a7) (cur a8) (cur a9) (vec a10) (vec a11)
          (vec a12) (cur a13) (cur a14) (vec a15) (i 0) (i 1) :=
  funext fun i =>
    (congrArg (val_main_v117 (F := Ideal) a0 a1 a2 a3 a4 a5 a6 a7 a8 a9 a10 a11 a12 a13 a14 a15) (eq_ix2 i)).trans
      (result_eq a0 a1 a2 a3 a4 a5 a6 a7 a8 a9 a10 a11 a12 a13 a14 a15 (i 0) (i 1))

end Cert.ReferenceIdeal.RefValue

end
-- ==== Proof.Claims.lean ====
/-
  The five claims.

  The two kernel programs' frames are the generated launches; the reference's is its run with the result dropped.
  The ideal pass rewrote nothing, so there is nothing to preserve. For the value: the idealized kernel ends with its
  result array at the network written with each product taken before the neighbour sum and the normalisation folded
  into a scale and a shift; the idealized reference ends at the network with each neighbour sum taken first and the
  normalisation through the deviation from the mean, of arguments that agree. Under the precondition every entry of
  every float argument is a real number, and on real data the two networks are one function: the neighbour sum and
  the row scale commute with a product on the right, the mean square less the squared mean is the mean squared
  deviation and is never negative, and the affine fold is an identity once the inverse square root is a real.
-/
import proofs.«159197_j5257039970572_2_alg».proof.Defs
import proofs.«159197_j5257039970572_2_alg».proof.Proof.Gen.Kernel
import proofs.«159197_j5257039970572_2_alg».proof.Proof.Gen.KernelIdeal
import proofs.«159197_j5257039970572_2_alg».proof.Proof.Gen.ReferenceIdeal
import proofs.«159197_j5257039970572_2_alg».proof.Proof.Gen.Kernel.Frame
import proofs.«159197_j5257039970572_2_alg».proof.Proof.Gen.Pre_finite_inputs
import proofs.«159197_j5257039970572_2_alg».proof.Proof.KRun
import proofs.«159197_j5257039970572_2_alg».proof.Proof.Fold
import proofs.«159197_j5257039970572_2_alg».proof.Proof.Finite
import proofs.«159197_j5257039970572_2_alg».proof.Proof.Bridge
import proofs.«159197_j5257039970572_2_alg».proof.Proof.RefRunP
import proofs.«159197_j5257039970572_2_alg».proof.Proof.RefValue

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both idealized programs end, from memories agreeing on the arguments, with the same result array. -/
theorem algebraic : Cert.algebraic_KernelIdeal_ReferenceIdeal := by
  intro m ρ m' ρ' hpre hagree
  refine ⟨fun c => Cert.KernelIdeal.Fold.netArr m c, ?_, ?_⟩
  · exact (θ_run Cert.KernelIdeal.defs _ _).mono
      (fun r h c => ⟨(h c).1.trans (Cert.KernelIdeal.Fold.result_eq m ρ c), (h c).2⟩) (Cert.KernelIdeal.Run.run_result m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11, e12, e13, e14, e15⟩ := hagree c
    obtain ⟨r0, r3, r4, r5, r6, r7, r8, r9, r10, r11, r12, r13, r14, r15⟩ := Cert.Sage.finite_args _ _ _ _ _ _ _ _ _ _ _ _ _ _ _ _ (hpre c)
    unfold Cert.ReferenceIdeal.ValueP.res_main_v117
    rw [e0, e1, e2, e3, e4, e5, e6, e7, e8, e9, e10, e11, e12, e13, e14, e15, Cert.ReferenceIdeal.RefValue.result_fun]
    funext j
    exact (congrFun (congrFun (Cert.Sage.netK_eq_netR _ _ r0 r3 r4 r5 r6 r7 r8 r9 r10 r11 r12 r13 r14 r15) (j 0)) (j 1)).symm

end Cert.Proof.Claims

end
-- ==== Proof.lean ====
/-
  The certificate of one graph network computed two ways.

  A kernel program of six regions among stretches of host operations — project, aggregate over the edges, combine
  with the degree reciprocal, the node's own features and a bias while summing columns, normalise by a folded scale
  and shift and rectify, twice, then a last layer through the row-wise log-soft-max — against a reference that
  aggregates before each product and normalises through the deviation from the mean. Both are read at the instance
  where a float is an extended real and every operation is exact; under the precondition that every float input is
  finite they compute one function (Proof/Claims.lean assembles the parts; Proof/Spec.lean states the two networks).
-/
import proofs.«159197_j5257039970572_2_alg».proof.Defs
import proofs.«159197_j5257039970572_2_alg».proof.Proof.Gen.Kernel
import proofs.«159197_j5257039970572_2_alg».proof.Proof.Gen.KernelIdeal
import proofs.«159197_j5257039970572_2_alg».proof.Proof.Gen.ReferenceIdeal
import proofs.«159197_j5257039970572_2_alg».proof.Proof.Gen.Pre_finite_inputs
import proofs.«159197_j5257039970572_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
